-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v9)) (v1 : (c : Dev Cert.KernelIdeal.nD) → Buf (Elt Ideal) ((c.tc : Thread Cert.KernelIdeal.nD Cert.KernelIdeal.τ).loc Cert.KernelIdeal.main_v8_0)) (v2 : (c : Dev Cert.KernelIdeal.nD) → Buf (Elt Ideal) ((c.tc : Thread Cert.KernelIdeal.nD Cert.KernelIdeal.τ).loc Cert.KernelIdeal.main_v8_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_v8_0) = v1 c
          ∧ r.2.mem ((c.tc : Thread Cert.KernelIdeal.nD Cert.KernelIdeal.τ).loc Cert.KernelIdeal.main_v8_1) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_v38) = v1 c
          ∧ r.2.mem ((c.tc : Thread Cert.ReferenceIdeal.nD Cert.ReferenceIdeal.τ).loc Cert.ReferenceIdeal.main_v28) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S1024x1024 : Shape := ⟨2, ![1024, 1024]⟩
abbrev S1024x32000 : Shape := ⟨2, ![1024, 32000]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024x32000 : S_.BroadcastsInDim S1024x32000 (![] : Fin 0 → Fin S1024x32000.rank)
  reducesTo_S1024x32000_S_d0_1 : S1024x32000.ReducesTo [0, 1] S_

variable [Facts]

def fn_part4 {F : FTy → Type} [FloatOps F] (main_arg14 : FVec F S1024x1024 .f32) (main_v63 : IVec S_ 1) (main_v67 : IVec S_ 1) : IVec S_ 1 :=
  let main_v68 : IVec S_ 1 := andi main_v63 main_v67
  let main_v69 : FVec F S1024x1024 .f32 := Host.absf main_arg14
  let main_cst_26 : FVec F S_ .f32 := constant S_ .f32 0x7F800000#32
  let main_v70 : FVec F S1024x1024 .f32 := broadcastInDim S1024x1024 ![] bcast_S_S1024x1024 main_cst_26
  let main_v71 : IVec S1024x1024 1 := cmpf .olt main_v69 main_v70
  let main_c_27 : IVec S_ 1 := constantI S_ 1 1#1
  let main_v72 : IVec S_ 1 := (fun x v => Host.reduce IntOp.andi x v reducesTo_S1024x1024_S_d0_1 h_S_) main_v71 main_c_27
  let main_v73 : IVec S_ 1 := andi main_v68 main_v72
  main_v73

def fn_part3 {F : FTy → Type} [FloatOps F] (main_arg11 : FVec F S1024x1024 .f32) (main_arg12 : FVec F S1024x1024 .f32) (main_arg13 : FVec F S1024x1024 .f32) (main_arg14 : FVec F S1024x1024 .f32) (main_v48 : IVec S_ 1) (main_v49 : FVec F S1024x32000 .f32) (main_v50 : FVec F S1024x32000 .f32) : IVec S_ 1 :=
  let main_v51 : IVec S1024x32000 1 := cmpf .olt main_v49 main_v50
  let main_c_19 : IVec S_ 1 := constantI S_ 1 1#1
  let main_v52 : IVec S_ 1 := (fun x v => Host.reduce IntOp.andi x v reducesTo_S1024x32000_S_d0_1 h_S_) main_v51 main_c_19
  let main_v53 : IVec S_ 1 := andi main_v48 main_v52
  let main_v54 : FVec F S1024x1024 .f32 := Host.absf main_arg11
  let main_cst_20 : FVec F S_ .f32 := constant S_ .f32 0x7F800000#32
  let main_v55 : FVec F S1024x1024 .f32 := broadcastInDim S1024x1024 ![] bcast_S_S1024x1024 main_cst_20
  let main_v56 : IVec S1024x1024 1 := cmpf .olt main_v54 main_v55
  let main_c_21 : IVec S_ 1 := constantI S_ 1 1#1
  let main_v57 : IVec S_ 1 := (fun x v => Host.reduce IntOp.andi x v reducesTo_S1024x1024_S_d0_1 h_S_) main_v56 main_c_21
  let main_v58 : IVec S_ 1 := andi main_v53 main_v57
  let main_v59 : FVec F S1024x1024 .f32 := Host.absf main_arg12
  let main_cst_22 : FVec F S_ .f32 := constant S_ .f32 0x7F800000#32
  let main_v60 : FVec F S1024x1024 .f32 := broadcastInDim S1024x1024 ![] bcast_S_S1024x1024 main_cst_22
  let main_v61 : IVec S1024x1024 1 := cmpf .olt main_v59 main_v60
  let main_c_23 : IVec S_ 1 := constantI S_ 1 1#1
  let main_v62 : IVec S_ 1 := (fun x v => Host.reduce IntOp.andi x v reducesTo_S1024x1024_S_d0_1 h_S_) main_v61 main_c_23
  let main_v63 : IVec S_ 1 := andi main_v58 main_v62
  let main_v64 : FVec F S1024x1024 .f32 := Host.absf main_arg13
  let main_cst_24 : FVec F S_ .f32 := constant S_ .f32 0x7F800000#32
  let main_v65 : FVec F S1024x1024 .f32 := broadcastInDim S1024x1024 ![] bcast_S_S1024x1024 main_cst_24
  let main_v66 : IVec S1024x1024 1 := cmpf .olt main_v64 main_v65
  let main_c_25 : IVec S_ 1 := constantI S_ 1 1#1
  let main_v67 : IVec S_ 1 := (fun x v => Host.reduce IntOp.andi x v reducesTo_S1024x1024_S_d0_1 h_S_) main_v66 main_c_25
  fn_part4 (F := F) main_arg14 main_v63 main_v67

def fn_part2 {F : FTy → Type} [FloatOps F] (main_arg7 : FVec F S1024x1024 .f32) (main_arg8 : FVec F S1024x1024 .f32) (main_arg9 : FVec F S1024x1024 .f32) (main_arg10 : FVec F S1024x32000 .f32) (main_arg11 : FVec F S1024x1024 .f32) (main_arg12 : FVec F S1024x1024 .f32) (main_arg13 : FVec F S1024x1024 .f32) (main_arg14 : FVec F S1024x1024 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024x1024 .f32 := Host.absf main_arg8
  let main_cst_14 : FVec F S_ .f32 := constant S_ .f32 0x7F800000#32
  let main_v40 : FVec F S1024x1024 .f32 := broadcastInDim S1024x1024 ![] bcast_S_S1024x1024 main_cst_14
  let main_v41 : IVec S1024x1024 1 := cmpf .olt main_v39 main_v40
  let main_c_15 : IVec S_ 1 := constantI S_ 1 1#1
  let main_v42 : IVec S_ 1 := (fun x v => Host.reduce IntOp.andi x v reducesTo_S1024x1024_S_d0_1 h_S_) main_v41 main_c_15
  let main_v43 : IVec S_ 1 := andi main_v38 main_v42
  let main_v44 : FVec F S1024x1024 .f32 := Host.absf main_arg9
  let main_cst_16 : FVec F S_ .f32 := constant S_ .f32 0x7F800000#32
  let main_v45 : FVec F S1024x1024 .f32 := broadcastInDim S1024x1024 ![] bcast_S_S1024x1024 main_cst_16
  let main_v46 : IVec S1024x1024 1 := cmpf .olt main_v44 main_v45
  let main_c_17 : IVec S_ 1 := constantI S_ 1 1#1
  let main_v47 : IVec S_ 1 := (fun x v => Host.reduce IntOp.andi x v reducesTo_S1024x1024_S_d0_1 h_S_) main_v46 main_c_17
  let main_v48 : IVec S_ 1 := andi main_v43 main_v47
  let main_v49 : FVec F S1024x32000 .f32 := Host.absf main_arg10
  let main_cst_18 : FVec F S_ .f32 := constant S_ .f32 0x7F800000#32
  let main_v50 : FVec F S1024x32000 .f32 := broadcastInDim S1024x32000 ![] bcast_S_S1024x32000 main_cst_18
  fn_part3 (F := F) main_arg11 main_arg12 main_arg13 main_arg14 main_v48 main_v49 main_v50

def fn_part1 {F : FTy → Type} [FloatOps F] (main_arg4 : FVec F S1024x1024 .f32) (main_arg5 : FVec F S1024x1024 .f32) (main_arg6 : FVec F S1024x1024 .f32) (main_arg7 : FVec F S1024x1024 .f32) (main_arg8 : FVec F S1024x1024 .f32) (main_arg9 : FVec F S1024x1024 .f32) (main_arg10 : FVec F S1024x32000 .f32) (main_arg11 : FVec F S1024x1024 .f32) (main_arg12 : FVec F S1024x1024 .f32) (main_arg13 : FVec F S1024x1024 .f32) (main_arg14 : FVec F S1024x1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024x1024 .f32 := Host.absf main_arg6
  let main_cst_10 : FVec F S_ .f32 := constant S_ .f32 0x7F800000#32
  let main_v30 : FVec F S1024x1024 .f32 := broadcastInDim S1024x1024 ![] bcast_S_S1024x1024 main_cst_10
  let main_v31 : IVec S1024x1024 1 := cmpf .olt main_v29 main_v30
  let main_c_11 : IVec S_ 1 := constantI S_ 1 1#1
  let main_v32 : IVec S_ 1 := (fun x v => Host.reduce IntOp.andi x v reducesTo_S1024x1024_S_d0_1 h_S_) main_v31 main_c_11
  let main_v33 : IVec S_ 1 := andi main_v28 main_v32
  fn_part2 (F := F) main_arg7 main_arg8 main_arg9 main_arg10 main_arg11 main_arg12 main_arg13 main_arg14 main_v33

def fn {F : FTy → Type} [FloatOps F] (main_arg0 : FVec F S4096x1024 .f32) (main_arg1 : FVec F S4096x1024 .f32) (main_arg2 : FVec F S4096x1024 .f32) (main_arg3 : FVec F S1024x1024 .f32) (main_arg4 : FVec F S1024x1024 .f32) (main_arg5 : FVec F S1024x1024 .f32) (main_arg6 : FVec F S1024x1024 .f32) (main_arg7 : FVec F S1024x1024 .f32) (main_arg8 : FVec F S1024x1024 .f32) (main_arg9 : FVec F S1024x1024 .f32) (main_arg10 : FVec F S1024x32000 .f32) (main_arg11 : FVec F S1024x1024 .f32) (main_arg12 : FVec F S1024x1024 .f32) (main_arg13 : FVec F S1024x1024 .f32) (main_arg14 : FVec F S1024x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S4096x1024 .f32 := Host.absf main_arg2
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_c_3 : IVec S_ 1 := constantI S_ 1 1#1
  let main_v12 : IVec S_ 1 := (fun x v => Host.reduce IntOp.andi x v reducesTo_S4096x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_arg9 main_arg10 main_arg11 main_arg12 main_arg13 main_arg14 main_v13 main_v16
-- ==== Kernel.lean ====
abbrev S4096x1024 : Shape := ⟨2, ![4096, 1024]⟩
abbrev S1024x1024 : Shape := ⟨2, ![1024, 1024]⟩
abbrev S1024x32000 : Shape := ⟨2, ![1024, 32000]⟩
abbrev S1024x4096 : Shape := ⟨2, ![1024, 4096]⟩
abbrev S1024x2048 : Shape := ⟨2, ![1024, 2048]⟩
abbrev S128x1024 : Shape := ⟨2, ![128, 1024]⟩
abbrev S128x4096 : Shape := ⟨2, ![128, 4096]⟩
abbrev S128x2048 : Shape := ⟨2, ![128, 2048]⟩
abbrev S4096x32000 : Shape := ⟨2, ![4096, 32000]⟩
abbrev S512x1024 : Shape := ⟨2, ![512, 1024]⟩
abbrev S1024x3200 : Shape := ⟨2, ![1024, 3200]⟩
abbrev S512x3200 : Shape := ⟨2, ![512, 3200]⟩

abbrev nBuf : Space → Nat
  | .hbm => 27
  | .vmem => 21
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024x1024, .f32⟩
  | .hbm, ⟨9, _⟩ => ⟨S1024x1024, .f32⟩
  | .hbm, ⟨10, _⟩ => ⟨S1024x32000, .f32⟩
  | .hbm, ⟨11, _⟩ => ⟨S1024x1024, .f32⟩
  | .hbm, ⟨12, _⟩ => ⟨S1024x1024, .f32⟩
  | .hbm, ⟨13, _⟩ => ⟨S1024x1024, .f32⟩
  | .hbm, ⟨14, _⟩ => ⟨S1024x1024, .f32⟩
  | .hbm, ⟨15, _⟩ => ⟨S1024x4096, .f32⟩
  | .hbm, ⟨16, _⟩ => ⟨S1024x4096, .bf16⟩
  | .hbm, ⟨17, _⟩ => ⟨S1024x4096, .f32⟩
  | .hbm, ⟨18, _⟩ => ⟨S1024x4096, .bf16⟩
  | .hbm, ⟨19, _⟩ => ⟨S1024x2048, .f32⟩
  | .hbm, ⟨20, _⟩ => ⟨S1024x2048, .bf16⟩
  | .hbm, ⟨21, _⟩ => ⟨S1024x1024, .bf16⟩
  | .hbm, ⟨22, _⟩ => ⟨S1024x32000, .bf16⟩
  | .hbm, ⟨23, _⟩ => ⟨S4096x1024, .f32⟩
  | .hbm, ⟨24, _⟩ => ⟨S4096x1024, .f32⟩
  | .hbm, ⟨25, _⟩ => ⟨S4096x1024, .bf16⟩
  | .hbm, ⟨26, _⟩ => ⟨S4096x32000, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S1024x4096, .bf16⟩
  | .local _ .vmem, ⟨7, _⟩ => ⟨S1024x4096, .bf16⟩
  | .local _ .vmem, ⟨8, _⟩ => ⟨S1024x2048, .bf16⟩
  | .local _ .vmem, ⟨9, _⟩ => ⟨S1024x1024, .bf16⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | .local _ .vmem, ⟨14, _⟩ => ⟨S128x1024, .bf16⟩
  | .local _ .vmem, ⟨15, _⟩ => ⟨S128x1024, .bf16⟩
  | .local _ .vmem, ⟨16, _⟩ => ⟨S512x1024, .bf16⟩
  | .local _ .vmem, ⟨17, _⟩ => ⟨S512x1024, .bf16⟩
  | .local _ .vmem, ⟨18, _⟩ => ⟨S1024x3200, .bf16⟩
  | .local _ .vmem, ⟨19, _⟩ => ⟨S512x3200, .f32⟩
  | .local _ .vmem, ⟨20, _⟩ => ⟨S512x3200, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8_0 : Ref sig .tc := ⟨.hbm, 23, rfl⟩
abbrev main_v8_1 : Ref sig .tc := ⟨.hbm, 24, rfl⟩
abbrev main_v8_2 : Ref sig .tc := ⟨.hbm, 25, rfl⟩
abbrev main_v9 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg2_0 : Ref sig .tc := ⟨.vmem, 19, rfl⟩
abbrev cc1_stg2_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc1_sem0_0 : DmaSem sig := 16
abbrev cc1_sem0_1 : DmaSem sig := 17
abbrev cc1_sem1_0 : DmaSem sig := 18
abbrev cc1_sem2_0 : DmaSem sig := 19
abbrev cc1_sem2_1 : DmaSem sig := 20

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨2, ![10, 8], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 2 → Memref sig .tc .vmem S512x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 1 → Memref sig .tc .vmem S1024x3200 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![true, false]

abbrev stage1_2 : Fin 2 → Memref sig .tc .vmem S512x3200 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

class Facts₀ : Prop where
  concatenates_S1024x1024_S1024x1024_S1024x1024_S1024x1024_S1024x4096_d1 : Shape.Concatenates [S1024x1024, S1024x1024, S1024x1024, S1024x1024] S1024x4096 1
  bitsLt_bf16_f32 : FTy.bits .bf16 < FTy.bits .f32
  concatenates_S1024x1024_S1024x1024_S1024x2048_d1 : Shape.Concatenates [S1024x1024, S1024x1024] S1024x2048 1
  inb_S128x1024_S128x1024_0_0 : ∀ a, (![0, 0] : Fin 2 → Nat) a + S128x1024.size a ≤ S128x1024.size a
  h_S128x1024 : 0 < S128x1024.numel
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  slices_S128x4096_o0_0_S128x1024 : S128x4096.Slices ![0, 0] S128x1024
  slices_S128x4096_o0_1024_S128x1024 : S128x4096.Slices ![0, 1024] S128x1024
  slices_S128x4096_o0_2048_S128x1024 : S128x4096.Slices ![0, 2048] S128x1024
  slices_S128x4096_o0_3072_S128x1024 : S128x4096.Slices ![0, 3072] S128x1024
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  slices_S128x2048_o0_0_S128x1024 : S128x2048.Slices ![0, 0] S128x1024
  slices_S128x2048_o0_1024_S128x1024 : S128x2048.Slices ![0, 1024] S128x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  packedbf16_S128x1024_S128x1024_0_0 : (Rect.unit (s := S128x1024) ![0, 0] S128x1024.size inb_S128x1024_S128x1024_0_0).PackedRows (EltTy.packing .bf16)
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x3200_S1024x3200_0_0 : ∀ a, (![0, 0] : Fin 2 → Nat) a + S1024x3200.size a ≤ S1024x3200.size a
  h_S1024x3200 : 0 < S1024x3200.numel
  shapeCasts_S1024x3200_S1024x3200 : S1024x3200.ShapeCasts S1024x3200
  inb_S512x3200_S512x3200_0_0 : ∀ a, (![0, 0] : Fin 2 → Nat) a + S512x3200.size a ≤ S512x3200.size a
  h_S512x3200 : 0 < S512x3200.numel
  dot_S128x1024_S1024x4096_S128x4096_1_0_0_1_n_n_wf : DotDims.WF S128x1024 S1024x4096 S128x4096 [1] [0] [0] [1] [] []
  dot_S128x1024_S1024x2048_S128x2048_1_0_0_1_n_n_wf : DotDims.WF S128x1024 S1024x2048 S128x2048 [1] [0] [0] [1] [] []
  dot_S128x1024_S1024x1024_S128x1024_1_0_0_1_n_n_wf : DotDims.WF S128x1024 S1024x1024 S128x1024 [1] [0] [0] [1] [] []
  dot_S512x1024_S1024x3200_S512x3200_1_0_0_1_n_n_wf : DotDims.WF S512x1024 S1024x3200 S512x3200 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x1024.size a ≤ S4096x1024.size a
  hwx0_0 : ∀ i : grid0.Coords, EltTy.bits .f32 = 32 ∨ (Rect.block (s := S4096x1024) S128x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x1024.size a ≤ S4096x1024.size a
  hwx0_1 : ∀ i : grid0.Coords, EltTy.bits .f32 = 32 ∨ (Rect.block (s := S4096x1024) S128x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x1024.size a ≤ S4096x1024.size a
  hwx0_2 : ∀ i : grid0.Coords, EltTy.bits .f32 = 32 ∨ (Rect.block (s := S4096x1024) S128x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x4096.size a ≤ S1024x4096.size a
  hwx0_3 : ∀ i : grid0.Coords, EltTy.bits .bf16 = 32 ∨ (Rect.block (s := S1024x4096) S1024x4096.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x4096.size a ≤ S1024x4096.size a
  hwx0_4 : ∀ i : grid0.Coords, EltTy.bits .bf16 = 32 ∨ (Rect.block (s := S1024x4096) S1024x4096.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x2048.size a ≤ S1024x2048.size a
  hwx0_5 : ∀ i : grid0.Coords, EltTy.bits .bf16 = 32 ∨ (Rect.block (s := S1024x2048) S1024x2048.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1024x1024.size a ≤ S1024x1024.size a
  hwx0_6 : ∀ i : grid0.Coords, EltTy.bits .bf16 = 32 ∨ (Rect.block (s := S1024x1024) S1024x1024.size (cc0_transform_6 i) (hinb0_6 i)).WholeWords (EltTy.packing .bf16)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S128x1024.size a ≤ S4096x1024.size a
  hwx0_7 : ∀ i : grid0.Coords, EltTy.bits .f32 = 32 ∨ (Rect.block (s := S4096x1024) S128x1024.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S128x1024.size a ≤ S4096x1024.size a
  hwx0_8 : ∀ i : grid0.Coords, EltTy.bits .f32 = 32 ∨ (Rect.block (s := S4096x1024) S128x1024.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S128x1024.size a ≤ S4096x1024.size a
  hwx0_9 : ∀ i : grid0.Coords, EltTy.bits .bf16 = 32 ∨ (Rect.block (s := S4096x1024) S128x1024.size (cc0_transform_9 i) (hinb0_9 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x1024.size a ≤ S4096x1024.size a
  hwx1_0 : ∀ i : grid1.Coords, EltTy.bits .bf16 = 32 ∨ (Rect.block (s := S4096x1024) S512x1024.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x3200.size a ≤ S1024x32000.size a
  hwx1_1 : ∀ i : grid1.Coords, EltTy.bits .bf16 = 32 ∨ (Rect.block (s := S1024x32000) S1024x3200.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x3200.size a ≤ S4096x32000.size a
  hwx1_2 : ∀ i : grid1.Coords, EltTy.bits .f32 = 32 ∨ (Rect.block (s := S4096x32000) S512x3200.size (cc1_transform_2 i) (hinb1_2 i)).WholeWords (EltTy.packing .f32)

variable [Facts₀]

def dot_S128x1024_S1024x4096_S128x4096_1_0_0_1_n_n : DotDims S128x1024 S1024x4096 S128x4096 where
  lhsContracting := [1]
  rhsContracting := [0]
  lhsNonContracting := [0]
  rhsNonContracting := [1]
  lhsBatch := []
  rhsBatch := []
  wf := dot_S128x1024_S1024x4096_S128x4096_1_0_0_1_n_n_wf
def dot_S128x1024_S1024x2048_S128x2048_1_0_0_1_n_n : DotDims S128x1024 S1024x2048 S128x2048 where
  lhsContracting := [1]
  rhsContracting := [0]
  lhsNonContracting := [0]
  rhsNonContracting := [1]
  lhsBatch := []
  rhsBatch := []
  wf := dot_S128x1024_S1024x2048_S128x2048_1_0_0_1_n_n_wf
def dot_S128x1024_S1024x1024_S128x1024_1_0_0_1_n_n : DotDims S128x1024 S1024x1024 S128x1024 where
  lhsContracting := [1]
  rhsContracting := [0]
  lhsNonContracting := [0]
  rhsNonContracting := [1]
  lhsBatch := []
  rhsBatch := []
  wf := dot_S128x1024_S1024x1024_S128x1024_1_0_0_1_n_n_wf
def dot_S512x1024_S1024x3200_S512x3200_1_0_0_1_n_n : DotDims S512x1024 S1024x3200 S512x3200 where
  lhsContracting := [1]
  rhsContracting := [0]
  lhsNonContracting := [0]
  rhsNonContracting := [1]
  lhsBatch := []
  rhsBatch := []
  wf := dot_S512x1024_S1024x3200_S512x3200_1_0_0_1_n_n_wf

abbrev win0_0 : Pipeline.Window sig grid0 :=
  Pipeline.Window.ofSpec (Memref.whole main_arg0) S128x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1024x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1024x4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1024x2048.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v6) S1024x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v8_0) S128x1024.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v8_1) S128x1024.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v8_2) S128x1024.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v8_2) S512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v7) S1024x3200.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v9) S512x3200.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S4096x1024 : Shape := ⟨2, ![4096, 1024]⟩
abbrev S1024x1024 : Shape := ⟨2, ![1024, 1024]⟩
abbrev S1024x32000 : Shape := ⟨2, ![1024, 32000]⟩
abbrev S1024x4096 : Shape := ⟨2, ![1024, 4096]⟩
abbrev S4096x4096 : Shape := ⟨2, ![4096, 4096]⟩
abbrev S_ : Shape := ⟨0, ![]⟩
abbrev S4096x32000 : Shape := ⟨2, ![4096, 32000]⟩

abbrev nBuf : Space → Nat
  | .hbm => 69
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024x1024, .f32⟩
  | .hbm, ⟨9, _⟩ => ⟨S1024x1024, .f32⟩
  | .hbm, ⟨10, _⟩ => ⟨S1024x32000, .f32⟩
  | .hbm, ⟨11, _⟩ => ⟨S1024x1024, .f32⟩
  | .hbm, ⟨12, _⟩ => ⟨S1024x1024, .f32⟩
  | .hbm, ⟨13, _⟩ => ⟨S1024x1024, .f32⟩
  | .hbm, ⟨14, _⟩ => ⟨S1024x1024, .f32⟩
  | .hbm, ⟨15, _⟩ => ⟨S1024x4096, .f32⟩
  | .hbm, ⟨16, _⟩ => ⟨S1024x4096, .f32⟩
  | .hbm, ⟨17, _⟩ => ⟨S4096x4096, .f32⟩
  | .hbm, ⟨18, _⟩ => ⟨S4096x4096, .f32⟩
  | .hbm, ⟨19, _⟩ => ⟨S4096x4096, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S4096x1024, .f32⟩
  | .hbm, ⟨30, _⟩ => ⟨S4096x1024, .f32⟩
  | .hbm, ⟨31, _⟩ => ⟨S_, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S_, .f32⟩
  | .hbm, ⟨39, _⟩ => ⟨S4096x1024, .f32⟩
  | .hbm, ⟨40, _⟩ => ⟨S4096x1024, .f32⟩
  | .hbm, ⟨41, _⟩ => ⟨S_, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S_, .f32⟩
  | .hbm, ⟨53, _⟩ => ⟨S4096x1024, .f32⟩
  | .hbm, ⟨54, _⟩ => ⟨S4096x1024, .f32⟩
  | .hbm, ⟨55, _⟩ => ⟨S_, .f32⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S4096x32000, .f32⟩
  | .hbm, ⟨61, _⟩ => ⟨S4096x32000, .f32⟩
  | .hbm, ⟨62, _⟩ => ⟨S4096x32000, .f32⟩
  | .hbm, ⟨63, _⟩ => ⟨S_, .f32⟩
  | .hbm, ⟨64, _⟩ => ⟨S4096x32000, .f32⟩
  | .hbm, ⟨65, _⟩ => ⟨S4096x32000, .f32⟩
  | .hbm, ⟨66, _⟩ => ⟨S_, .f32⟩
  | .hbm, ⟨67, _⟩ => ⟨S4096x32000, .f32⟩
  | .hbm, ⟨68, _⟩ => ⟨S4096x32000, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_cst : Ref sig .tc := ⟨.hbm, 28, rfl⟩
abbrev main_v13 : Ref sig .tc := ⟨.hbm, 29, rfl⟩
abbrev main_v14 : Ref sig .tc := ⟨.hbm, 30, rfl⟩
abbrev main_cst_0 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_cst_1 : Ref sig .tc := ⟨.hbm, 38, rfl⟩
abbrev main_v21 : Ref sig .tc := ⟨.hbm, 39, rfl⟩
abbrev main_v22 : Ref sig .tc := ⟨.hbm, 40, rfl⟩
abbrev main_cst_2 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_3 : Ref sig .tc := ⟨.hbm, 52, rfl⟩
abbrev main_v33 : Ref sig .tc := ⟨.hbm, 53, rfl⟩
abbrev main_v34 : Ref sig .tc := ⟨.hbm, 54, rfl⟩
abbrev main_cst_4 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_5 : Ref sig .tc := ⟨.hbm, 63, rfl⟩
abbrev main_v42 : Ref sig .tc := ⟨.hbm, 64, rfl⟩
abbrev main_v43 : Ref sig .tc := ⟨.hbm, 65, rfl⟩
abbrev main_cst_6 : Ref sig .tc := ⟨.hbm, 66, rfl⟩
abbrev main_v44 : Ref sig .tc := ⟨.hbm, 67, rfl⟩
abbrev main_v45 : Ref sig .tc := ⟨.hbm, 68, rfl⟩

abbrev nD : Nat := 1
abbrev τ : Topo := Topo.v7x

variable {F : FTy → Type} [FloatOps F]

class Facts₀ : Prop where
  concatenates_S1024x1024_S1024x1024_S1024x1024_S1024x1024_S1024x4096_d1 : Shape.Concatenates [S1024x1024, S1024x1024, S1024x1024, S1024x1024] S1024x4096 1
  slices_S4096x4096_S4096x1024_0_0 : S4096x4096.Slices ![0, 0] S4096x1024
  slices_S4096x4096_S4096x1024_0_1024 : S4096x4096.Slices ![0, 1024] S4096x1024
  slices_S4096x4096_S4096x1024_0_2048 : S4096x4096.Slices ![0, 2048] S4096x1024
  slices_S4096x4096_S4096x1024_0_3072 : S4096x4096.Slices ![0, 3072] S4096x1024
  bcast_S_S4096x1024 : S_.BroadcastsInDim S4096x1024 (![] : Fin 0 → Fin S4096x1024.rank)
  bcast_S_S4096x32000 : S_.BroadcastsInDim S4096x32000 (![] : Fin 0 → Fin S4096x32000.rank)
  dot_S4096x1024_S1024x4096_S4096x4096_1_0_0_1_n_n_wf : DotDims.WF S4096x1024 S1024x4096 S4096x4096 [1] [0] [0] [1] [] []
  dot_S4096x1024_S1024x1024_S4096x1024_1_0_0_1_n_n_wf : DotDims.WF S4096x1024 S1024x1024 S4096x1024 [1] [0] [0] [1] [] []
  dot_S4096x1024_S1024x32000_S4096x32000_1_0_0_1_n_n_wf : DotDims.WF S4096x1024 S1024x32000 S4096x32000 [1] [0] [0] [1] [] []

variable [Facts₀]

def dot_S4096x1024_S1024x4096_S4096x4096_1_0_0_1_n_n : DotDims S4096x1024 S1024x4096 S4096x4096 where
  lhsContracting := [1]
  rhsContracting := [0]
  lhsNonContracting := [0]
  rhsNonContracting := [1]
  lhsBatch := []
  rhsBatch := []
  wf := dot_S4096x1024_S1024x4096_S4096x4096_1_0_0_1_n_n_wf
def dot_S4096x1024_S1024x1024_S4096x1024_1_0_0_1_n_n : DotDims S4096x1024 S1024x1024 S4096x1024 where
  lhsContracting := [1]
  rhsContracting := [0]
  lhsNonContracting := [0]
  rhsNonContracting := [1]
  lhsBatch := []
  rhsBatch := []
  wf := dot_S4096x1024_S1024x1024_S4096x1024_1_0_0_1_n_n_wf
def dot_S4096x1024_S1024x32000_S4096x32000_1_0_0_1_n_n : DotDims S4096x1024 S1024x32000 S4096x32000 where
  lhsContracting := [1]
  rhsContracting := [0]
  lhsNonContracting := [0]
  rhsNonContracting := [1]
  lhsBatch := []
  rhsBatch := []
  wf := dot_S4096x1024_S1024x32000_S4096x32000_1_0_0_1_n_n_wf

class Facts : Prop extends Facts₀ where

variable [Facts]
-- ==== Proof.KB.Cell.lean ====
/-
  The LSTM cell step as one pipelined region: at each of its 32 grid points the body reads a block of 128 rows of the
  input, the hidden state and the cell state, and the four weight matrices whole (the wide input and hidden
  matrices, the forget and input peephole matrices side by side, the output peephole matrix), and leaves in its
  three output windows' staging buffers the block's new hidden state, its new cell state, and the new hidden state
  once more in the narrower float format — each by one store covering the whole 128 x 1024 block. Stated at any
  float instance and at any contents `V` of the unscoped buffers when the region is entered: each window's block
  (`blk`), what the body leaves (`outH`, `outC`, `outN`), the body's triple, the pipeline's proof data and the
  obligation that the body meets it at every grid point.
-/
import proofs.«170784_j51951924412948_2_alg».proof.Proof.Gen.Kernel.Launch
import proofs.«170784_j51951924412948_2_alg».proof.Proof.Gen.Kernel.Skeleton
import proofs.«170784_j51951924412948_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Cell

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the window's array as the region finds it. -/
def blk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! Each input window's current staging buffer holds its block at every point: the three row-block windows are fetched
    at every point; the four weight windows are fetched once, and their block index never moves. -/
theorem before_x_of {c : Dev nD} (dat : Dat τ (Elt F) Unit ℕ (UR sig nD τ) ℕ cfg0 c) (hA : dat.A 0 = V c (Pipeline.arrRef spec0 0))
    (hafter : ∀ t, dat.after 0 t = blk V c 0 t) (t : Fin cfg0.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)
theorem before_h_of {c : Dev nD} (dat : Dat τ (Elt F) Unit ℕ (UR sig nD τ) ℕ cfg0 c) (hA : dat.A 1 = V c (Pipeline.arrRef spec0 1))
    (hafter : ∀ t, dat.after 1 t = blk V c 1 t) (t : Fin cfg0.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)
theorem before_c_of {c : Dev nD} (dat : Dat τ (Elt F) Unit ℕ (UR sig nD τ) ℕ cfg0 c) (hA : dat.A 2 = V c (Pipeline.arrRef spec0 2))
    (hafter : ∀ t, dat.after 2 t = blk V c 2 t) (t : Fin cfg0.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)
theorem before_wx_of {c : Dev nD} (dat : Dat τ (Elt F) Unit ℕ (UR sig nD τ) ℕ cfg0 c) (hA : dat.A 3 = V c (Pipeline.arrRef spec0 3))
    (hafter : ∀ t, dat.after 3 t = blk V c 3 t) (t : Fin cfg0.N) (d) : dat.before 3 t d = blk V c 3 t :=
  (dat.before_in_eq_fetched 3 rfl (fun _ => rfl) (fun _ _ _ => rfl) (fun t => by rw [hafter]; unfold Dat.blockOf blk; rw [hA]; try rfl) t d).trans
    (by unfold Dat.fetched Dat.blockOf blk; rw [hA]; try rfl)
theorem before_wh_of {c : Dev nD} (dat : Dat τ (Elt F) Unit ℕ (UR sig nD τ) ℕ cfg0 c) (hA : dat.A 4 = V c (Pipeline.arrRef spec0 4))
    (hafter : ∀ t, dat.after 4 t = blk V c 4 t) (t : Fin cfg0.N) (d) : dat.before 4 t d = blk V c 4 t :=
  (dat.before_in_eq_fetched 4 rfl (fun _ => rfl) (fun _ _ _ => rfl) (fun t => by rw [hafter]; unfold Dat.blockOf blk; rw [hA]; try rfl) t d).trans
    (by unfold Dat.fetched Dat.blockOf blk; rw [hA]; try rfl)
theorem before_wf_of {c : Dev nD} (dat : Dat τ (Elt F) Unit ℕ (UR sig nD τ) ℕ cfg0 c) (hA : dat.A 5 = V c (Pipeline.arrRef spec0 5))
    (hafter : ∀ t, dat.after 5 t = blk V c 5 t) (t : Fin cfg0.N) (d) : dat.before 5 t d = blk V c 5 t :=
  (dat.before_in_eq_fetched 5 rfl (fun _ => rfl) (fun _ _ _ => rfl) (fun t => by rw [hafter]; unfold Dat.blockOf blk; rw [hA]; try rfl) t d).trans
    (by unfold Dat.fetched Dat.blockOf blk; rw [hA]; try rfl)
theorem before_wo_of {c : Dev nD} (dat : Dat τ (Elt F) Unit ℕ (UR sig nD τ) ℕ cfg0 c) (hA : dat.A 6 = V c (Pipeline.arrRef spec0 6))
    (hafter : ∀ t, dat.after 6 t = blk V c 6 t) (t : Fin cfg0.N) (d) : dat.before 6 t d = blk V c 6 t :=
  (dat.before_in_eq_fetched 6 rfl (fun _ => rfl) (fun _ _ _ => rfl) (fun t => by rw [hafter]; unfold Dat.blockOf blk; rw [hA]; try rfl) t d).trans
    (by unfold Dat.fetched Dat.blockOf blk; rw [hA]; try rfl)

/-- The whole-block rectangles the body reads and writes through, one per block shape. -/
abbrev rB : Rect S128x1024 := Rect.unit (s := S128x1024) ![0, 0] S128x1024.size inb_S128x1024_S128x1024_0_0
abbrev rWide : Rect S1024x4096 := Rect.unit (s := S1024x4096) ![0, 0] S1024x4096.size inb_S1024x4096_S1024x4096_0_0
abbrev rPeep : Rect S1024x2048 := Rect.unit (s := S1024x2048) ![0, 0] S1024x2048.size inb_S1024x2048_S1024x2048_0_0
abbrev rSq : Rect S1024x1024 := Rect.unit (s := S1024x1024) ![0, 0] S1024x1024.size inb_S1024x1024_S1024x1024_0_0

/-- What the body leaves in the hidden-state window's staging buffer, from the seven input blocks: its one store. -/
def outH (x0 : Vec F S128x1024 .f32) (h0 : Vec F S128x1024 .f32) (c0 : Vec F S128x1024 .f32) (wx0 : Vec F S1024x4096 .bf16) (wh0 : Vec F S1024x4096 .bf16) (wf0 : Vec F S1024x2048 .bf16) (wo0 : Vec F S1024x1024 .bf16) : Vec F S128x1024 .f32 :=
  View.canon [⟨rB, k0_pay4 (View.ld x0 rB) (View.ld h0 rB) (View.ld c0 rB) (View.ld wx0 rWide) (View.ld wh0 rWide) (View.ld wf0 rPeep) (View.ld wo0 rSq)⟩]
/-- What it leaves in the cell-state window's. -/
def outC (x0 : Vec F S128x1024 .f32) (h0 : Vec F S128x1024 .f32) (c0 : Vec F S128x1024 .f32) (wx0 : Vec F S1024x4096 .bf16) (wh0 : Vec F S1024x4096 .bf16) (wf0 : Vec F S1024x2048 .bf16) (wo0 : Vec F S1024x1024 .bf16) : Vec F S128x1024 .f32 :=
  View.canon [⟨rB, k0_pay3 (View.ld x0 rB) (View.ld h0 rB) (View.ld c0 rB) (View.ld wx0 rWide) (View.ld wh0 rWide) (View.ld wf0 rPeep)⟩]
/-- What it leaves in the narrow hidden-state window's. -/
def outN (x0 : Vec F S128x1024 .f32) (h0 : Vec F S128x1024 .f32) (c0 : Vec F S128x1024 .f32) (wx0 : Vec F S1024x4096 .bf16) (wh0 : Vec F S1024x4096 .bf16) (wf0 : Vec F S1024x2048 .bf16) (wo0 : Vec F S1024x1024 .bf16) : Vec F S128x1024 .bf16 :=
  View.canon [⟨rB, k0_pay1 (k0_pay4 (View.ld x0 rB) (View.ld h0 rB) (View.ld c0 rB) (View.ld wx0 rWide) (View.ld wh0 rWide) (View.ld wf0 rPeep) (View.ld wo0 rSq))⟩]

/-- One whole-block store covers the block, in either float format. -/
theorem coverB (p0 : Vec F S128x1024 .f32) (y : S128x1024.Idx) :
    ∃ pc ∈ ([⟨rB, p0⟩] : List (View.Piece (Elt F) S128x1024 .f32)), y ∈ pc.1.set :=
  View.cover_of_tiled [⟨rB, p0⟩] S128x1024.size (by rfl) y
theorem coverN (p0 : Vec F S128x1024 .bf16) (y : S128x1024.Idx) :
    ∃ pc ∈ ([⟨rB, p0⟩] : List (View.Piece (Elt F) S128x1024 .bf16)), y ∈ pc.1.set :=
  View.cover_of_tiled [⟨rB, p0⟩] S128x1024.size (by rfl) y

set_option maxHeartbeats 4000000 in
/-- The body on whole staging memrefs: the seven inputs at their contents, the three outputs at anything; it ends with
    the inputs as they were and the outputs at `outH`, `outC`, `outN` of the inputs. -/
theorem sound_kernel (c : Dev nD) (E : Set ℕ) (i : grid0.Coords)
    (arg1 : Memref sig .tc .vmem S128x1024 .f32) (harg1 : arg1.IsWhole) (arg2 : Memref sig .tc .vmem S128x1024 .f32) (harg2 : arg2.IsWhole) (arg3 : Memref sig .tc .vmem S128x1024 .f32) (harg3 : arg3.IsWhole) (arg4 : Memref sig .tc .vmem S1024x4096 .bf16) (harg4 : arg4.IsWhole) (arg5 : Memref sig .tc .vmem S1024x4096 .bf16) (harg5 : arg5.IsWhole) (arg6 : Memref sig .tc .vmem S1024x2048 .bf16) (harg6 : arg6.IsWhole) (arg7 : Memref sig .tc .vmem S1024x1024 .bf16) (harg7 : arg7.IsWhole) (arg8 : Memref sig .tc .vmem S128x1024 .f32) (harg8 : arg8.IsWhole) (arg9 : Memref sig .tc .vmem S128x1024 .f32) (harg9 : arg9.IsWhole) (arg10 : Memref sig .tc .vmem S128x1024 .bf16) (harg10 : arg10.IsWhole)
    (x0 : Vec F S128x1024 .f32) (h0 : Vec F S128x1024 .f32) (c0 : Vec F S128x1024 .f32) (wx0 : Vec F S1024x4096 .bf16) (wh0 : Vec F S1024x4096 .bf16) (wf0 : Vec F S1024x2048 .bf16) (wo0 : Vec F S1024x1024 .bf16) (K : PUnit → sProp 𝕄) :
    iprop(owns (c : Thread nD τ) arg1 fullShare x0 ∗ owns (c : Thread nD τ) arg2 fullShare h0 ∗ owns (c : Thread nD τ) arg3 fullShare c0 ∗ owns (c : Thread nD τ) arg4 fullShare wx0 ∗ owns (c : Thread nD τ) arg5 fullShare wh0 ∗ owns (c : Thread nD τ) arg6 fullShare wf0 ∗ owns (c : Thread nD τ) arg7 fullShare wo0
        ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare h0 ∗ owns (c : Thread nD τ) arg3 fullShare c0 ∗ owns (c : Thread nD τ) arg4 fullShare wx0 ∗ owns (c : Thread nD τ) arg5 fullShare wh0 ∗ owns (c : Thread nD τ) arg6 fullShare wf0 ∗ owns (c : Thread nD τ) arg7 fullShare wo0
            ∗ owns (c : Thread nD τ) arg8 fullShare (outH x0 h0 c0 wx0 wh0 wf0 wo0)
            ∗ owns (c : Thread nD τ) arg9 fullShare (outC x0 h0 c0 wx0 wh0 wf0 wo0)
            ∗ owns (c : Thread nD τ) arg10 fullShare (outN x0 h0 c0 wx0 wh0 wf0 wo0)) -∗ K ⟨⟩))
      ⊢ wp frame (wpE (defs₀ (F := F)) Variants.none c none) E (cc0__cell_kernel i arg1 harg1 arg2 harg2 arg3 harg3 arg4 harg4 arg5 harg5 arg6 harg6 arg7 harg7 arg8 harg8 arg9 harg9 arg10 harg10) K := by
  simp only [cc0__cell_kernel_eq_skeleton]; unfold cc0__cell_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (coverB _)
  isplitl [H8]
  · iexists _; isplitr
    swap; · iexact H8
    ipureintro
    exact View.read_writes_eq_canon _ _ _ (coverB _)
  iexists _; isplitr
  swap; · iexact H9
  ipureintro
  exact View.read_writes_eq_canon _ _ _ (coverN _)

/-- The pipeline's proof data on core `c`: the arrays as the region finds them; after the body at point `t` each input's
    buffer still at its block and the three outputs' at `outH`, `outC`, `outN` of the input blocks; the class invariant
    (the scoped rest and the generator register, untouched); nothing owed; full shares. -/
def dat (c : Dev nD) : Dat τ (Elt F) Unit ℕ (UR sig nD τ) ℕ cfg0 c where
  A w := V c (Pipeline.arrRef spec0 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => blk V c 5 t
    | ⟨6, _⟩ => blk V c 6 t
    | ⟨7, _⟩ => outH (blk V c 0 t) (blk V c 1 t) (blk V c 2 t) (blk V c 3 t) (blk V c 4 t) (blk V c 5 t) (blk V c 6 t)
    | ⟨8, _⟩ => outC (blk V c 0 t) (blk V c 1 t) (blk V c 2 t) (blk V c 3 t) (blk V c 4 t) (blk V c 5 t) (blk V c 6 t)
    | ⟨9, _⟩ => outN (blk V c 0 t) (blk V c 1 t) (blk V c 2 t) (blk V c 3 t) (blk V c 4 t) (blk V c 5 t) (blk V c 6 t)
  Φ _ := Pipeline.ΦA spec0 c
  q _ := fullShare
  owed _ := 0

theorem A_eq (c : Dev nD) (w : Fin cfg0.W) : (dat V c).A w = V c (Pipeline.arrRef spec0 w) := by
  dsimp only [dat]

theorem after_x (c : Dev nD) (t : Fin cfg0.N) : (dat V c).after 0 t = blk V c 0 t := by dsimp only [dat]
theorem after_h (c : Dev nD) (t : Fin cfg0.N) : (dat V c).after 1 t = blk V c 1 t := by dsimp only [dat]
theorem after_c (c : Dev nD) (t : Fin cfg0.N) : (dat V c).after 2 t = blk V c 2 t := by dsimp only [dat]
theorem after_wx (c : Dev nD) (t : Fin cfg0.N) : (dat V c).after 3 t = blk V c 3 t := by dsimp only [dat]
theorem after_wh (c : Dev nD) (t : Fin cfg0.N) : (dat V c).after 4 t = blk V c 4 t := by dsimp only [dat]
theorem after_wf (c : Dev nD) (t : Fin cfg0.N) : (dat V c).after 5 t = blk V c 5 t := by dsimp only [dat]
theorem after_wo (c : Dev nD) (t : Fin cfg0.N) : (dat V c).after 6 t = blk V c 6 t := by dsimp only [dat]
theorem after_H (c : Dev nD) (t : Fin cfg0.N) : (dat V c).after 7 t = outH (blk V c 0 t) (blk V c 1 t) (blk V c 2 t) (blk V c 3 t) (blk V c 4 t) (blk V c 5 t) (blk V c 6 t) := by dsimp only [dat]
theorem after_C (c : Dev nD) (t : Fin cfg0.N) : (dat V c).after 8 t = outC (blk V c 0 t) (blk V c 1 t) (blk V c 2 t) (blk V c 3 t) (blk V c 4 t) (blk V c 5 t) (blk V c 6 t) := by dsimp only [dat]
theorem after_N (c : Dev nD) (t : Fin cfg0.N) : (dat V c).after 9 t = outN (blk V c 0 t) (blk V c 1 t) (blk V c 2 t) (blk V c 3 t) (blk V c 4 t) (blk V c 5 t) (blk V c 6 t) := by dsimp only [dat]

theorem before_x (c : Dev nD) (t : Fin cfg0.N) (d) : (dat V c).before 0 t d = blk V c 0 t :=
  before_x_of V (dat V c) (A_eq V c 0) (after_x V c) t d
theorem before_h (c : Dev nD) (t : Fin cfg0.N) (d) : (dat V c).before 1 t d = blk V c 1 t :=
  before_h_of V (dat V c) (A_eq V c 1) (after_h V c) t d
theorem before_c (c : Dev nD) (t : Fin cfg0.N) (d) : (dat V c).before 2 t d = blk V c 2 t :=
  before_c_of V (dat V c) (A_eq V c 2) (after_c V c) t d
theorem before_wx (c : Dev nD) (t : Fin cfg0.N) (d) : (dat V c).before 3 t d = blk V c 3 t :=
  before_wx_of V (dat V c) (A_eq V c 3) (after_wx V c) t d
theorem before_wh (c : Dev nD) (t : Fin cfg0.N) (d) : (dat V c).before 4 t d = blk V c 4 t :=
  before_wh_of V (dat V c) (A_eq V c 4) (after_wh V c) t d
theorem before_wf (c : Dev nD) (t : Fin cfg0.N) (d) : (dat V c).before 5 t d = blk V c 5 t :=
  before_wf_of V (dat V c) (A_eq V c 5) (after_wf V c) t d
theorem before_wo (c : Dev nD) (t : Fin cfg0.N) (d) : (dat V c).before 6 t d = blk V c 6 t :=
  before_wo_of V (dat V c) (A_eq V c 6) (after_wo V c) t d

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d))
    ∗ (∃ d, owns (c : Thread nD τ) (st0_5 t) fullShare ((dat V c).before 5 t d))
    ∗ (∃ d, owns (c : Thread nD τ) (st0_6 t) fullShare ((dat V c).before 6 t d))
    ∗ (∃ d, owns (c : Thread nD τ) (st0_7 t) fullShare ((dat V c).before 7 t d))
    ∗ (∃ d, owns (c : Thread nD τ) (st0_8 t) fullShare ((dat V c).before 8 t d))
    ∗ (∃ d, owns (c : Thread nD τ) (st0_9 t) fullShare ((dat V c).before 9 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t)
    ∗ owns (c : Thread nD τ) (st0_4 t) fullShare ((dat V c).after 4 t)
    ∗ owns (c : Thread nD τ) (st0_5 t) fullShare ((dat V c).after 5 t)
    ∗ owns (c : Thread nD τ) (st0_6 t) fullShare ((dat V c).after 6 t)
    ∗ owns (c : Thread nD τ) (st0_7 t) fullShare ((dat V c).after 7 t)
    ∗ owns (c : Thread nD τ) (st0_8 t) fullShare ((dat V c).after 8 t)
    ∗ owns (c : Thread nD τ) (st0_9 t) fullShare ((dat V c).after 9 t))

/-- The body at any point: the inputs' memrefs hold their blocks, so the body's triple applies; the invariant and the
    core's dues pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_x, before_h, before_c, before_wx, before_wh, before_wf, before_wo]
  rw [show (dat V c).Φ t.succ = (dat V c).Φ t.castSucc from rfl,
    show (dat V c).owesAt () t.succ = (dat V c).owesAt () t.castSucc from rfl,
    after_x, after_h, after_c, after_wx, after_wh, after_wf, after_wo, after_H, after_C, after_N]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel c Set.univ _ _ _ _ _ _ _ _ _ _ _ _ _ _ _ _ _ _ _ _ _ (blk V c 0 t) (blk V c 1 t) (blk V c 2 t) (blk V c 3 t) (blk V c 4 t) (blk V c 5 t) (blk V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The pipeline library's body obligation, at every point. -/
theorem body_obligation (c : Dev nD) : BodyObligation (dat (F := F) V c) (defs₀ (F := F)) Variants.none () Set.univ := fun t => by
  rw [bigSep_W0, bigSep_W0]
  exact sound_body V c t

end Cert.Kernel.Cell

end
-- ==== Proof.KB.Proj.lean ====
/-
  The output projection as one pipelined region: at each of its 80 grid points (10 column tiles of 3200, 8 row tiles
  of 512) the body reads a 512 x 1024 block of the hidden state and a 1024 x 3200 block of the projection matrix
  and leaves, in the output window's staging buffer, the logistic of their matrix product — one store covering the
  whole 512 x 3200 block. Stated at any float instance and at any contents `V` of the unscoped buffers when the
  region is entered: what each window's block is (`blk`), what the body leaves (`outY`), the body's triple, the
  proof data of the pipeline and the obligation that the body meets it at every grid point.
-/
import proofs.«170784_j51951924412948_2_alg».proof.Proof.Gen.Kernel.Launch
import proofs.«170784_j51951924412948_2_alg».proof.Proof.Gen.Kernel.Skeleton
import proofs.«170784_j51951924412948_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Proj

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the window's array as the region finds it. -/
def blk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The hidden-state window's current staging buffer holds its block at every point. -/
theorem before_h_of {c : Dev nD} (dat : Dat τ (Elt F) Unit ℕ (UR sig nD τ) ℕ cfg1 c) (hA : dat.A 0 = V c (Pipeline.arrRef spec1 0))
    (hafter : ∀ t, dat.after 0 t = blk V c 0 t) (t : Fin cfg1.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)

/-- The weight window's staging buffer holds its block at every point, fetched there or kept from the point before
    (its block index moves only with the column tile). -/
theorem before_w_of {c : Dev nD} (dat : Dat τ (Elt F) Unit ℕ (UR sig nD τ) ℕ cfg1 c) (hA : dat.A 1 = V c (Pipeline.arrRef spec1 1))
    (hafter : ∀ t, dat.after 1 t = blk V c 1 t) (t : Fin cfg1.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)

/-- The three whole-block rectangles the body reads and writes through. -/
abbrev rH : Rect S512x1024 := Rect.unit (s := S512x1024) ![0, 0] S512x1024.size inb_S512x1024_S512x1024_0_0
abbrev rW : Rect S1024x3200 := Rect.unit (s := S1024x3200) ![0, 0] S1024x3200.size inb_S1024x3200_S1024x3200_0_0
abbrev rY : Rect S512x3200 := Rect.unit (s := S512x3200) ![0, 0] S512x3200.size inb_S512x3200_S512x3200_0_0

/-- What the body leaves in the output window's staging buffer, from the two input blocks: its one store. -/
def outY (h0 : Vec F S512x1024 .bf16) (w0 : Vec F S1024x3200 .bf16) : Vec F S512x3200 .f32 :=
  View.canon [⟨rY, k1_pay1 (View.ld h0 rH) (View.ld w0 rW)⟩]

/-- The one store covers the output block. -/
theorem coverY (p0 : Vec F S512x3200 .f32) (y : S512x3200.Idx) :
    ∃ pc ∈ ([⟨rY, p0⟩] : List (View.Piece (Elt F) S512x3200 .f32)), y ∈ pc.1.set :=
  View.cover_of_tiled [⟨rY, p0⟩] S512x3200.size (by rfl) y

set_option maxHeartbeats 1000000 in
/-- The body on whole staging memrefs: the inputs at `h0`, `w0`, the output at anything; it ends with the inputs as they
    were and the output at `outY h0 w0`. -/
theorem sound_kernel (c : Dev nD) (E : Set ℕ) (i : grid1.Coords)
    (arg2 : Memref sig .tc .vmem S512x1024 .bf16) (harg2 : arg2.IsWhole) (arg3 : Memref sig .tc .vmem S1024x3200 .bf16) (harg3 : arg3.IsWhole)
    (arg4 : Memref sig .tc .vmem S512x3200 .f32) (harg4 : arg4.IsWhole)
    (h0 : Vec F S512x1024 .bf16) (w0 : Vec F S1024x3200 .bf16) (K : PUnit → sProp 𝕄) :
    iprop(owns (c : Thread nD τ) arg2 fullShare h0 ∗ owns (c : Thread nD τ) arg3 fullShare w0 ∗ (∃ d, owns (c : Thread nD τ) arg4 fullShare d)
        ∗ (iprop(owns (c : Thread nD τ) arg2 fullShare h0 ∗ owns (c : Thread nD τ) arg3 fullShare w0
            ∗ owns (c : Thread nD τ) arg4 fullShare (outY h0 w0)) -∗ K ⟨⟩))
      ⊢ wp frame (wpE (defs₀ (F := F)) Variants.none c none) E (cc1__proj_kernel i arg2 harg2 arg3 harg3 arg4 harg4) K := by
  simp only [cc1__proj_kernel_eq_skeleton]; unfold cc1__proj_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (coverY _)

/-- The pipeline's proof data on core `c`: the arrays as the region finds them; after the body at point `t` each input's
    buffer still at its block and the output's at `outY` of the two input blocks; the class invariant (the scoped
    rest and the generator register, untouched); nothing owed; full shares. -/
def dat (c : Dev nD) : Dat τ (Elt F) Unit ℕ (UR sig nD τ) ℕ cfg1 c where
  A w := V c (Pipeline.arrRef spec1 w)
  after w t := match w with
    | ⟨0, _⟩ => blk V c 0 t
    | ⟨1, _⟩ => blk V c 1 t
    | ⟨2, _⟩ => outY (blk V c 0 t) (blk V c 1 t)
  Φ _ := Pipeline.ΦA spec1 c
  q _ := fullShare
  owed _ := 0

theorem A_eq (c : Dev nD) (w : Fin cfg1.W) : (dat V c).A w = V c (Pipeline.arrRef spec1 w) := by
  dsimp only [dat]

theorem after_h (c : Dev nD) (t : Fin cfg1.N) : (dat V c).after 0 t = blk V c 0 t := by dsimp only [dat]
theorem after_w (c : Dev nD) (t : Fin cfg1.N) : (dat V c).after 1 t = blk V c 1 t := by dsimp only [dat]
theorem after_y (c : Dev nD) (t : Fin cfg1.N) : (dat V c).after 2 t = outY (blk V c 0 t) (blk V c 1 t) := by dsimp only [dat]

theorem before_h (c : Dev nD) (t : Fin cfg1.N) (d) : (dat V c).before 0 t d = blk V c 0 t :=
  before_h_of V (dat V c) (A_eq V c 0) (after_h V c) t d
theorem before_w (c : Dev nD) (t : Fin cfg1.N) (d) : (dat V c).before 1 t d = blk V c 1 t :=
  before_w_of V (dat V c) (A_eq V c 1) (after_w V c) t d

/-- What the body is called with at point `t`, the windows one by one, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d)))

/-- and what it returns. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t))

/-- The body at any point: the inputs' memrefs hold their blocks, so the body's triple applies; the invariant and the
    core's dues pass through unread. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_h, before_w]
  rw [show (dat V c).Φ t.succ = (dat V c).Φ t.castSucc from rfl,
    show (dat V c).owesAt () t.succ = (dat V c).owesAt () t.castSucc from rfl,
    after_h, after_w, after_y]
  iintro ⟨HΦ, Ho, ⟨%d0, H0⟩, ⟨%d1, H1⟩, ⟨%d2, H2⟩⟩
  iapply (sound_kernel c Set.univ _ _ _ _ _ _ _ (blk V c 0 t) (blk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline library's body obligation, at every point. -/
theorem body_obligation (c : Dev nD) : BodyObligation (dat (F := F) V c) (defs₀ (F := F)) Variants.none () Set.univ := fun t => by
  rw [bigSep_W1, bigSep_W1]
  exact sound_body V c t

end Cert.Kernel.Proj

end
-- ==== Proof.KB.Run.lean ====
/-
  The whole run of @main: eight host operations that lay the weight matrices side by side and narrow their float
  format, then the cell region, then the projection region. The contents of every unscoped buffer are followed
  through these three stretches — at launch, after the host operations, after the cell region (its three output arrays
  at what the pipeline's write-backs leave, everything else as entered), after the projection region (likewise) — and
  every weakly fair execution is shown to terminate, fault nowhere, and end with every unscoped buffer at the last of
  these contents. Both the frame claim and the values of the three results are read off that.
-/
import proofs.«170784_j51951924412948_2_alg».proof.Proof.KB.Cell
import proofs.«170784_j51951924412948_2_alg».proof.Proof.KB.Proj
import proofs.«170784_j51951924412948_2_alg».proof.Proof.Gen.Kernel.Regions

set_option maxRecDepth 16384

noncomputable section

namespace Cert.Kernel.Whole

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at the four boundaries -/

/-- At launch. -/
abbrev atLaunch : Dev nD → Valuation τ sig (Elt F) := fun c b => (s₀ m ρ).mem ((c : Dev nD), b)
/-- After the host operations: the cell region's entry. -/
abbrev atCell : Dev nD → Valuation τ sig (Elt F) := fun c => StableHlo.after hostOps0 (atLaunch m ρ c)
/-- The same, read at the TensorCore's references. -/
abbrev vCell : (c : Dev nD) → (b : Ref sig .tc) → Buf (Elt F) ((c : Thread nD τ).loc b) := fun c b => atCell m ρ c b
/-- After the cell region: its arrays at what the pipeline leaves, every other buffer as entered. The projection
    region's entry. -/
def atProj (c : Dev nD) : Valuation τ sig (Elt F) :=
  Pipeline.withArrays spec0 c (atCell m ρ c) fun w => (Cell.dat (vCell m ρ) c).arrAt w cfg0.N
theorem atProj_arr (c : Dev nD) (w : Fin cfg0.W) :
    atProj m ρ c (Proc.devRef .tc (Pipeline.arrRef spec0 w)) = (Cell.dat (vCell m ρ) c).arrAt w cfg0.N := by
  unfold atProj; exact Pipeline.withArrays_arr spec0 launch0.win.arr_inj c _ _ w
theorem atProj_of_ne (c : Dev nD) (b : Ref sig .tc) (hb : ∀ w, Pipeline.arrRef spec0 w ≠ b) :
    atProj m ρ c (Proc.devRef .tc b) = atCell m ρ c (Proc.devRef .tc b) := by
  unfold atProj; exact Pipeline.withArrays_of_ne spec0 c _ _ b hb
abbrev vProj : (c : Dev nD) → (b : Ref sig .tc) → Buf (Elt F) ((c : Thread nD τ).loc b) := fun c b => atProj m ρ c b
theorem left_cell (c : Dev nD) (w : Fin cfg0.W) : (Cell.dat (vCell m ρ) c).arrAt w cfg0.N = vProj m ρ c (Pipeline.arrRef spec0 w) :=
  (atProj_arr m ρ c w).symm
theorem kept_cell (c : Dev nD) : ∀ b, b ∉ Finset.univ.image (Pipeline.arrRef spec0) → vProj m ρ c b = vCell m ρ c b :=
  fun b hb => atProj_of_ne m ρ c b fun w e => hb (Finset.mem_image.mpr ⟨w, Finset.mem_univ _, e⟩)

/-- After the projection region: its arrays at what the pipeline leaves, every other buffer as entered. -/
def atEnd (c : Dev nD) : Valuation τ sig (Elt F) :=
  Pipeline.withArrays spec1 c (atProj m ρ c) fun w => (Proj.dat (vProj m ρ) c).arrAt w cfg1.N
theorem atEnd_arr (c : Dev nD) (w : Fin cfg1.W) :
    atEnd m ρ c (Proc.devRef .tc (Pipeline.arrRef spec1 w)) = (Proj.dat (vProj m ρ) c).arrAt w cfg1.N := by
  unfold atEnd; exact Pipeline.withArrays_arr spec1 launch1.win.arr_inj c _ _ w
theorem atEnd_of_ne (c : Dev nD) (b : Ref sig .tc) (hb : ∀ w, Pipeline.arrRef spec1 w ≠ b) :
    atEnd m ρ c (Proc.devRef .tc b) = atProj m ρ c (Proc.devRef .tc b) := by
  unfold atEnd; exact Pipeline.withArrays_of_ne spec1 c _ _ b hb
abbrev vEnd : (c : Dev nD) → (b : Ref sig .tc) → Buf (Elt F) ((c : Thread nD τ).loc b) := fun c b => atEnd m ρ c b
theorem left_proj (c : Dev nD) (w : Fin cfg1.W) : (Proj.dat (vProj m ρ) c).arrAt w cfg1.N = vEnd m ρ c (Pipeline.arrRef spec1 w) :=
  (atEnd_arr m ρ c w).symm
theorem kept_proj (c : Dev nD) : ∀ b, b ∉ Finset.univ.image (Pipeline.arrRef spec1) → vEnd m ρ c b = vProj m ρ c b :=
  fun b hb => atEnd_of_ne m ρ c b fun w e => hb (Finset.mem_image.mpr ⟨w, Finset.mem_univ _, e⟩)

/-! ## The proof data and the thread state -/

/-- Each pipeline's proof data at its region's entry contents. -/
def pdats : (p : Fin 2) → (c : Dev nD) → Dat τ (Elt F) Unit ℕ (UR sig nD τ) ℕ (Pipeline.pin (pcfgs (F := F)) Gen.adm p) c
  | ⟨0, _⟩ => fun c => Cell.dat (vCell m ρ) c
  | ⟨1, _⟩ => fun c => Proj.dat (vProj m ρ) c
abbrev 𝒱₀ : Variants := Variants.none
abbrev L : GSem nD τ sig → Finset Unit := fun _ => ∅
abbrev lv : GSem nD τ sig → Unit → ℕ := fun _ _ => 0
/-- What rides beside the buffers through every stretch: the core's generator register at some state, and the core
    owing nothing. -/
abbrev R (c : Dev nD) : sProp 𝕄 := iprop((∃ r, prngReg c r) ∗ ∃ W, owes (c : Thread nD τ) (0 : CellTallies nD τ sig Unit) W)
/-- The host operations as a stretch from the launch contents. -/
abbrev hostSeg : Pipeline.HostSeg (Name := ℕ) (U := UR sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp Gen.hostOps0_fresh) op h) (atLaunch m ρ) R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues. -/
abbrev Tend (c : Dev nD) : sProp 𝕄 := iprop(StableHlo.held (c : Thread nD τ) (Pipeline.ucRefs τ sig) (atEnd m ρ c) ∗ ∃ r, prngReg c r)

/-! ## The two regions as stretches: entered from every unscoped buffer at the boundary's contents, the region's arrays
    split out of them and put back at the exit contents; the generator register into the pipeline's invariant and
    out; nothing owed; no semaphore of the kernels' own. -/

set_option backward.isDefEq.respectTransparency.types false in
def cellSeg : Pipeline.RegionSeg (pcfgs (F := F)) Gen.adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (Cell.body_obligation (vCell m ρ) c).loose
  hwaits := Pipeline.hwaits_of_owed_zero _ _ _ _ L lv 0 fun _ _ => rfl
  pre c := iprop(StableHlo.held (c : Thread nD τ) (Pipeline.ucRefs τ sig) (atCell m ρ c) ∗ R c)
  post c := iprop(StableHlo.held (c : Thread nD τ) (Pipeline.ucRefs τ sig) (atProj m ρ c) ∗ R c)
  X c := iprop(∃ r, prngReg c r)
  Y c := iprop(∃ r, prngReg c r)
  Z c := Pipeline.unscopedRest (Ix := Unit) (Name := ℕ) (U := UR sig nD τ) (Lvl := ℕ) spec0 c (vCell m ρ c)
  hentry c := by
    rw [Pipeline.ownSems0_none]
    have hsplit := Pipeline.arrays_of_unscopedBufs (p := 0) (pcfgs (F := F)) Gen.adm (pdats m ρ) launch0.win launch0.arr_whole c
      ((pdats m ρ 0 c).share_full fun _ => rfl) (vCell m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m ρ) ((pdats m ρ 0 c).share_full fun _ => rfl)
      (vCell m ρ c) (vProj m ρ c) ((pdats m ρ 0 c).arrAt · cfg0.N) (left_cell m ρ c) (kept_cell m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def projSeg : Pipeline.RegionSeg (pcfgs (F := F)) Gen.adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (Proj.body_obligation (vProj m ρ) c).loose
  hwaits := Pipeline.hwaits_of_owed_zero _ _ _ _ L lv 1 fun _ _ => rfl
  pre c := iprop(StableHlo.held (c : Thread nD τ) (Pipeline.ucRefs τ sig) (atProj m ρ c) ∗ R c)
  post c := iprop(Tend m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (vProj m ρ c)
  hentry c := by
    rw [Pipeline.ownSems0_none]
    have hsplit := Pipeline.arrays_of_unscopedBufs (p := 1) (pcfgs (F := F)) Gen.adm (pdats m ρ) launch1.win launch1.arr_whole c
      ((pdats m ρ 1 c).share_full fun _ => rfl) (vProj m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m ρ) ((pdats m ρ 1 c).share_full fun _ => rfl)
      (vProj m ρ c) (vEnd m ρ c) ((pdats m ρ 1 c).arrAt · cfg1.N) (left_proj m ρ c) (kept_proj m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as the three stretches, and the run -/

abbrev stretches : List (Pipeline.Seg (pcfgs (F := F)) Gen.adm (pdats m ρ) () defs₀ 𝒱₀ L lv) :=
  [ .host (hostSeg m ρ), .region (cellSeg m ρ), .region (projSeg m ρ) ]

theorem main_is_run (c : Dev nD) : main (F := F) c = Pipeline.Seg.run (stretches m ρ) := (main_chain c).trans (by chain_rfl)

set_option backward.isDefEq.respectTransparency.types false in
/-- Every weakly fair execution of @main from memory `m` with zero counters terminates, nothing faulting, with every
    unscoped buffer of every core at the contents `atEnd`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = atEnd m ρ c b) :=
  Pipeline.θ_run_regions_kit (pcfgs (F := F)) Gen.adm (pdats m ρ) () cellOf_inj emb₁ defs₀ 𝒱₀ L lv m ρ main (stretches m ρ)
    (fun c Q => by rw [main_is_run m ρ c])
    (by simp only [stretches, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (atLaunch m ρ c) ∗ R c)) (Tₙ := Tend m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (atLaunch m ρ c)
        from Pipeline.unscopedBufs_held c (atLaunch m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = atEnd m ρ c b)
    (hfin := fun c s' => by
      iintro ⟨⟨Hh, -⟩, HSI⟩
      unfold StableHlo.held
      imodintro
      iapply (pointsTo_read_all (Pipeline.ucRefs τ sig) (fun b => (((c : Thread nD τ)).1, b)) (atEnd m ρ c) s')
      isplitl [Hh] <;> iassumption)
    (hQ := fun s h c => h c)

end Cert.Kernel.Whole

end
-- ==== Proof.KB.Kept.lean ====
/-
  The arguments end as launched. No host operation writes an argument array; the cell region reads three of them
  through input windows, whose arrays the pipeline leaves as it found them, and neither region writes any other. So
  each argument's buffer, followed back from the end through the projection region, the cell region and the host
  operations, holds its launch contents — which with the run of @main is the frame claim, at any float instance.
-/
import proofs.«170784_j51951924412948_2_alg».proof.Proof.KB.Run

set_option maxRecDepth 16384

noncomputable section

namespace Cert.Kernel.Whole

open Cert.Kernel Cert.Kernel.Gen
open Idealize.ShloMosaic Idealize.ShloMosaic.TcCoe
open Idealize.SL Idealize.SL.Sem
open Idealize.ShloMosaic.Pipeline (Dat Cfg Window)

variable {F : FTy → Type} [FloatOps F]
variable (m : (ℓ : Loc nD τ sig) → Buf (Elt F) ℓ) (ρ : Dev nD → PrngReg)

/-- A buffer the host operations do not write holds after them what it held at launch. -/
theorem atCell_of (c : Dev nD) (r : Ref sig .tc) (h : r ∉ Gen.hostOps0_W) :
    atCell m ρ c (Proc.devRef .tc r) = atLaunch m ρ c (Proc.devRef .tc r) :=
  StableHlo.after_of_writes_sub hostOps0 _ Gen.hostOps0_writes h

theorem end_arg0 (c : Dev nD) : atEnd m ρ c (Proc.devRef .tc main_arg0) = m ((c : Thread nD τ).loc main_arg0) :=
  calc atEnd m ρ c (Proc.devRef .tc main_arg0)
    _ = atProj m ρ c (Proc.devRef .tc main_arg0) := atEnd_of_ne m ρ c main_arg0 (by decide)
    _ = atCell m ρ c (Proc.devRef .tc main_arg0) := (atProj_arr m ρ c 0).trans (((Cell.dat (vCell m ρ) c).arrAt_in 0 rfl _).trans (Cell.A_eq (vCell m ρ) c 0))
    _ = atLaunch m ρ c (Proc.devRef .tc main_arg0) := atCell_of m ρ c main_arg0 (by decide)
    _ = m ((c : Thread nD τ).loc main_arg0) := rfl
theorem end_arg1 (c : Dev nD) : atEnd m ρ c (Proc.devRef .tc main_arg1) = m ((c : Thread nD τ).loc main_arg1) :=
  calc atEnd m ρ c (Proc.devRef .tc main_arg1)
    _ = atProj m ρ c (Proc.devRef .tc main_arg1) := atEnd_of_ne m ρ c main_arg1 (by decide)
    _ = atCell m ρ c (Proc.devRef .tc main_arg1) := (atProj_arr m ρ c 1).trans (((Cell.dat (vCell m ρ) c).arrAt_in 1 rfl _).trans (Cell.A_eq (vCell m ρ) c 1))
    _ = atLaunch m ρ c (Proc.devRef .tc main_arg1) := atCell_of m ρ c main_arg1 (by decide)
    _ = m ((c : Thread nD τ).loc main_arg1) := rfl
theorem end_arg2 (c : Dev nD) : atEnd m ρ c (Proc.devRef .tc main_arg2) = m ((c : Thread nD τ).loc main_arg2) :=
  calc atEnd m ρ c (Proc.devRef .tc main_arg2)
    _ = atProj m ρ c (Proc.devRef .tc main_arg2) := atEnd_of_ne m ρ c main_arg2 (by decide)
    _ = atCell m ρ c (Proc.devRef .tc main_arg2) := (atProj_arr m ρ c 2).trans (((Cell.dat (vCell m ρ) c).arrAt_in 2 rfl _).trans (Cell.A_eq (vCell m ρ) c 2))
    _ = atLaunch m ρ c (Proc.devRef .tc main_arg2) := atCell_of m ρ c main_arg2 (by decide)
    _ = m ((c : Thread nD τ).loc main_arg2) := rfl
theorem end_arg3 (c : Dev nD) : atEnd m ρ c (Proc.devRef .tc main_arg3) = m ((c : Thread nD τ).loc main_arg3) :=
  calc atEnd m ρ c (Proc.devRef .tc main_arg3)
    _ = atProj m ρ c (Proc.devRef .tc main_arg3) := atEnd_of_ne m ρ c main_arg3 (by decide)
    _ = atCell m ρ c (Proc.devRef .tc main_arg3) := atProj_of_ne m ρ c main_arg3 (by decide)
    _ = atLaunch m ρ c (Proc.devRef .tc main_arg3) := atCell_of m ρ c main_arg3 (by decide)
    _ = m ((c : Thread nD τ).loc main_arg3) := rfl
theorem end_arg4 (c : Dev nD) : atEnd m ρ c (Proc.devRef .tc main_arg4) = m ((c : Thread nD τ).loc main_arg4) :=
  calc atEnd m ρ c (Proc.devRef .tc main_arg4)
    _ = atProj m ρ c (Proc.devRef .tc main_arg4) := atEnd_of_ne m ρ c main_arg4 (by decide)
    _ = atCell m ρ c (Proc.devRef .tc main_arg4) := atProj_of_ne m ρ c main_arg4 (by decide)
    _ = atLaunch m ρ c (Proc.devRef .tc main_arg4) := atCell_of m ρ c main_arg4 (by decide)
    _ = m ((c : Thread nD τ).loc main_arg4) := rfl
theorem end_arg5 (c : Dev nD) : atEnd m ρ c (Proc.devRef .tc main_arg5) = m ((c : Thread nD τ).loc main_arg5) :=
  calc atEnd m ρ c (Proc.devRef .tc main_arg5)
    _ = atProj m ρ c (Proc.devRef .tc main_arg5) := atEnd_of_ne m ρ c main_arg5 (by decide)
    _ = atCell m ρ c (Proc.devRef .tc main_arg5) := atProj_of_ne m ρ c main_arg5 (by decide)
    _ = atLaunch m ρ c (Proc.devRef .tc main_arg5) := atCell_of m ρ c main_arg5 (by decide)
    _ = m ((c : Thread nD τ).loc main_arg5) := rfl
theorem end_arg6 (c : Dev nD) : atEnd m ρ c (Proc.devRef .tc main_arg6) = m ((c : Thread nD τ).loc main_arg6) :=
  calc atEnd m ρ c (Proc.devRef .tc main_arg6)
    _ = atProj m ρ c (Proc.devRef .tc main_arg6) := atEnd_of_ne m ρ c main_arg6 (by decide)
    _ = atCell m ρ c (Proc.devRef .tc main_arg6) := atProj_of_ne m ρ c main_arg6 (by decide)
    _ = atLaunch m ρ c (Proc.devRef .tc main_arg6) := atCell_of m ρ c main_arg6 (by decide)
    _ = m ((c : Thread nD τ).loc main_arg6) := rfl
theorem end_arg7 (c : Dev nD) : atEnd m ρ c (Proc.devRef .tc main_arg7) = m ((c : Thread nD τ).loc main_arg7) :=
  calc atEnd m ρ c (Proc.devRef .tc main_arg7)
    _ = atProj m ρ c (Proc.devRef .tc main_arg7) := atEnd_of_ne m ρ c main_arg7 (by decide)
    _ = atCell m ρ c (Proc.devRef .tc main_arg7) := atProj_of_ne m ρ c main_arg7 (by decide)
    _ = atLaunch m ρ c (Proc.devRef .tc main_arg7) := atCell_of m ρ c main_arg7 (by decide)
    _ = m ((c : Thread nD τ).loc main_arg7) := rfl
theorem end_arg8 (c : Dev nD) : atEnd m ρ c (Proc.devRef .tc main_arg8) = m ((c : Thread nD τ).loc main_arg8) :=
  calc atEnd m ρ c (Proc.devRef .tc main_arg8)
    _ = atProj m ρ c (Proc.devRef .tc main_arg8) := atEnd_of_ne m ρ c main_arg8 (by decide)
    _ = atCell m ρ c (Proc.devRef .tc main_arg8) := atProj_of_ne m ρ c main_arg8 (by decide)
    _ = atLaunch m ρ c (Proc.devRef .tc main_arg8) := atCell_of m ρ c main_arg8 (by decide)
    _ = m ((c : Thread nD τ).loc main_arg8) := rfl
theorem end_arg9 (c : Dev nD) : atEnd m ρ c (Proc.devRef .tc main_arg9) = m ((c : Thread nD τ).loc main_arg9) :=
  calc atEnd m ρ c (Proc.devRef .tc main_arg9)
    _ = atProj m ρ c (Proc.devRef .tc main_arg9) := atEnd_of_ne m ρ c main_arg9 (by decide)
    _ = atCell m ρ c (Proc.devRef .tc main_arg9) := atProj_of_ne m ρ c main_arg9 (by decide)
    _ = atLaunch m ρ c (Proc.devRef .tc main_arg9) := atCell_of m ρ c main_arg9 (by decide)
    _ = m ((c : Thread nD τ).loc main_arg9) := rfl
theorem end_arg10 (c : Dev nD) : atEnd m ρ c (Proc.devRef .tc main_arg10) = m ((c : Thread nD τ).loc main_arg10) :=
  calc atEnd m ρ c (Proc.devRef .tc main_arg10)
    _ = atProj m ρ c (Proc.devRef .tc main_arg10) := atEnd_of_ne m ρ c main_arg10 (by decide)
    _ = atCell m ρ c (Proc.devRef .tc main_arg10) := atProj_of_ne m ρ c main_arg10 (by decide)
    _ = atLaunch m ρ c (Proc.devRef .tc main_arg10) := atCell_of m ρ c main_arg10 (by decide)
    _ = m ((c : Thread nD τ).loc main_arg10) := rfl
theorem end_arg11 (c : Dev nD) : atEnd m ρ c (Proc.devRef .tc main_arg11) = m ((c : Thread nD τ).loc main_arg11) :=
  calc atEnd m ρ c (Proc.devRef .tc main_arg11)
    _ = atProj m ρ c (Proc.devRef .tc main_arg11) := atEnd_of_ne m ρ c main_arg11 (by decide)
    _ = atCell m ρ c (Proc.devRef .tc main_arg11) := atProj_of_ne m ρ c main_arg11 (by decide)
    _ = atLaunch m ρ c (Proc.devRef .tc main_arg11) := atCell_of m ρ c main_arg11 (by decide)
    _ = m ((c : Thread nD τ).loc main_arg11) := rfl
theorem end_arg12 (c : Dev nD) : atEnd m ρ c (Proc.devRef .tc main_arg12) = m ((c : Thread nD τ).loc main_arg12) :=
  calc atEnd m ρ c (Proc.devRef .tc main_arg12)
    _ = atProj m ρ c (Proc.devRef .tc main_arg12) := atEnd_of_ne m ρ c main_arg12 (by decide)
    _ = atCell m ρ c (Proc.devRef .tc main_arg12) := atProj_of_ne m ρ c main_arg12 (by decide)
    _ = atLaunch m ρ c (Proc.devRef .tc main_arg12) := atCell_of m ρ c main_arg12 (by decide)
    _ = m ((c : Thread nD τ).loc main_arg12) := rfl
theorem end_arg13 (c : Dev nD) : atEnd m ρ c (Proc.devRef .tc main_arg13) = m ((c : Thread nD τ).loc main_arg13) :=
  calc atEnd m ρ c (Proc.devRef .tc main_arg13)
    _ = atProj m ρ c (Proc.devRef .tc main_arg13) := atEnd_of_ne m ρ c main_arg13 (by decide)
    _ = atCell m ρ c (Proc.devRef .tc main_arg13) := atProj_of_ne m ρ c main_arg13 (by decide)
    _ = atLaunch m ρ c (Proc.devRef .tc main_arg13) := atCell_of m ρ c main_arg13 (by decide)
    _ = m ((c : Thread nD τ).loc main_arg13) := rfl
theorem end_arg14 (c : Dev nD) : atEnd m ρ c (Proc.devRef .tc main_arg14) = m ((c : Thread nD τ).loc main_arg14) :=
  calc atEnd m ρ c (Proc.devRef .tc main_arg14)
    _ = atProj m ρ c (Proc.devRef .tc main_arg14) := atEnd_of_ne m ρ c main_arg14 (by decide)
    _ = atCell m ρ c (Proc.devRef .tc main_arg14) := atProj_of_ne m ρ c main_arg14 (by decide)
    _ = atLaunch m ρ c (Proc.devRef .tc main_arg14) := atCell_of m ρ c main_arg14 (by decide)
    _ = m ((c : Thread nD τ).loc main_arg14) := rfl

/-- The frame claim at any float instance: every weakly fair execution of @main terminates, nothing faulting, with every
    argument array as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c => ⟨(h c _ (mem_uc main_arg0 (by decide))).trans (end_arg0 m ρ c),
    (h c _ (mem_uc main_arg1 (by decide))).trans (end_arg1 m ρ c),
    (h c _ (mem_uc main_arg2 (by decide))).trans (end_arg2 m ρ c),
    (h c _ (mem_uc main_arg3 (by decide))).trans (end_arg3 m ρ c),
    (h c _ (mem_uc main_arg4 (by decide))).trans (end_arg4 m ρ c),
    (h c _ (mem_uc main_arg5 (by decide))).trans (end_arg5 m ρ c),
    (h c _ (mem_uc main_arg6 (by decide))).trans (end_arg6 m ρ c),
    (h c _ (mem_uc main_arg7 (by decide))).trans (end_arg7 m ρ c),
    (h c _ (mem_uc main_arg8 (by decide))).trans (end_arg8 m ρ c),
    (h c _ (mem_uc main_arg9 (by decide))).trans (end_arg9 m ρ c),
    (h c _ (mem_uc main_arg10 (by decide))).trans (end_arg10 m ρ c),
    (h c _ (mem_uc main_arg11 (by decide))).trans (end_arg11 m ρ c),
    (h c _ (mem_uc main_arg12 (by decide))).trans (end_arg12 m ρ c),
    (h c _ (mem_uc main_arg13 (by decide))).trans (end_arg13 m ρ c),
    (h c _ (mem_uc main_arg14 (by decide))).trans (end_arg14 m ρ c)⟩)
    (run_all m ρ)

end Cert.Kernel.Whole

end
-- ==== Proof.KI.Cell.lean ====
/-
  The LSTM cell step as one pipelined region: at each of its 32 grid points the body reads a block of 128 rows of the
  input, the hidden state and the cell state, and the four weight matrices whole (the wide input and hidden
  matrices, the forget and input peephole matrices side by side, the output peephole matrix), and leaves in its
  three output windows' staging buffers the block's new hidden state, its new cell state, and the new hidden state
  once more in the narrower float format — each by one store covering the whole 128 x 1024 block. Stated at any
  float instance and at any contents `V` of the unscoped buffers when the region is entered: each window's block
  (`blk`), what the body leaves (`outH`, `outC`, `outN`), the body's triple, the pipeline's proof data and the
  obligation that the body meets it at every grid point.
-/
import proofs.«170784_j51951924412948_2_alg».proof.Proof.Gen.KernelIdeal.Launch
import proofs.«170784_j51951924412948_2_alg».proof.Proof.Gen.KernelIdeal.Skeleton
import proofs.«170784_j51951924412948_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Cell

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the window's array as the region finds it. -/
def blk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! Each input window's current staging buffer holds its block at every point: the three row-block windows are fetched
    at every point; the four weight windows are fetched once, and their block index never moves. -/
theorem before_x_of {c : Dev nD} (dat : Dat τ (Elt F) Unit ℕ (UR sig nD τ) ℕ cfg0 c) (hA : dat.A 0 = V c (Pipeline.arrRef spec0 0))
    (hafter : ∀ t, dat.after 0 t = blk V c 0 t) (t : Fin cfg0.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)
theorem before_h_of {c : Dev nD} (dat : Dat τ (Elt F) Unit ℕ (UR sig nD τ) ℕ cfg0 c) (hA : dat.A 1 = V c (Pipeline.arrRef spec0 1))
    (hafter : ∀ t, dat.after 1 t = blk V c 1 t) (t : Fin cfg0.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)
theorem before_c_of {c : Dev nD} (dat : Dat τ (Elt F) Unit ℕ (UR sig nD τ) ℕ cfg0 c) (hA : dat.A 2 = V c (Pipeline.arrRef spec0 2))
    (hafter : ∀ t, dat.after 2 t = blk V c 2 t) (t : Fin cfg0.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)
theorem before_wx_of {c : Dev nD} (dat : Dat τ (Elt F) Unit ℕ (UR sig nD τ) ℕ cfg0 c) (hA : dat.A 3 = V c (Pipeline.arrRef spec0 3))
    (hafter : ∀ t, dat.after 3 t = blk V c 3 t) (t : Fin cfg0.N) (d) : dat.before 3 t d = blk V c 3 t :=
  (dat.before_in_eq_fetched 3 rfl (fun _ => rfl) (fun _ _ _ => rfl) (fun t => by rw [hafter]; unfold Dat.blockOf blk; rw [hA]; try rfl) t d).trans
    (by unfold Dat.fetched Dat.blockOf blk; rw [hA]; try rfl)
theorem before_wh_of {c : Dev nD} (dat : Dat τ (Elt F) Unit ℕ (UR sig nD τ) ℕ cfg0 c) (hA : dat.A 4 = V c (Pipeline.arrRef spec0 4))
    (hafter : ∀ t, dat.after 4 t = blk V c 4 t) (t : Fin cfg0.N) (d) : dat.before 4 t d = blk V c 4 t :=
  (dat.before_in_eq_fetched 4 rfl (fun _ => rfl) (fun _ _ _ => rfl) (fun t => by rw [hafter]; unfold Dat.blockOf blk; rw [hA]; try rfl) t d).trans
    (by unfold Dat.fetched Dat.blockOf blk; rw [hA]; try rfl)
theorem before_wf_of {c : Dev nD} (dat : Dat τ (Elt F) Unit ℕ (UR sig nD τ) ℕ cfg0 c) (hA : dat.A 5 = V c (Pipeline.arrRef spec0 5))
    (hafter : ∀ t, dat.after 5 t = blk V c 5 t) (t : Fin cfg0.N) (d) : dat.before 5 t d = blk V c 5 t :=
  (dat.before_in_eq_fetched 5 rfl (fun _ => rfl) (fun _ _ _ => rfl) (fun t => by rw [hafter]; unfold Dat.blockOf blk; rw [hA]; try rfl) t d).trans
    (by unfold Dat.fetched Dat.blockOf blk; rw [hA]; try rfl)
theorem before_wo_of {c : Dev nD} (dat : Dat τ (Elt F) Unit ℕ (UR sig nD τ) ℕ cfg0 c) (hA : dat.A 6 = V c (Pipeline.arrRef spec0 6))
    (hafter : ∀ t, dat.after 6 t = blk V c 6 t) (t : Fin cfg0.N) (d) : dat.before 6 t d = blk V c 6 t :=
  (dat.before_in_eq_fetched 6 rfl (fun _ => rfl) (fun _ _ _ => rfl) (fun t => by rw [hafter]; unfold Dat.blockOf blk; rw [hA]; try rfl) t d).trans
    (by unfold Dat.fetched Dat.blockOf blk; rw [hA]; try rfl)

/-- The whole-block rectangles the body reads and writes through, one per block shape. -/
abbrev rB : Rect S128x1024 := Rect.unit (s := S128x1024) ![0, 0] S128x1024.size inb_S128x1024_S128x1024_0_0
abbrev rWide : Rect S1024x4096 := Rect.unit (s := S1024x4096) ![0, 0] S1024x4096.size inb_S1024x4096_S1024x4096_0_0
abbrev rPeep : Rect S1024x2048 := Rect.unit (s := S1024x2048) ![0, 0] S1024x2048.size inb_S1024x2048_S1024x2048_0_0
abbrev rSq : Rect S1024x1024 := Rect.unit (s := S1024x1024) ![0, 0] S1024x1024.size inb_S1024x1024_S1024x1024_0_0

/-- What the body leaves in the hidden-state window's staging buffer, from the seven input blocks: its one store. -/
def outH (x0 : Vec F S128x1024 .f32) (h0 : Vec F S128x1024 .f32) (c0 : Vec F S128x1024 .f32) (wx0 : Vec F S1024x4096 .bf16) (wh0 : Vec F S1024x4096 .bf16) (wf0 : Vec F S1024x2048 .bf16) (wo0 : Vec F S1024x1024 .bf16) : Vec F S128x1024 .f32 :=
  View.canon [⟨rB, k0_pay4 (View.ld x0 rB) (View.ld h0 rB) (View.ld c0 rB) (View.ld wx0 rWide) (View.ld wh0 rWide) (View.ld wf0 rPeep) (View.ld wo0 rSq)⟩]
/-- What it leaves in the cell-state window's. -/
def outC (x0 : Vec F S128x1024 .f32) (h0 : Vec F S128x1024 .f32) (c0 : Vec F S128x1024 .f32) (wx0 : Vec F S1024x4096 .bf16) (wh0 : Vec F S1024x4096 .bf16) (wf0 : Vec F S1024x2048 .bf16) (wo0 : Vec F S1024x1024 .bf16) : Vec F S128x1024 .f32 :=
  View.canon [⟨rB, k0_pay3 (View.ld x0 rB) (View.ld h0 rB) (View.ld c0 rB) (View.ld wx0 rWide) (View.ld wh0 rWide) (View.ld wf0 rPeep)⟩]
/-- What it leaves in the narrow hidden-state window's. -/
def outN (x0 : Vec F S128x1024 .f32) (h0 : Vec F S128x1024 .f32) (c0 : Vec F S128x1024 .f32) (wx0 : Vec F S1024x4096 .bf16) (wh0 : Vec F S1024x4096 .bf16) (wf0 : Vec F S1024x2048 .bf16) (wo0 : Vec F S1024x1024 .bf16) : Vec F S128x1024 .bf16 :=
  View.canon [⟨rB, k0_pay1 (k0_pay4 (View.ld x0 rB) (View.ld h0 rB) (View.ld c0 rB) (View.ld wx0 rWide) (View.ld wh0 rWide) (View.ld wf0 rPeep) (View.ld wo0 rSq))⟩]

/-- One whole-block store covers the block, in either float format. -/
theorem coverB (p0 : Vec F S128x1024 .f32) (y : S128x1024.Idx) :
    ∃ pc ∈ ([⟨rB, p0⟩] : List (View.Piece (Elt F) S128x1024 .f32)), y ∈ pc.1.set :=
  View.cover_of_tiled [⟨rB, p0⟩] S128x1024.size (by rfl) y
theorem coverN (p0 : Vec F S128x1024 .bf16) (y : S128x1024.Idx) :
    ∃ pc ∈ ([⟨rB, p0⟩] : List (View.Piece (Elt F) S128x1024 .bf16)), y ∈ pc.1.set :=
  View.cover_of_tiled [⟨rB, p0⟩] S128x1024.size (by rfl) y

set_option maxHeartbeats 4000000 in
/-- The body on whole staging memrefs: the seven inputs at their contents, the three outputs at anything; it ends with
    the inputs as they were and the outputs at `outH`, `outC`, `outN` of the inputs. -/
theorem sound_kernel (c : Dev nD) (E : Set ℕ) (i : grid0.Coords)
    (arg1 : Memref sig .tc .vmem S128x1024 .f32) (harg1 : arg1.IsWhole) (arg2 : Memref sig .tc .vmem S128x1024 .f32) (harg2 : arg2.IsWhole) (arg3 : Memref sig .tc .vmem S128x1024 .f32) (harg3 : arg3.IsWhole) (arg4 : Memref sig .tc .vmem S1024x4096 .bf16) (harg4 : arg4.IsWhole) (arg5 : Memref sig .tc .vmem S1024x4096 .bf16) (harg5 : arg5.IsWhole) (arg6 : Memref sig .tc .vmem S1024x2048 .bf16) (harg6 : arg6.IsWhole) (arg7 : Memref sig .tc .vmem S1024x1024 .bf16) (harg7 : arg7.IsWhole) (arg8 : Memref sig .tc .vmem S128x1024 .f32) (harg8 : arg8.IsWhole) (arg9 : Memref sig .tc .vmem S128x1024 .f32) (harg9 : arg9.IsWhole) (arg10 : Memref sig .tc .vmem S128x1024 .bf16) (harg10 : arg10.IsWhole)
    (x0 : Vec F S128x1024 .f32) (h0 : Vec F S128x1024 .f32) (c0 : Vec F S128x1024 .f32) (wx0 : Vec F S1024x4096 .bf16) (wh0 : Vec F S1024x4096 .bf16) (wf0 : Vec F S1024x2048 .bf16) (wo0 : Vec F S1024x1024 .bf16) (K : PUnit → sProp 𝕄) :
    iprop(owns (c : Thread nD τ) arg1 fullShare x0 ∗ owns (c : Thread nD τ) arg2 fullShare h0 ∗ owns (c : Thread nD τ) arg3 fullShare c0 ∗ owns (c : Thread nD τ) arg4 fullShare wx0 ∗ owns (c : Thread nD τ) arg5 fullShare wh0 ∗ owns (c : Thread nD τ) arg6 fullShare wf0 ∗ owns (c : Thread nD τ) arg7 fullShare wo0
        ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare h0 ∗ owns (c : Thread nD τ) arg3 fullShare c0 ∗ owns (c : Thread nD τ) arg4 fullShare wx0 ∗ owns (c : Thread nD τ) arg5 fullShare wh0 ∗ owns (c : Thread nD τ) arg6 fullShare wf0 ∗ owns (c : Thread nD τ) arg7 fullShare wo0
            ∗ owns (c : Thread nD τ) arg8 fullShare (outH x0 h0 c0 wx0 wh0 wf0 wo0)
            ∗ owns (c : Thread nD τ) arg9 fullShare (outC x0 h0 c0 wx0 wh0 wf0 wo0)
            ∗ owns (c : Thread nD τ) arg10 fullShare (outN x0 h0 c0 wx0 wh0 wf0 wo0)) -∗ K ⟨⟩))
      ⊢ wp frame (wpE (defs₀ (F := F)) Variants.none c none) E (cc0__cell_kernel i arg1 harg1 arg2 harg2 arg3 harg3 arg4 harg4 arg5 harg5 arg6 harg6 arg7 harg7 arg8 harg8 arg9 harg9 arg10 harg10) K := by
  simp only [cc0__cell_kernel_eq_skeleton]; unfold cc0__cell_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (coverB _)
  isplitl [H8]
  · iexists _; isplitr
    swap; · iexact H8
    ipureintro
    exact View.read_writes_eq_canon _ _ _ (coverB _)
  iexists _; isplitr
  swap; · iexact H9
  ipureintro
  exact View.read_writes_eq_canon _ _ _ (coverN _)

/-- The pipeline's proof data on core `c`: the arrays as the region finds them; after the body at point `t` each input's
    buffer still at its block and the three outputs' at `outH`, `outC`, `outN` of the input blocks; the class invariant
    (the scoped rest and the generator register, untouched); nothing owed; full shares. -/
def dat (c : Dev nD) : Dat τ (Elt F) Unit ℕ (UR sig nD τ) ℕ cfg0 c where
  A w := V c (Pipeline.arrRef spec0 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => blk V c 5 t
    | ⟨6, _⟩ => blk V c 6 t
    | ⟨7, _⟩ => outH (blk V c 0 t) (blk V c 1 t) (blk V c 2 t) (blk V c 3 t) (blk V c 4 t) (blk V c 5 t) (blk V c 6 t)
    | ⟨8, _⟩ => outC (blk V c 0 t) (blk V c 1 t) (blk V c 2 t) (blk V c 3 t) (blk V c 4 t) (blk V c 5 t) (blk V c 6 t)
    | ⟨9, _⟩ => outN (blk V c 0 t) (blk V c 1 t) (blk V c 2 t) (blk V c 3 t) (blk V c 4 t) (blk V c 5 t) (blk V c 6 t)
  Φ _ := Pipeline.ΦA spec0 c
  q _ := fullShare
  owed _ := 0

theorem A_eq (c : Dev nD) (w : Fin cfg0.W) : (dat V c).A w = V c (Pipeline.arrRef spec0 w) := by
  dsimp only [dat]

theorem after_x (c : Dev nD) (t : Fin cfg0.N) : (dat V c).after 0 t = blk V c 0 t := by dsimp only [dat]
theorem after_h (c : Dev nD) (t : Fin cfg0.N) : (dat V c).after 1 t = blk V c 1 t := by dsimp only [dat]
theorem after_c (c : Dev nD) (t : Fin cfg0.N) : (dat V c).after 2 t = blk V c 2 t := by dsimp only [dat]
theorem after_wx (c : Dev nD) (t : Fin cfg0.N) : (dat V c).after 3 t = blk V c 3 t := by dsimp only [dat]
theorem after_wh (c : Dev nD) (t : Fin cfg0.N) : (dat V c).after 4 t = blk V c 4 t := by dsimp only [dat]
theorem after_wf (c : Dev nD) (t : Fin cfg0.N) : (dat V c).after 5 t = blk V c 5 t := by dsimp only [dat]
theorem after_wo (c : Dev nD) (t : Fin cfg0.N) : (dat V c).after 6 t = blk V c 6 t := by dsimp only [dat]
theorem after_H (c : Dev nD) (t : Fin cfg0.N) : (dat V c).after 7 t = outH (blk V c 0 t) (blk V c 1 t) (blk V c 2 t) (blk V c 3 t) (blk V c 4 t) (blk V c 5 t) (blk V c 6 t) := by dsimp only [dat]
theorem after_C (c : Dev nD) (t : Fin cfg0.N) : (dat V c).after 8 t = outC (blk V c 0 t) (blk V c 1 t) (blk V c 2 t) (blk V c 3 t) (blk V c 4 t) (blk V c 5 t) (blk V c 6 t) := by dsimp only [dat]
theorem after_N (c : Dev nD) (t : Fin cfg0.N) : (dat V c).after 9 t = outN (blk V c 0 t) (blk V c 1 t) (blk V c 2 t) (blk V c 3 t) (blk V c 4 t) (blk V c 5 t) (blk V c 6 t) := by dsimp only [dat]

theorem before_x (c : Dev nD) (t : Fin cfg0.N) (d) : (dat V c).before 0 t d = blk V c 0 t :=
  before_x_of V (dat V c) (A_eq V c 0) (after_x V c) t d
theorem before_h (c : Dev nD) (t : Fin cfg0.N) (d) : (dat V c).before 1 t d = blk V c 1 t :=
  before_h_of V (dat V c) (A_eq V c 1) (after_h V c) t d
theorem before_c (c : Dev nD) (t : Fin cfg0.N) (d) : (dat V c).before 2 t d = blk V c 2 t :=
  before_c_of V (dat V c) (A_eq V c 2) (after_c V c) t d
theorem before_wx (c : Dev nD) (t : Fin cfg0.N) (d) : (dat V c).before 3 t d = blk V c 3 t :=
  before_wx_of V (dat V c) (A_eq V c 3) (after_wx V c) t d
theorem before_wh (c : Dev nD) (t : Fin cfg0.N) (d) : (dat V c).before 4 t d = blk V c 4 t :=
  before_wh_of V (dat V c) (A_eq V c 4) (after_wh V c) t d
theorem before_wf (c : Dev nD) (t : Fin cfg0.N) (d) : (dat V c).before 5 t d = blk V c 5 t :=
  before_wf_of V (dat V c) (A_eq V c 5) (after_wf V c) t d
theorem before_wo (c : Dev nD) (t : Fin cfg0.N) (d) : (dat V c).before 6 t d = blk V c 6 t :=
  before_wo_of V (dat V c) (A_eq V c 6) (after_wo V c) t d

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d))
    ∗ (∃ d, owns (c : Thread nD τ) (st0_5 t) fullShare ((dat V c).before 5 t d))
    ∗ (∃ d, owns (c : Thread nD τ) (st0_6 t) fullShare ((dat V c).before 6 t d))
    ∗ (∃ d, owns (c : Thread nD τ) (st0_7 t) fullShare ((dat V c).before 7 t d))
    ∗ (∃ d, owns (c : Thread nD τ) (st0_8 t) fullShare ((dat V c).before 8 t d))
    ∗ (∃ d, owns (c : Thread nD τ) (st0_9 t) fullShare ((dat V c).before 9 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t)
    ∗ owns (c : Thread nD τ) (st0_4 t) fullShare ((dat V c).after 4 t)
    ∗ owns (c : Thread nD τ) (st0_5 t) fullShare ((dat V c).after 5 t)
    ∗ owns (c : Thread nD τ) (st0_6 t) fullShare ((dat V c).after 6 t)
    ∗ owns (c : Thread nD τ) (st0_7 t) fullShare ((dat V c).after 7 t)
    ∗ owns (c : Thread nD τ) (st0_8 t) fullShare ((dat V c).after 8 t)
    ∗ owns (c : Thread nD τ) (st0_9 t) fullShare ((dat V c).after 9 t))

/-- The body at any point: the inputs' memrefs hold their blocks, so the body's triple applies; the invariant and the
    core's dues pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_x, before_h, before_c, before_wx, before_wh, before_wf, before_wo]
  rw [show (dat V c).Φ t.succ = (dat V c).Φ t.castSucc from rfl,
    show (dat V c).owesAt () t.succ = (dat V c).owesAt () t.castSucc from rfl,
    after_x, after_h, after_c, after_wx, after_wh, after_wf, after_wo, after_H, after_C, after_N]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel c Set.univ _ _ _ _ _ _ _ _ _ _ _ _ _ _ _ _ _ _ _ _ _ (blk V c 0 t) (blk V c 1 t) (blk V c 2 t) (blk V c 3 t) (blk V c 4 t) (blk V c 5 t) (blk V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The pipeline library's body obligation, at every point. -/
theorem body_obligation (c : Dev nD) : BodyObligation (dat (F := F) V c) (defs₀ (F := F)) Variants.none () Set.univ := fun t => by
  rw [bigSep_W0, bigSep_W0]
  exact sound_body V c t

end Cert.KernelIdeal.Cell

end
-- ==== Proof.KI.Proj.lean ====
/-
  The output projection as one pipelined region: at each of its 80 grid points (10 column tiles of 3200, 8 row tiles
  of 512) the body reads a 512 x 1024 block of the hidden state and a 1024 x 3200 block of the projection matrix
  and leaves, in the output window's staging buffer, the logistic of their matrix product — one store covering the
  whole 512 x 3200 block. Stated at any float instance and at any contents `V` of the unscoped buffers when the
  region is entered: what each window's block is (`blk`), what the body leaves (`outY`), the body's triple, the
  proof data of the pipeline and the obligation that the body meets it at every grid point.
-/
import proofs.«170784_j51951924412948_2_alg».proof.Proof.Gen.KernelIdeal.Launch
import proofs.«170784_j51951924412948_2_alg».proof.Proof.Gen.KernelIdeal.Skeleton
import proofs.«170784_j51951924412948_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Proj

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the window's array as the region finds it. -/
def blk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The hidden-state window's current staging buffer holds its block at every point. -/
theorem before_h_of {c : Dev nD} (dat : Dat τ (Elt F) Unit ℕ (UR sig nD τ) ℕ cfg1 c) (hA : dat.A 0 = V c (Pipeline.arrRef spec1 0))
    (hafter : ∀ t, dat.after 0 t = blk V c 0 t) (t : Fin cfg1.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)

/-- The weight window's staging buffer holds its block at every point, fetched there or kept from the point before
    (its block index moves only with the column tile). -/
theorem before_w_of {c : Dev nD} (dat : Dat τ (Elt F) Unit ℕ (UR sig nD τ) ℕ cfg1 c) (hA : dat.A 1 = V c (Pipeline.arrRef spec1 1))
    (hafter : ∀ t, dat.after 1 t = blk V c 1 t) (t : Fin cfg1.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)

/-- The three whole-block rectangles the body reads and writes through. -/
abbrev rH : Rect S512x1024 := Rect.unit (s := S512x1024) ![0, 0] S512x1024.size inb_S512x1024_S512x1024_0_0
abbrev rW : Rect S1024x3200 := Rect.unit (s := S1024x3200) ![0, 0] S1024x3200.size inb_S1024x3200_S1024x3200_0_0
abbrev rY : Rect S512x3200 := Rect.unit (s := S512x3200) ![0, 0] S512x3200.size inb_S512x3200_S512x3200_0_0

/-- What the body leaves in the output window's staging buffer, from the two input blocks: its one store. -/
def outY (h0 : Vec F S512x1024 .bf16) (w0 : Vec F S1024x3200 .bf16) : Vec F S512x3200 .f32 :=
  View.canon [⟨rY, k1_pay1 (View.ld h0 rH) (View.ld w0 rW)⟩]

/-- The one store covers the output block. -/
theorem coverY (p0 : Vec F S512x3200 .f32) (y : S512x3200.Idx) :
    ∃ pc ∈ ([⟨rY, p0⟩] : List (View.Piece (Elt F) S512x3200 .f32)), y ∈ pc.1.set :=
  View.cover_of_tiled [⟨rY, p0⟩] S512x3200.size (by rfl) y

set_option maxHeartbeats 1000000 in
/-- The body on whole staging memrefs: the inputs at `h0`, `w0`, the output at anything; it ends with the inputs as they
    were and the output at `outY h0 w0`. -/
theorem sound_kernel (c : Dev nD) (E : Set ℕ) (i : grid1.Coords)
    (arg2 : Memref sig .tc .vmem S512x1024 .bf16) (harg2 : arg2.IsWhole) (arg3 : Memref sig .tc .vmem S1024x3200 .bf16) (harg3 : arg3.IsWhole)
    (arg4 : Memref sig .tc .vmem S512x3200 .f32) (harg4 : arg4.IsWhole)
    (h0 : Vec F S512x1024 .bf16) (w0 : Vec F S1024x3200 .bf16) (K : PUnit → sProp 𝕄) :
    iprop(owns (c : Thread nD τ) arg2 fullShare h0 ∗ owns (c : Thread nD τ) arg3 fullShare w0 ∗ (∃ d, owns (c : Thread nD τ) arg4 fullShare d)
        ∗ (iprop(owns (c : Thread nD τ) arg2 fullShare h0 ∗ owns (c : Thread nD τ) arg3 fullShare w0
            ∗ owns (c : Thread nD τ) arg4 fullShare (outY h0 w0)) -∗ K ⟨⟩))
      ⊢ wp frame (wpE (defs₀ (F := F)) Variants.none c none) E (cc1__proj_kernel i arg2 harg2 arg3 harg3 arg4 harg4) K := by
  simp only [cc1__proj_kernel_eq_skeleton]; unfold cc1__proj_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (coverY _)

/-- The pipeline's proof data on core `c`: the arrays as the region finds them; after the body at point `t` each input's
    buffer still at its block and the output's at `outY` of the two input blocks; the class invariant (the scoped
    rest and the generator register, untouched); nothing owed; full shares. -/
def dat (c : Dev nD) : Dat τ (Elt F) Unit ℕ (UR sig nD τ) ℕ cfg1 c where
  A w := V c (Pipeline.arrRef spec1 w)
  after w t := match w with
    | ⟨0, _⟩ => blk V c 0 t
    | ⟨1, _⟩ => blk V c 1 t
    | ⟨2, _⟩ => outY (blk V c 0 t) (blk V c 1 t)
  Φ _ := Pipeline.ΦA spec1 c
  q _ := fullShare
  owed _ := 0

theorem A_eq (c : Dev nD) (w : Fin cfg1.W) : (dat V c).A w = V c (Pipeline.arrRef spec1 w) := by
  dsimp only [dat]

theorem after_h (c : Dev nD) (t : Fin cfg1.N) : (dat V c).after 0 t = blk V c 0 t := by dsimp only [dat]
theorem after_w (c : Dev nD) (t : Fin cfg1.N) : (dat V c).after 1 t = blk V c 1 t := by dsimp only [dat]
theorem after_y (c : Dev nD) (t : Fin cfg1.N) : (dat V c).after 2 t = outY (blk V c 0 t) (blk V c 1 t) := by dsimp only [dat]

theorem before_h (c : Dev nD) (t : Fin cfg1.N) (d) : (dat V c).before 0 t d = blk V c 0 t :=
  before_h_of V (dat V c) (A_eq V c 0) (after_h V c) t d
theorem before_w (c : Dev nD) (t : Fin cfg1.N) (d) : (dat V c).before 1 t d = blk V c 1 t :=
  before_w_of V (dat V c) (A_eq V c 1) (after_w V c) t d

/-- What the body is called with at point `t`, the windows one by one, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d)))

/-- and what it returns. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t))

/-- The body at any point: the inputs' memrefs hold their blocks, so the body's triple applies; the invariant and the
    core's dues pass through unread. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_h, before_w]
  rw [show (dat V c).Φ t.succ = (dat V c).Φ t.castSucc from rfl,
    show (dat V c).owesAt () t.succ = (dat V c).owesAt () t.castSucc from rfl,
    after_h, after_w, after_y]
  iintro ⟨HΦ, Ho, ⟨%d0, H0⟩, ⟨%d1, H1⟩, ⟨%d2, H2⟩⟩
  iapply (sound_kernel c Set.univ _ _ _ _ _ _ _ (blk V c 0 t) (blk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline library's body obligation, at every point. -/
theorem body_obligation (c : Dev nD) : BodyObligation (dat (F := F) V c) (defs₀ (F := F)) Variants.none () Set.univ := fun t => by
  rw [bigSep_W1, bigSep_W1]
  exact sound_body V c t

end Cert.KernelIdeal.Proj

end
-- ==== Proof.KI.Run.lean ====
/-
  The whole run of @main: eight host operations that lay the weight matrices side by side and narrow their float
  format, then the cell region, then the projection region. The contents of every unscoped buffer are followed
  through these three stretches — at launch, after the host operations, after the cell region (its three output arrays
  at what the pipeline's write-backs leave, everything else as entered), after the projection region (likewise) — and
  every weakly fair execution is shown to terminate, fault nowhere, and end with every unscoped buffer at the last of
  these contents. Both the frame claim and the values of the three results are read off that.
-/
import proofs.«170784_j51951924412948_2_alg».proof.Proof.KI.Cell
import proofs.«170784_j51951924412948_2_alg».proof.Proof.KI.Proj
import proofs.«170784_j51951924412948_2_alg».proof.Proof.Gen.KernelIdeal.Regions

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at the four boundaries -/

/-- At launch. -/
abbrev atLaunch : Dev nD → Valuation τ sig (Elt F) := fun c b => (s₀ m ρ).mem ((c : Dev nD), b)
/-- After the host operations: the cell region's entry. -/
abbrev atCell : Dev nD → Valuation τ sig (Elt F) := fun c => StableHlo.after hostOps0 (atLaunch m ρ c)
/-- The same, read at the TensorCore's references. -/
abbrev vCell : (c : Dev nD) → (b : Ref sig .tc) → Buf (Elt F) ((c : Thread nD τ).loc b) := fun c b => atCell m ρ c b
/-- After the cell region: its arrays at what the pipeline leaves, every other buffer as entered. The projection
    region's entry. -/
def atProj (c : Dev nD) : Valuation τ sig (Elt F) :=
  Pipeline.withArrays spec0 c (atCell m ρ c) fun w => (Cell.dat (vCell m ρ) c).arrAt w cfg0.N
theorem atProj_arr (c : Dev nD) (w : Fin cfg0.W) :
    atProj m ρ c (Proc.devRef .tc (Pipeline.arrRef spec0 w)) = (Cell.dat (vCell m ρ) c).arrAt w cfg0.N := by
  unfold atProj; exact Pipeline.withArrays_arr spec0 launch0.win.arr_inj c _ _ w
theorem atProj_of_ne (c : Dev nD) (b : Ref sig .tc) (hb : ∀ w, Pipeline.arrRef spec0 w ≠ b) :
    atProj m ρ c (Proc.devRef .tc b) = atCell m ρ c (Proc.devRef .tc b) := by
  unfold atProj; exact Pipeline.withArrays_of_ne spec0 c _ _ b hb
abbrev vProj : (c : Dev nD) → (b : Ref sig .tc) → Buf (Elt F) ((c : Thread nD τ).loc b) := fun c b => atProj m ρ c b
theorem left_cell (c : Dev nD) (w : Fin cfg0.W) : (Cell.dat (vCell m ρ) c).arrAt w cfg0.N = vProj m ρ c (Pipeline.arrRef spec0 w) :=
  (atProj_arr m ρ c w).symm
theorem kept_cell (c : Dev nD) : ∀ b, b ∉ Finset.univ.image (Pipeline.arrRef spec0) → vProj m ρ c b = vCell m ρ c b :=
  fun b hb => atProj_of_ne m ρ c b fun w e => hb (Finset.mem_image.mpr ⟨w, Finset.mem_univ _, e⟩)

/-- After the projection region: its arrays at what the pipeline leaves, every other buffer as entered. -/
def atEnd (c : Dev nD) : Valuation τ sig (Elt F) :=
  Pipeline.withArrays spec1 c (atProj m ρ c) fun w => (Proj.dat (vProj m ρ) c).arrAt w cfg1.N
theorem atEnd_arr (c : Dev nD) (w : Fin cfg1.W) :
    atEnd m ρ c (Proc.devRef .tc (Pipeline.arrRef spec1 w)) = (Proj.dat (vProj m ρ) c).arrAt w cfg1.N := by
  unfold atEnd; exact Pipeline.withArrays_arr spec1 launch1.win.arr_inj c _ _ w
theorem atEnd_of_ne (c : Dev nD) (b : Ref sig .tc) (hb : ∀ w, Pipeline.arrRef spec1 w ≠ b) :
    atEnd m ρ c (Proc.devRef .tc b) = atProj m ρ c (Proc.devRef .tc b) := by
  unfold atEnd; exact Pipeline.withArrays_of_ne spec1 c _ _ b hb
abbrev vEnd : (c : Dev nD) → (b : Ref sig .tc) → Buf (Elt F) ((c : Thread nD τ).loc b) := fun c b => atEnd m ρ c b
theorem left_proj (c : Dev nD) (w : Fin cfg1.W) : (Proj.dat (vProj m ρ) c).arrAt w cfg1.N = vEnd m ρ c (Pipeline.arrRef spec1 w) :=
  (atEnd_arr m ρ c w).symm
theorem kept_proj (c : Dev nD) : ∀ b, b ∉ Finset.univ.image (Pipeline.arrRef spec1) → vEnd m ρ c b = vProj m ρ c b :=
  fun b hb => atEnd_of_ne m ρ c b fun w e => hb (Finset.mem_image.mpr ⟨w, Finset.mem_univ _, e⟩)

/-! ## The proof data and the thread state -/

/-- Each pipeline's proof data at its region's entry contents. -/
def pdats : (p : Fin 2) → (c : Dev nD) → Dat τ (Elt F) Unit ℕ (UR sig nD τ) ℕ (Pipeline.pin (pcfgs (F := F)) Gen.adm p) c
  | ⟨0, _⟩ => fun c => Cell.dat (vCell m ρ) c
  | ⟨1, _⟩ => fun c => Proj.dat (vProj m ρ) c
abbrev 𝒱₀ : Variants := Variants.none
abbrev L : GSem nD τ sig → Finset Unit := fun _ => ∅
abbrev lv : GSem nD τ sig → Unit → ℕ := fun _ _ => 0
/-- What rides beside the buffers through every stretch: the core's generator register at some state, and the core
    owing nothing. -/
abbrev R (c : Dev nD) : sProp 𝕄 := iprop((∃ r, prngReg c r) ∗ ∃ W, owes (c : Thread nD τ) (0 : CellTallies nD τ sig Unit) W)
/-- The host operations as a stretch from the launch contents. -/
abbrev hostSeg : Pipeline.HostSeg (Name := ℕ) (U := UR sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp Gen.hostOps0_fresh) op h) (atLaunch m ρ) R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues. -/
abbrev Tend (c : Dev nD) : sProp 𝕄 := iprop(StableHlo.held (c : Thread nD τ) (Pipeline.ucRefs τ sig) (atEnd m ρ c) ∗ ∃ r, prngReg c r)

/-! ## The two regions as stretches: entered from every unscoped buffer at the boundary's contents, the region's arrays
    split out of them and put back at the exit contents; the generator register into the pipeline's invariant and
    out; nothing owed; no semaphore of the kernels' own. -/

set_option backward.isDefEq.respectTransparency.types false in
def cellSeg : Pipeline.RegionSeg (pcfgs (F := F)) Gen.adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (Cell.body_obligation (vCell m ρ) c).loose
  hwaits := Pipeline.hwaits_of_owed_zero _ _ _ _ L lv 0 fun _ _ => rfl
  pre c := iprop(StableHlo.held (c : Thread nD τ) (Pipeline.ucRefs τ sig) (atCell m ρ c) ∗ R c)
  post c := iprop(StableHlo.held (c : Thread nD τ) (Pipeline.ucRefs τ sig) (atProj m ρ c) ∗ R c)
  X c := iprop(∃ r, prngReg c r)
  Y c := iprop(∃ r, prngReg c r)
  Z c := Pipeline.unscopedRest (Ix := Unit) (Name := ℕ) (U := UR sig nD τ) (Lvl := ℕ) spec0 c (vCell m ρ c)
  hentry c := by
    rw [Pipeline.ownSems0_none]
    have hsplit := Pipeline.arrays_of_unscopedBufs (p := 0) (pcfgs (F := F)) Gen.adm (pdats m ρ) launch0.win launch0.arr_whole c
      ((pdats m ρ 0 c).share_full fun _ => rfl) (vCell m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m ρ) ((pdats m ρ 0 c).share_full fun _ => rfl)
      (vCell m ρ c) (vProj m ρ c) ((pdats m ρ 0 c).arrAt · cfg0.N) (left_cell m ρ c) (kept_cell m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def projSeg : Pipeline.RegionSeg (pcfgs (F := F)) Gen.adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (Proj.body_obligation (vProj m ρ) c).loose
  hwaits := Pipeline.hwaits_of_owed_zero _ _ _ _ L lv 1 fun _ _ => rfl
  pre c := iprop(StableHlo.held (c : Thread nD τ) (Pipeline.ucRefs τ sig) (atProj m ρ c) ∗ R c)
  post c := iprop(Tend m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (vProj m ρ c)
  hentry c := by
    rw [Pipeline.ownSems0_none]
    have hsplit := Pipeline.arrays_of_unscopedBufs (p := 1) (pcfgs (F := F)) Gen.adm (pdats m ρ) launch1.win launch1.arr_whole c
      ((pdats m ρ 1 c).share_full fun _ => rfl) (vProj m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m ρ) ((pdats m ρ 1 c).share_full fun _ => rfl)
      (vProj m ρ c) (vEnd m ρ c) ((pdats m ρ 1 c).arrAt · cfg1.N) (left_proj m ρ c) (kept_proj m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as the three stretches, and the run -/

abbrev stretches : List (Pipeline.Seg (pcfgs (F := F)) Gen.adm (pdats m ρ) () defs₀ 𝒱₀ L lv) :=
  [ .host (hostSeg m ρ), .region (cellSeg m ρ), .region (projSeg m ρ) ]

theorem main_is_run (c : Dev nD) : main (F := F) c = Pipeline.Seg.run (stretches m ρ) := (main_chain c).trans (by chain_rfl)

set_option backward.isDefEq.respectTransparency.types false in
/-- Every weakly fair execution of @main from memory `m` with zero counters terminates, nothing faulting, with every
    unscoped buffer of every core at the contents `atEnd`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = atEnd m ρ c b) :=
  Pipeline.θ_run_regions_kit (pcfgs (F := F)) Gen.adm (pdats m ρ) () cellOf_inj emb₁ defs₀ 𝒱₀ L lv m ρ main (stretches m ρ)
    (fun c Q => by rw [main_is_run m ρ c])
    (by simp only [stretches, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (atLaunch m ρ c) ∗ R c)) (Tₙ := Tend m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (atLaunch m ρ c)
        from Pipeline.unscopedBufs_held c (atLaunch m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = atEnd m ρ c b)
    (hfin := fun c s' => by
      iintro ⟨⟨Hh, -⟩, HSI⟩
      unfold StableHlo.held
      imodintro
      iapply (pointsTo_read_all (Pipeline.ucRefs τ sig) (fun b => (((c : Thread nD τ)).1, b)) (atEnd m ρ c) s')
      isplitl [Hh] <;> iassumption)
    (hQ := fun s h c => h c)

end Cert.KernelIdeal.Whole

end
-- ==== Proof.KI.Kept.lean ====
/-
  The arguments end as launched. No host operation writes an argument array; the cell region reads three of them
  through input windows, whose arrays the pipeline leaves as it found them, and neither region writes any other. So
  each argument's buffer, followed back from the end through the projection region, the cell region and the host
  operations, holds its launch contents — which with the run of @main is the frame claim, at any float instance.
-/
import proofs.«170784_j51951924412948_2_alg».proof.Proof.KI.Run

set_option maxRecDepth 16384

noncomputable section

namespace Cert.KernelIdeal.Whole

open Cert.KernelIdeal Cert.KernelIdeal.Gen
open Idealize.ShloMosaic Idealize.ShloMosaic.TcCoe
open Idealize.SL Idealize.SL.Sem
open Idealize.ShloMosaic.Pipeline (Dat Cfg Window)

variable {F : FTy → Type} [FloatOps F]
variable (m : (ℓ : Loc nD τ sig) → Buf (Elt F) ℓ) (ρ : Dev nD → PrngReg)

/-- A buffer the host operations do not write holds after them what it held at launch. -/
theorem atCell_of (c : Dev nD) (r : Ref sig .tc) (h : r ∉ Gen.hostOps0_W) :
    atCell m ρ c (Proc.devRef .tc r) = atLaunch m ρ c (Proc.devRef .tc r) :=
  StableHlo.after_of_writes_sub hostOps0 _ Gen.hostOps0_writes h

theorem end_arg0 (c : Dev nD) : atEnd m ρ c (Proc.devRef .tc main_arg0) = m ((c : Thread nD τ).loc main_arg0) :=
  calc atEnd m ρ c (Proc.devRef .tc main_arg0)
    _ = atProj m ρ c (Proc.devRef .tc main_arg0) := atEnd_of_ne m ρ c main_arg0 (by decide)
    _ = atCell m ρ c (Proc.devRef .tc main_arg0) := (atProj_arr m ρ c 0).trans (((Cell.dat (vCell m ρ) c).arrAt_in 0 rfl _).trans (Cell.A_eq (vCell m ρ) c 0))
    _ = atLaunch m ρ c (Proc.devRef .tc main_arg0) := atCell_of m ρ c main_arg0 (by decide)
    _ = m ((c : Thread nD τ).loc main_arg0) := rfl
theorem end_arg1 (c : Dev nD) : atEnd m ρ c (Proc.devRef .tc main_arg1) = m ((c : Thread nD τ).loc main_arg1) :=
  calc atEnd m ρ c (Proc.devRef .tc main_arg1)
    _ = atProj m ρ c (Proc.devRef .tc main_arg1) := atEnd_of_ne m ρ c main_arg1 (by decide)
    _ = atCell m ρ c (Proc.devRef .tc main_arg1) := (atProj_arr m ρ c 1).trans (((Cell.dat (vCell m ρ) c).arrAt_in 1 rfl _).trans (Cell.A_eq (vCell m ρ) c 1))
    _ = atLaunch m ρ c (Proc.devRef .tc main_arg1) := atCell_of m ρ c main_arg1 (by decide)
    _ = m ((c : Thread nD τ).loc main_arg1) := rfl
theorem end_arg2 (c : Dev nD) : atEnd m ρ c (Proc.devRef .tc main_arg2) = m ((c : Thread nD τ).loc main_arg2) :=
  calc atEnd m ρ c (Proc.devRef .tc main_arg2)
    _ = atProj m ρ c (Proc.devRef .tc main_arg2) := atEnd_of_ne m ρ c main_arg2 (by decide)
    _ = atCell m ρ c (Proc.devRef .tc main_arg2) := (atProj_arr m ρ c 2).trans (((Cell.dat (vCell m ρ) c).arrAt_in 2 rfl _).trans (Cell.A_eq (vCell m ρ) c 2))
    _ = atLaunch m ρ c (Proc.devRef .tc main_arg2) := atCell_of m ρ c main_arg2 (by decide)
    _ = m ((c : Thread nD τ).loc main_arg2) := rfl
theorem end_arg3 (c : Dev nD) : atEnd m ρ c (Proc.devRef .tc main_arg3) = m ((c : Thread nD τ).loc main_arg3) :=
  calc atEnd m ρ c (Proc.devRef .tc main_arg3)
    _ = atProj m ρ c (Proc.devRef .tc main_arg3) := atEnd_of_ne m ρ c main_arg3 (by decide)
    _ = atCell m ρ c (Proc.devRef .tc main_arg3) := atProj_of_ne m ρ c main_arg3 (by decide)
    _ = atLaunch m ρ c (Proc.devRef .tc main_arg3) := atCell_of m ρ c main_arg3 (by decide)
    _ = m ((c : Thread nD τ).loc main_arg3) := rfl
theorem end_arg4 (c : Dev nD) : atEnd m ρ c (Proc.devRef .tc main_arg4) = m ((c : Thread nD τ).loc main_arg4) :=
  calc atEnd m ρ c (Proc.devRef .tc main_arg4)
    _ = atProj m ρ c (Proc.devRef .tc main_arg4) := atEnd_of_ne m ρ c main_arg4 (by decide)
    _ = atCell m ρ c (Proc.devRef .tc main_arg4) := atProj_of_ne m ρ c main_arg4 (by decide)
    _ = atLaunch m ρ c (Proc.devRef .tc main_arg4) := atCell_of m ρ c main_arg4 (by decide)
    _ = m ((c : Thread nD τ).loc main_arg4) := rfl
theorem end_arg5 (c : Dev nD) : atEnd m ρ c (Proc.devRef .tc main_arg5) = m ((c : Thread nD τ).loc main_arg5) :=
  calc atEnd m ρ c (Proc.devRef .tc main_arg5)
    _ = atProj m ρ c (Proc.devRef .tc main_arg5) := atEnd_of_ne m ρ c main_arg5 (by decide)
    _ = atCell m ρ c (Proc.devRef .tc main_arg5) := atProj_of_ne m ρ c main_arg5 (by decide)
    _ = atLaunch m ρ c (Proc.devRef .tc main_arg5) := atCell_of m ρ c main_arg5 (by decide)
    _ = m ((c : Thread nD τ).loc main_arg5) := rfl
theorem end_arg6 (c : Dev nD) : atEnd m ρ c (Proc.devRef .tc main_arg6) = m ((c : Thread nD τ).loc main_arg6) :=
  calc atEnd m ρ c (Proc.devRef .tc main_arg6)
    _ = atProj m ρ c (Proc.devRef .tc main_arg6) := atEnd_of_ne m ρ c main_arg6 (by decide)
    _ = atCell m ρ c (Proc.devRef .tc main_arg6) := atProj_of_ne m ρ c main_arg6 (by decide)
    _ = atLaunch m ρ c (Proc.devRef .tc main_arg6) := atCell_of m ρ c main_arg6 (by decide)
    _ = m ((c : Thread nD τ).loc main_arg6) := rfl
theorem end_arg7 (c : Dev nD) : atEnd m ρ c (Proc.devRef .tc main_arg7) = m ((c : Thread nD τ).loc main_arg7) :=
  calc atEnd m ρ c (Proc.devRef .tc main_arg7)
    _ = atProj m ρ c (Proc.devRef .tc main_arg7) := atEnd_of_ne m ρ c main_arg7 (by decide)
    _ = atCell m ρ c (Proc.devRef .tc main_arg7) := atProj_of_ne m ρ c main_arg7 (by decide)
    _ = atLaunch m ρ c (Proc.devRef .tc main_arg7) := atCell_of m ρ c main_arg7 (by decide)
    _ = m ((c : Thread nD τ).loc main_arg7) := rfl
theorem end_arg8 (c : Dev nD) : atEnd m ρ c (Proc.devRef .tc main_arg8) = m ((c : Thread nD τ).loc main_arg8) :=
  calc atEnd m ρ c (Proc.devRef .tc main_arg8)
    _ = atProj m ρ c (Proc.devRef .tc main_arg8) := atEnd_of_ne m ρ c main_arg8 (by decide)
    _ = atCell m ρ c (Proc.devRef .tc main_arg8) := atProj_of_ne m ρ c main_arg8 (by decide)
    _ = atLaunch m ρ c (Proc.devRef .tc main_arg8) := atCell_of m ρ c main_arg8 (by decide)
    _ = m ((c : Thread nD τ).loc main_arg8) := rfl
theorem end_arg9 (c : Dev nD) : atEnd m ρ c (Proc.devRef .tc main_arg9) = m ((c : Thread nD τ).loc main_arg9) :=
  calc atEnd m ρ c (Proc.devRef .tc main_arg9)
    _ = atProj m ρ c (Proc.devRef .tc main_arg9) := atEnd_of_ne m ρ c main_arg9 (by decide)
    _ = atCell m ρ c (Proc.devRef .tc main_arg9) := atProj_of_ne m ρ c main_arg9 (by decide)
    _ = atLaunch m ρ c (Proc.devRef .tc main_arg9) := atCell_of m ρ c main_arg9 (by decide)
    _ = m ((c : Thread nD τ).loc main_arg9) := rfl
theorem end_arg10 (c : Dev nD) : atEnd m ρ c (Proc.devRef .tc main_arg10) = m ((c : Thread nD τ).loc main_arg10) :=
  calc atEnd m ρ c (Proc.devRef .tc main_arg10)
    _ = atProj m ρ c (Proc.devRef .tc main_arg10) := atEnd_of_ne m ρ c main_arg10 (by decide)
    _ = atCell m ρ c (Proc.devRef .tc main_arg10) := atProj_of_ne m ρ c main_arg10 (by decide)
    _ = atLaunch m ρ c (Proc.devRef .tc main_arg10) := atCell_of m ρ c main_arg10 (by decide)
    _ = m ((c : Thread nD τ).loc main_arg10) := rfl
theorem end_arg11 (c : Dev nD) : atEnd m ρ c (Proc.devRef .tc main_arg11) = m ((c : Thread nD τ).loc main_arg11) :=
  calc atEnd m ρ c (Proc.devRef .tc main_arg11)
    _ = atProj m ρ c (Proc.devRef .tc main_arg11) := atEnd_of_ne m ρ c main_arg11 (by decide)
    _ = atCell m ρ c (Proc.devRef .tc main_arg11) := atProj_of_ne m ρ c main_arg11 (by decide)
    _ = atLaunch m ρ c (Proc.devRef .tc main_arg11) := atCell_of m ρ c main_arg11 (by decide)
    _ = m ((c : Thread nD τ).loc main_arg11) := rfl
theorem end_arg12 (c : Dev nD) : atEnd m ρ c (Proc.devRef .tc main_arg12) = m ((c : Thread nD τ).loc main_arg12) :=
  calc atEnd m ρ c (Proc.devRef .tc main_arg12)
    _ = atProj m ρ c (Proc.devRef .tc main_arg12) := atEnd_of_ne m ρ c main_arg12 (by decide)
    _ = atCell m ρ c (Proc.devRef .tc main_arg12) := atProj_of_ne m ρ c main_arg12 (by decide)
    _ = atLaunch m ρ c (Proc.devRef .tc main_arg12) := atCell_of m ρ c main_arg12 (by decide)
    _ = m ((c : Thread nD τ).loc main_arg12) := rfl
theorem end_arg13 (c : Dev nD) : atEnd m ρ c (Proc.devRef .tc main_arg13) = m ((c : Thread nD τ).loc main_arg13) :=
  calc atEnd m ρ c (Proc.devRef .tc main_arg13)
    _ = atProj m ρ c (Proc.devRef .tc main_arg13) := atEnd_of_ne m ρ c main_arg13 (by decide)
    _ = atCell m ρ c (Proc.devRef .tc main_arg13) := atProj_of_ne m ρ c main_arg13 (by decide)
    _ = atLaunch m ρ c (Proc.devRef .tc main_arg13) := atCell_of m ρ c main_arg13 (by decide)
    _ = m ((c : Thread nD τ).loc main_arg13) := rfl
theorem end_arg14 (c : Dev nD) : atEnd m ρ c (Proc.devRef .tc main_arg14) = m ((c : Thread nD τ).loc main_arg14) :=
  calc atEnd m ρ c (Proc.devRef .tc main_arg14)
    _ = atProj m ρ c (Proc.devRef .tc main_arg14) := atEnd_of_ne m ρ c main_arg14 (by decide)
    _ = atCell m ρ c (Proc.devRef .tc main_arg14) := atProj_of_ne m ρ c main_arg14 (by decide)
    _ = atLaunch m ρ c (Proc.devRef .tc main_arg14) := atCell_of m ρ c main_arg14 (by decide)
    _ = m ((c : Thread nD τ).loc main_arg14) := rfl

/-- The frame claim at any float instance: every weakly fair execution of @main terminates, nothing faulting, with every
    argument array as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c => ⟨(h c _ (mem_uc main_arg0 (by decide))).trans (end_arg0 m ρ c),
    (h c _ (mem_uc main_arg1 (by decide))).trans (end_arg1 m ρ c),
    (h c _ (mem_uc main_arg2 (by decide))).trans (end_arg2 m ρ c),
    (h c _ (mem_uc main_arg3 (by decide))).trans (end_arg3 m ρ c),
    (h c _ (mem_uc main_arg4 (by decide))).trans (end_arg4 m ρ c),
    (h c _ (mem_uc main_arg5 (by decide))).trans (end_arg5 m ρ c),
    (h c _ (mem_uc main_arg6 (by decide))).trans (end_arg6 m ρ c),
    (h c _ (mem_uc main_arg7 (by decide))).trans (end_arg7 m ρ c),
    (h c _ (mem_uc main_arg8 (by decide))).trans (end_arg8 m ρ c),
    (h c _ (mem_uc main_arg9 (by decide))).trans (end_arg9 m ρ c),
    (h c _ (mem_uc main_arg10 (by decide))).trans (end_arg10 m ρ c),
    (h c _ (mem_uc main_arg11 (by decide))).trans (end_arg11 m ρ c),
    (h c _ (mem_uc main_arg12 (by decide))).trans (end_arg12 m ρ c),
    (h c _ (mem_uc main_arg13 (by decide))).trans (end_arg13 m ρ c),
    (h c _ (mem_uc main_arg14 (by decide))).trans (end_arg14 m ρ c)⟩)
    (run_all m ρ)

end Cert.KernelIdeal.Whole

end
-- ==== Proof.LstmCell.lean ====
/-
  The peephole LSTM cell and its output projection, stated row by row on the extended reals.

  One batch row at a time: from the row's input `xr`, hidden state `hr` and cell state `cr` (1024 entries each),
  the wide input and hidden weight matrices `wx`, `wh` (1024 x 4096, the four gates' matrices side by side in the
  order forget, input, candidate, output), the peephole matrices `wfc`, `wic`, `woc` (1024 x 1024) and the
  projection matrix `wop` (1024 x 32000):

    z J   = xr . wx[:, J] + hr . wh[:, J]                                     (J < 4096)
    f j   = sigma (z j          + cr . wfc[:, j])
    i j   = sigma (z (1024 + j) + cr . wic[:, j])
    c' j  = f j * cr j + i j * tanh (z (2048 + j))
    o j   = sigma (z (3072 + j) + c' . woc[:, j])
    h' j  = o j * tanh (c' j)
    y v   = sigma (h' . wop[:, v])                                            (v < 32000)

  where sigma x = 1 / (1 + e^(-x)) with its limits 0 and 1 at the infinities. Every dot product is a sum over the
  same 1024 inner coordinates, so nothing here depends on the entries being finite.
-/
import Idealize.ShloMosaic.PureOps.Ideal
import Idealize.ShloMosaic.Lib.ValueIdx

noncomputable section

namespace Cert.Lstm

open Idealize.ShloMosaic Idealize.ShloMosaic.ValueIdx
open scoped BigOperators

/-- A matrix of extended reals, indexed as the programs' arrays are. -/
abbrev Mat (a b : Nat) : Type := (⟨2, ![a, b]⟩ : Shape).Idx → EReal

/-- The dot product of two vectors of 1024 extended reals. -/
def dot (a w : Fin 1024 → EReal) : EReal := ∑ k : Fin 1024, a k * w k

/-- Row `p` of a matrix with 1024 columns. -/
def rowOf {n : Nat} (A : Mat n 1024) (p : Fin n) : Fin 1024 → EReal := fun k => A (ix2 p k)

/-- Column `j` of a matrix with 1024 rows. -/
def colOf {n : Nat} (W : Mat 1024 n) (j : Fin n) : Fin 1024 → EReal := fun k => W (ix2 k j)

/-- The wide column that holds gate `0` (forget), `1` (input), `2` (candidate), `3` (output) of unit `j`. -/
def band0 (j : Fin 1024) : Fin 4096 := ⟨j.val, by omega⟩
def band1 (j : Fin 1024) : Fin 4096 := ⟨1024 + j.val, by omega⟩
def band2 (j : Fin 1024) : Fin 4096 := ⟨2048 + j.val, by omega⟩
def band3 (j : Fin 1024) : Fin 4096 := ⟨3072 + j.val, by omega⟩

/-- A gate's pre-activation before its peephole term: the row through the wide input and hidden matrices. -/
def zRow (xr hr : Fin 1024 → EReal) (wx wh : Mat 1024 4096) (J : Fin 4096) : EReal :=
  dot xr (colOf wx J) + dot hr (colOf wh J)

/-- The new cell state of one row. -/
def ctRow (xr hr cr : Fin 1024 → EReal) (wx wh : Mat 1024 4096) (wfc wic : Mat 1024 1024) (j : Fin 1024) : EReal :=
  Ideal.logistic (zRow xr hr wx wh (band0 j) + dot cr (colOf wfc j)) * cr j
    + Ideal.logistic (zRow xr hr wx wh (band1 j) + dot cr (colOf wic j)) * Ideal.tanh (zRow xr hr wx wh (band2 j))

/-- The new hidden state of one row. -/
def htRow (xr hr cr : Fin 1024 → EReal) (wx wh : Mat 1024 4096) (wfc wic woc : Mat 1024 1024) (j : Fin 1024) : EReal :=
  Ideal.logistic (zRow xr hr wx wh (band3 j) + dot (ctRow xr hr cr wx wh wfc wic) (colOf woc j))
    * Ideal.tanh (ctRow xr hr cr wx wh wfc wic j)

/-- The projected output of one row, from its new hidden state. -/
def ytRow (ht : Fin 1024 → EReal) (wop : Mat 1024 32000) (v : Fin 32000) : EReal :=
  Ideal.logistic (dot ht (colOf wop v))

/-- The three results as whole arrays over the batch of 4096 rows. -/
def CtAll (X H C : Mat 4096 1024) (wx wh : Mat 1024 4096) (wfc wic : Mat 1024 1024) : Mat 4096 1024 :=
  fun i => ctRow (rowOf X (i 0)) (rowOf H (i 0)) (rowOf C (i 0)) wx wh wfc wic (i 1)

def HtAll (X H C : Mat 4096 1024) (wx wh : Mat 1024 4096) (wfc wic woc : Mat 1024 1024) : Mat 4096 1024 :=
  fun i => htRow (rowOf X (i 0)) (rowOf H (i 0)) (rowOf C (i 0)) wx wh wfc wic woc (i 1)

def YtAll (X H C : Mat 4096 1024) (wx wh : Mat 1024 4096) (wfc wic woc : Mat 1024 1024) (wop : Mat 1024 32000) :
    Mat 4096 32000 :=
  fun i => ytRow (htRow (rowOf X (i 0)) (rowOf H (i 0)) (rowOf C (i 0)) wx wh wfc wic woc) wop (i 1)

/-- The left and right halves of a matrix of 2048 columns (the forget and input peephole matrices side by side). -/
def leftHalf (W : Mat 1024 2048) : Mat 1024 1024 :=
  fun i => W (ix2 (i 0) ⟨(i 1).val, by have h : (i 1).val < 1024 := (i 1).isLt; omega⟩)
def rightHalf (W : Mat 1024 2048) : Mat 1024 1024 :=
  fun i => W (ix2 (i 0) ⟨1024 + (i 1).val, by have h : (i 1).val < 1024 := (i 1).isLt; omega⟩)

end Cert.Lstm

end
-- ==== Proof.LibMatmul.lean ====
/-
  A plain matrix product read at an index: for the dimension numbers that contract the left operand's second
  axis with the right operand's first (rows × inner times inner × columns, no batch axis), a product into the
  zero accumulator is, at `(i, j)`, the sum over the inner coordinate `k` of `lhs (i, k) · rhs (k, j)`.
-/
import Idealize.ShloMosaic.PureOps.Ideal.Laws
import Idealize.ShloMosaic.Lib.ValueIdx

noncomputable section

namespace Idealize.ShloMosaic.ValueIdx

/-- The plain product into the zero accumulator, at `(i, j)`, as a sum over the inner coordinate. -/
theorem matmul_plain_zero_apply (M K N : ℕ) {φ₁ φ₂ : FTy} (prec : Option ContractPrecision)
    (lhs : FVec Ideal ⟨2, ![M, K]⟩ φ₁) (rhs : FVec Ideal ⟨2, ![K, N]⟩ φ₂) (i : Fin M) (j : Fin N) :
    FloatOps.matmul (DotDims.plain M K N) prec lhs rhs (constant ⟨2, ![M, N]⟩ .f32 0x00000000#32) (ix2 i j)
      = ∑ k : Fin K, lhs (ix2 i k) * rhs (ix2 k j) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 i j) ((contrEquiv1 (DotDims.plain M K N) K rfl rfl).symm k) = ix2 i k :=
    funext fun a => Fin.ext (by
      match a with
      | ⟨0, _⟩ => rfl
      | ⟨1, _⟩ => exact hk)
  have er : (DotDims.plain M K N).rhsIdx (ix2 i j) ((contrEquiv1 (DotDims.plain M K N) K rfl rfl).symm k) = ix2 k j :=
    funext fun a => Fin.ext (by
      match a with
      | ⟨0, _⟩ => exact hk
      | ⟨1, _⟩ => rfl)
  rw [el, er]

end Idealize.ShloMosaic.ValueIdx

end
-- ==== Proof.CellBlock.lean ====
/-
  One block of the cell, read entry by entry.

  The cell's body works on a block of 128 batch rows at a time: from the block's rows of the input `x`, the hidden
  state `h` and the cell state `c` (128 x 1024 each), the wide input and hidden matrices `wx`, `wh` (1024 x 4096),
  the forget and input peephole matrices side by side `wfic` (1024 x 2048) and the output peephole matrix `woc`
  (1024 x 1024) it forms

    Z  = x . wx + h . wh                                   (128 x 4096)
    P  = c . wfic                                          (128 x 2048)
    c' = sigma (Z[:, 0:1024] + P[:, 0:1024]) * c + sigma (Z[:, 1024:2048] + P[:, 1024:2048]) * tanh (Z[:, 2048:3072])
    h' = sigma (Z[:, 3072:4096] + c' . woc) * tanh c'

  and the projection's body, on a block of 512 rows of `h'` and 3200 columns of the projection matrix `w`, forms
  sigma (h' . w). This module reads each of these arrays at a row `r` and a column `q`:

    Z (r, J)   is the row's pre-activation              `zRow`  at column `J`,
    c' (r, q)  is the row's new cell state              `ctRow` at `q`,
    h' (r, q)  is the row's new hidden state            `htRow` at `q`,
    sigma (h' . w) (r, v) is sigma of the dot product of row `r` of the block with column `v` of `w`,

  where a matrix product into the zero matrix is, at (i, j), the sum over the inner coordinate k of
  lhs (i, k) * rhs (k, j), a band of columns cut at offset o reads column o + q, and a change of number format is the
  identity on the extended reals. Every dot product is the sum over the same 1024 inner coordinates in the same
  order on both sides, so no entry needs to be finite.
-/
import proofs.«170784_j51951924412948_2_alg».proof.Proof.LstmCell
import proofs.«170784_j51951924412948_2_alg».proof.Proof.LibMatmul
import proofs.«170784_j51951924412948_2_alg».proof.Proof.Gen.KernelIdeal.Skeleton
import Idealize.ShloMosaic.Lib.ValueLayout
import Idealize.ShloMosaic.PureOps.Ideal.Laws

noncomputable section

namespace Cert.Lstm.Block

open Idealize.ShloMosaic Idealize.ShloMosaic.ValueIdx Cert.KernelIdeal Cert.Lstm
open scoped BigOperators

/-! ## The pointwise nonlinearities at an entry -/

/-- The logistic function of an array, at an entry, is the logistic function of the entry. -/
theorem logistic_at {s : Shape} {φ : FTy} (a : FVec Ideal s φ) (i : s.Idx) : logistic a i = Ideal.logistic (a i) := rfl

/-- The hyperbolic tangent of an array, at an entry, is the hyperbolic tangent of the entry. -/
theorem tanh_at {s : Shape} {φ : FTy} (a : FVec Ideal s φ) (i : s.Idx) : tanh a i = Ideal.tanh (a i) := rfl

/-! ## The four matrix products, at an entry: the sum over the inner coordinate -/

/-- (128 x 1024) . (1024 x 4096) into the zero matrix, at (r, J). -/
theorem mm4096 (a : FVec Ideal S128x1024 .bf16) (w : FVec Ideal S1024x4096 .bf16) (r : Fin 128) (J : Fin 4096) :
    matmul dot_S128x1024_S1024x4096_S128x4096_1_0_0_1_n_n none a w (constant (F := Ideal) S128x4096 .f32 0x00000000#32) (ix2 r J)
      = ∑ k : Fin 1024, a (ix2 r k) * w (ix2 k J) :=
  matmul_plain_zero_apply 128 1024 4096 none a w r J

/-- (128 x 1024) . (1024 x 2048) into the zero matrix, at (r, J). -/
theorem mm2048 (a : FVec Ideal S128x1024 .bf16) (w : FVec Ideal S1024x2048 .bf16) (r : Fin 128) (J : Fin 2048) :
    matmul dot_S128x1024_S1024x2048_S128x2048_1_0_0_1_n_n none a w (constant (F := Ideal) S128x2048 .f32 0x00000000#32) (ix2 r J)
      = ∑ k : Fin 1024, a (ix2 r k) * w (ix2 k J) :=
  matmul_plain_zero_apply 128 1024 2048 none a w r J

/-- (128 x 1024) . (1024 x 1024) into the zero matrix, at (r, q). -/
theorem mm1024 (a : FVec Ideal S128x1024 .bf16) (w : FVec Ideal S1024x1024 .bf16) (r : Fin 128) (q : Fin 1024) :
    matmul dot_S128x1024_S1024x1024_S128x1024_1_0_0_1_n_n none a w (constant (F := Ideal) S128x1024 .f32 0x00000000#32) (ix2 r q)
      = ∑ k : Fin 1024, a (ix2 r k) * w (ix2 k q) :=
  matmul_plain_zero_apply 128 1024 1024 none a w r q

/-- (512 x 1024) . (1024 x 3200) into the zero matrix, at (r, v). -/
theorem mm3200 (a : FVec Ideal S512x1024 .bf16) (w : FVec Ideal S1024x3200 .bf16) (r : Fin 512) (v : Fin 3200) :
    matmul dot_S512x1024_S1024x3200_S512x3200_1_0_0_1_n_n none a w (constant (F := Ideal) S512x3200 .f32 0x00000000#32) (ix2 r v)
      = ∑ k : Fin 1024, a (ix2 r k) * w (ix2 k v) :=
  matmul_plain_zero_apply 512 1024 3200 none a w r v

/-! ## The wide pre-activation Z = x . wx + h . wh -/

/-- Z at (r, J) is the pre-activation of row `r` at the wide column `J`. -/
theorem pay_z (x0 h0 : Vec Ideal S128x1024 .f32) (wx wh : Vec Ideal S1024x4096 .bf16) (r : Fin 128) (J : Fin 4096) :
    Gen.k0_pay2 (F := Ideal) x0 h0 wx wh (ix2 r J) = zRow (rowOf x0 r) (rowOf h0 r) wx wh J := by
  unfold Gen.k0_pay2
  rw [addf_apply, shapeCast_self, shapeCast_self, mm4096, mm4096]
  rfl

/-- The band of Z cut at column 0, at (r, q): the forget gate's column. -/
theorem z_band0 (x0 h0 : Vec Ideal S128x1024 .f32) (wx wh : Vec Ideal S1024x4096 .bf16) (r : Fin 128) (q : Fin 1024) :
    extractStridedSlice S128x1024 ![0, 0] (Gen.k0_pay2 (F := Ideal) x0 h0 wx wh) Gen.slices_S128x4096_o0_0_S128x1024 (ix2 r q)
      = zRow (rowOf x0 r) (rowOf h0 r) wx wh (band0 q) :=
  (slice2_axis1_apply 0 _ _ r q (band0 q) (Nat.zero_add _).symm).trans (pay_z x0 h0 wx wh r (band0 q))

/-- The band of Z cut at column 1024, at (r, q): the input gate's column. -/
theorem z_band1 (x0 h0 : Vec Ideal S128x1024 .f32) (wx wh : Vec Ideal S1024x4096 .bf16) (r : Fin 128) (q : Fin 1024) :
    extractStridedSlice S128x1024 ![0, 1024] (Gen.k0_pay2 (F := Ideal) x0 h0 wx wh) Gen.slices_S128x4096_o0_1024_S128x1024 (ix2 r q)
      = zRow (rowOf x0 r) (rowOf h0 r) wx wh (band1 q) :=
  (slice2_axis1_apply 1024 _ _ r q (band1 q) rfl).trans (pay_z x0 h0 wx wh r (band1 q))

/-- The band of Z cut at column 2048, at (r, q): the candidate's column. -/
theorem z_band2 (x0 h0 : Vec Ideal S128x1024 .f32) (wx wh : Vec Ideal S1024x4096 .bf16) (r : Fin 128) (q : Fin 1024) :
    extractStridedSlice S128x1024 ![0, 2048] (Gen.k0_pay2 (F := Ideal) x0 h0 wx wh) Gen.slices_S128x4096_o0_2048_S128x1024 (ix2 r q)
      = zRow (rowOf x0 r) (rowOf h0 r) wx wh (band2 q) :=
  (slice2_axis1_apply 2048 _ _ r q (band2 q) rfl).trans (pay_z x0 h0 wx wh r (band2 q))

/-- The band of Z cut at column 3072, at (r, q): the output gate's column. -/
theorem z_band3 (x0 h0 : Vec Ideal S128x1024 .f32) (wx wh : Vec Ideal S1024x4096 .bf16) (r : Fin 128) (q : Fin 1024) :
    extractStridedSlice S128x1024 ![0, 3072] (Gen.k0_pay2 (F := Ideal) x0 h0 wx wh) Gen.slices_S128x4096_o0_3072_S128x1024 (ix2 r q)
      = zRow (rowOf x0 r) (rowOf h0 r) wx wh (band3 q) :=
  (slice2_axis1_apply 3072 _ _ r q (band3 q) rfl).trans (pay_z x0 h0 wx wh r (band3 q))

/-! ## The peephole product P = c . wfic and its two halves -/

/-- The left half of P at (r, q): row `r` of `c` against column `q` of the forget peephole matrix. -/
theorem peep_left (c0 : Vec Ideal S128x1024 .f32) (wfic : Vec Ideal S1024x2048 .bf16) (r : Fin 128) (q : Fin 1024) :
    extractStridedSlice S128x1024 ![0, 0]
        (matmul dot_S128x1024_S1024x2048_S128x2048_1_0_0_1_n_n none (truncf .bf16 c0 Gen.bitsLt_bf16_f32)
          (shapeCast S1024x2048 wfic Gen.shapeCasts_S1024x2048_S1024x2048 : FVec Ideal S1024x2048 .bf16) (constant (F := Ideal) S128x2048 .f32 0x00000000#32))
        Gen.slices_S128x2048_o0_0_S128x1024 (ix2 r q)
      = dot (rowOf c0 r) (colOf (leftHalf wfic) q) := by
  refine (slice2_axis1_apply 0 _ _ r q (⟨q.val, by omega⟩ : Fin 2048) (Nat.zero_add _).symm).trans ?_
  rw [shapeCast_self, mm2048]
  rfl

/-- The right half of P at (r, q): row `r` of `c` against column `q` of the input peephole matrix. -/
theorem peep_right (c0 : Vec Ideal S128x1024 .f32) (wfic : Vec Ideal S1024x2048 .bf16) (r : Fin 128) (q : Fin 1024) :
    extractStridedSlice S128x1024 ![0, 1024]
        (matmul dot_S128x1024_S1024x2048_S128x2048_1_0_0_1_n_n none (truncf .bf16 c0 Gen.bitsLt_bf16_f32)
          (shapeCast S1024x2048 wfic Gen.shapeCasts_S1024x2048_S1024x2048 : FVec Ideal S1024x2048 .bf16) (constant (F := Ideal) S128x2048 .f32 0x00000000#32))
        Gen.slices_S128x2048_o0_1024_S128x1024 (ix2 r q)
      = dot (rowOf c0 r) (colOf (rightHalf wfic) q) := by
  refine (slice2_axis1_apply 1024 _ _ r q (⟨1024 + q.val, by omega⟩ : Fin 2048) rfl).trans ?_
  rw [shapeCast_self, mm2048]
  rfl

/-! ## The new cell state, the new hidden state, the stored copy and the projection -/

/-- The block's new cell state at (r, q) is the new cell state of row `r` at `q`. -/
theorem pay_ct (x0 h0 c0 : Vec Ideal S128x1024 .f32) (wx wh : Vec Ideal S1024x4096 .bf16) (wfic : Vec Ideal S1024x2048 .bf16)
    (r : Fin 128) (q : Fin 1024) :
    Gen.k0_pay3 (F := Ideal) x0 h0 c0 wx wh wfic (ix2 r q)
      = ctRow (rowOf x0 r) (rowOf h0 r) (rowOf c0 r) wx wh (leftHalf wfic) (rightHalf wfic) q := by
  unfold Gen.k0_pay3
  rw [addf_apply, mulf_apply, mulf_apply, logistic_at, logistic_at, tanh_at, addf_apply, addf_apply,
    z_band0, z_band1, z_band2, peep_left, peep_right]
  rfl

/-- The block's new hidden state at (r, q) is the new hidden state of row `r` at `q`. -/
theorem pay_ht (x0 h0 c0 : Vec Ideal S128x1024 .f32) (wx wh : Vec Ideal S1024x4096 .bf16) (wfic : Vec Ideal S1024x2048 .bf16)
    (woc : Vec Ideal S1024x1024 .bf16) (r : Fin 128) (q : Fin 1024) :
    Gen.k0_pay4 (F := Ideal) x0 h0 c0 wx wh wfic woc (ix2 r q)
      = htRow (rowOf x0 r) (rowOf h0 r) (rowOf c0 r) wx wh (leftHalf wfic) (rightHalf wfic) woc q := by
  unfold Gen.k0_pay4
  rw [mulf_apply, logistic_at, tanh_at, addf_apply, z_band3, shapeCast_self, mm1024, pay_ct]
  have e : (∑ k : Fin 1024, truncf .bf16 (Gen.k0_pay3 (F := Ideal) x0 h0 c0 wx wh wfic) Gen.bitsLt_bf16_f32 (ix2 r k) * woc (ix2 k q))
      = dot (ctRow (rowOf x0 r) (rowOf h0 r) (rowOf c0 r) wx wh (leftHalf wfic) (rightHalf wfic)) (colOf woc q) :=
    Finset.sum_congr rfl fun k _ => congrArg (· * woc (ix2 k q)) (pay_ct x0 h0 c0 wx wh wfic r k)
  rw [e]
  rfl

/-- The copy of the new hidden state stored in the narrower format is the new hidden state itself. -/
theorem pay_hb (v : FVec Ideal S128x1024 .f32) : Gen.k0_pay1 (F := Ideal) v = v := rfl

/-- The projection's block at (r, v): sigma of row `r` of the hidden block against column `v` of the weight block. -/
theorem pay_yt (hb : Vec Ideal S512x1024 .bf16) (wb : Vec Ideal S1024x3200 .bf16) (r : Fin 512) (v : Fin 3200) :
    Gen.k1_pay1 (F := Ideal) hb wb (ix2 r v) = Ideal.logistic (dot (rowOf hb r) (fun k => wb (ix2 k v))) := by
  unfold Gen.k1_pay1
  rw [logistic_at, shapeCast_self, shapeCast_self, mm3200]
  rfl

/-! ## The same readings at an index given whole, by its two coordinates -/

/-- The block's new cell state at an index `j`: row `j 0`'s new cell state at `j 1`. -/
theorem pay_ct_idx (x0 h0 c0 : Vec Ideal S128x1024 .f32) (wx wh : Vec Ideal S1024x4096 .bf16) (wfic : Vec Ideal S1024x2048 .bf16)
    (j : S128x1024.Idx) :
    Gen.k0_pay3 (F := Ideal) x0 h0 c0 wx wh wfic j
      = ctRow (rowOf x0 (j 0)) (rowOf h0 (j 0)) (rowOf c0 (j 0)) wx wh (leftHalf wfic) (rightHalf wfic) (j 1) := by
  obtain ⟨p, q, rfl⟩ : ∃ (p : Fin 128) (q : Fin 1024), j = ix2 p q := ⟨j 0, j 1, eq_ix2 j⟩
  exact pay_ct x0 h0 c0 wx wh wfic p q

/-- The block's new hidden state at an index `j`: row `j 0`'s new hidden state at `j 1`. -/
theorem pay_ht_idx (x0 h0 c0 : Vec Ideal S128x1024 .f32) (wx wh : Vec Ideal S1024x4096 .bf16) (wfic : Vec Ideal S1024x2048 .bf16)
    (woc : Vec Ideal S1024x1024 .bf16) (j : S128x1024.Idx) :
    Gen.k0_pay4 (F := Ideal) x0 h0 c0 wx wh wfic woc j
      = htRow (rowOf x0 (j 0)) (rowOf h0 (j 0)) (rowOf c0 (j 0)) wx wh (leftHalf wfic) (rightHalf wfic) woc (j 1) := by
  obtain ⟨p, q, rfl⟩ : ∃ (p : Fin 128) (q : Fin 1024), j = ix2 p q := ⟨j 0, j 1, eq_ix2 j⟩
  exact pay_ht x0 h0 c0 wx wh wfic woc p q

/-- The projection's block at an index `j`. -/
theorem pay_yt_idx (hb : Vec Ideal S512x1024 .bf16) (wb : Vec Ideal S1024x3200 .bf16) (j : S512x3200.Idx) :
    Gen.k1_pay1 (F := Ideal) hb wb j = Ideal.logistic (dot (rowOf hb (j 0)) (fun k => wb (ix2 k (j 1)))) := by
  obtain ⟨p, q, rfl⟩ : ∃ (p : Fin 512) (q : Fin 3200), j = ix2 p q := ⟨j 0, j 1, eq_ix2 j⟩
  exact pay_yt hb wb p q

end Cert.Lstm.Block

end
-- ==== Proof.KI.CellValue.lean ====
/-
  What the cell region leaves in its three output arrays, as whole-array functions of the arrays it is entered with.

  At grid point `t` the region's row-block windows hold rows 128 t, ..., 128 t + 127 of their arrays and its four
  weight windows hold their arrays whole; the body leaves in each output window the block's new hidden state or new
  cell state (module CellBlock: entry (r, q) of the block is the row-by-row cell of row r at q); the point writes that
  block back to rows 128 t, ..., 128 t + 127 of the output array; and the 32 points' blocks cover the 4096 rows. So each
  output array ends holding, at (p, q), the row-by-row cell of row p of the input, hidden-state and cell-state arrays.
-/
import proofs.«170784_j51951924412948_2_alg».proof.Proof.KI.Cell
import proofs.«170784_j51951924412948_2_alg».proof.Proof.CellBlock
import Idealize.ShloMosaic.Lib.Pipeline.Value
import Idealize.ShloMosaic.Lib.ValueIdx

set_option maxRecDepth 16384

noncomputable section

namespace Cert.KernelIdeal.CellValue

open Cert.KernelIdeal Cert.KernelIdeal.Gen Cert.Lstm Cert.Lstm.Block
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The row of the whole arrays that row `r` of grid point `t`'s block is. -/
def gRow (t : Fin cfg0.N) (r : Fin 128) : Fin 4096 :=
  ⟨128 * t.val + r.val, by have ht : t.val < 32 := lt_of_lt_of_eq t.isLt N_0; have hr := r.isLt; omega⟩

/-- The printed index maps over the grid: a row-block window's block index is the point itself on the row axis and
    zero on the column axis; a weight window's is zero on both. -/
theorem idx_rows : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_7.index t (0 : Fin 2) = t.val ∧ win0_7.index t (1 : Fin 2) = 0
    ∧ win0_8.index t (0 : Fin 2) = t.val ∧ win0_8.index t (1 : Fin 2) = 0
    ∧ win0_9.index t (0 : Fin 2) = t.val ∧ win0_9.index t (1 : Fin 2) = 0 :=
  (by decide +kernel : ∀ t : Fin grid0.N, _)
theorem idx_weights : ∀ t : Fin cfg0.N,
    win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0 :=
  (by decide +kernel : ∀ t : Fin grid0.N, _)

/-! ## The input blocks, read back to the arrays -/

theorem row_x (c : Dev nD) (t : Fin cfg0.N) (r : Fin 128) :
    rowOf (n := 128) (Cell.blk V c 0 t) r = rowOf (n := 4096) (V c main_arg0) (gRow t r) := by
  obtain ⟨e00, e01, e10, e11, e20, e21, -⟩ := idx_rows t
  funext k
  show V c main_arg0 (((cfg0.win 0).blk t).view.emb (ix2 r k)) = V c main_arg0 (ix2 (gRow t r) k)
  refine congrArg _ (funext fun a => Fin.ext ?_)
  match a with
  | ⟨0, _⟩ => show win0_0.index t (0 : Fin 2) * 128 + 1 * r.val = 128 * t.val + r.val; omega
  | ⟨1, _⟩ => show win0_0.index t (1 : Fin 2) * 1024 + 1 * k.val = k.val; omega
theorem row_h (c : Dev nD) (t : Fin cfg0.N) (r : Fin 128) :
    rowOf (n := 128) (Cell.blk V c 1 t) r = rowOf (n := 4096) (V c main_arg1) (gRow t r) := by
  obtain ⟨e00, e01, e10, e11, e20, e21, -⟩ := idx_rows t
  funext k
  show V c main_arg1 (((cfg0.win 1).blk t).view.emb (ix2 r k)) = V c main_arg1 (ix2 (gRow t r) k)
  refine congrArg _ (funext fun a => Fin.ext ?_)
  match a with
  | ⟨0, _⟩ => show win0_1.index t (0 : Fin 2) * 128 + 1 * r.val = 128 * t.val + r.val; omega
  | ⟨1, _⟩ => show win0_1.index t (1 : Fin 2) * 1024 + 1 * k.val = k.val; omega
theorem row_c (c : Dev nD) (t : Fin cfg0.N) (r : Fin 128) :
    rowOf (n := 128) (Cell.blk V c 2 t) r = rowOf (n := 4096) (V c main_arg2) (gRow t r) := by
  obtain ⟨e00, e01, e10, e11, e20, e21, -⟩ := idx_rows t
  funext k
  show V c main_arg2 (((cfg0.win 2).blk t).view.emb (ix2 r k)) = V c main_arg2 (ix2 (gRow t r) k)
  refine congrArg _ (funext fun a => Fin.ext ?_)
  match a with
  | ⟨0, _⟩ => show win0_2.index t (0 : Fin 2) * 128 + 1 * r.val = 128 * t.val + r.val; omega
  | ⟨1, _⟩ => show win0_2.index t (1 : Fin 2) * 1024 + 1 * k.val = k.val; omega

/-- The four weight windows hold their arrays whole at every point. -/
theorem blk_wx (c : Dev nD) (t : Fin cfg0.N) : (Cell.blk V c 3 t : Mat 1024 4096) = V c main_v1 := by
  obtain ⟨e30, e31, e40, e41, e50, e51, e60, e61⟩ := idx_weights t
  funext y
  show V c main_v1 (((cfg0.win 3).blk t).view.emb y) = V c main_v1 y
  refine congrArg _ (funext fun a => Fin.ext ?_)
  match a with
  | ⟨0, _⟩ => show win0_3.index t (0 : Fin 2) * 1024 + 1 * (y 0).val = (y 0).val; omega
  | ⟨1, _⟩ => show win0_3.index t (1 : Fin 2) * 4096 + 1 * (y 1).val = (y 1).val; omega
theorem blk_wh (c : Dev nD) (t : Fin cfg0.N) : (Cell.blk V c 4 t : Mat 1024 4096) = V c main_v3 := by
  obtain ⟨e30, e31, e40, e41, e50, e51, e60, e61⟩ := idx_weights t
  funext y
  show V c main_v3 (((cfg0.win 4).blk t).view.emb y) = V c main_v3 y
  refine congrArg _ (funext fun a => Fin.ext ?_)
  match a with
  | ⟨0, _⟩ => show win0_4.index t (0 : Fin 2) * 1024 + 1 * (y 0).val = (y 0).val; omega
  | ⟨1, _⟩ => show win0_4.index t (1 : Fin 2) * 4096 + 1 * (y 1).val = (y 1).val; omega
theorem blk_wf (c : Dev nD) (t : Fin cfg0.N) : (Cell.blk V c 5 t : Mat 1024 2048) = V c main_v5 := by
  obtain ⟨e30, e31, e40, e41, e50, e51, e60, e61⟩ := idx_weights t
  funext y
  show V c main_v5 (((cfg0.win 5).blk t).view.emb y) = V c main_v5 y
  refine congrArg _ (funext fun a => Fin.ext ?_)
  match a with
  | ⟨0, _⟩ => show win0_5.index t (0 : Fin 2) * 1024 + 1 * (y 0).val = (y 0).val; omega
  | ⟨1, _⟩ => show win0_5.index t (1 : Fin 2) * 2048 + 1 * (y 1).val = (y 1).val; omega
theorem blk_wo (c : Dev nD) (t : Fin cfg0.N) : (Cell.blk V c 6 t : Mat 1024 1024) = V c main_v6 := by
  obtain ⟨e30, e31, e40, e41, e50, e51, e60, e61⟩ := idx_weights t
  funext y
  show V c main_v6 (((cfg0.win 6).blk t).view.emb y) = V c main_v6 y
  refine congrArg _ (funext fun a => Fin.ext ?_)
  match a with
  | ⟨0, _⟩ => show win0_6.index t (0 : Fin 2) * 1024 + 1 * (y 0).val = (y 0).val; omega
  | ⟨1, _⟩ => show win0_6.index t (1 : Fin 2) * 1024 + 1 * (y 1).val = (y 1).val; omega

/-! ## The three output arrays -/

/-- The new cell state over the whole batch, from the arrays the region is entered with: the input, hidden-state and
    cell-state arrays, the wide input and hidden matrices, and the two halves of the forget-and-input peephole matrix. -/
def GC (c : Dev nD) : Mat 4096 1024 :=
  CtAll (V c main_arg0) (V c main_arg1) (V c main_arg2) (V c main_v1) (V c main_v3) (leftHalf (V c main_v5)) (rightHalf (V c main_v5))
/-- The new hidden state over the whole batch, with the output peephole matrix as well. -/
def GH (c : Dev nD) : Mat 4096 1024 :=
  HtAll (V c main_arg0) (V c main_arg1) (V c main_arg2) (V c main_v1) (V c main_v3) (leftHalf (V c main_v5)) (rightHalf (V c main_v5)) (V c main_v6)

/-- What grid point `t` writes back to the new hidden state's array is block `t` of the row-by-row cell over the entry arrays. -/
theorem flushed_H (c : Dev nD) (t : Fin cfg0.N) :
    (Cell.dat V c).flushed 7 t = ((cfg0.win 7).blk t).view.read (Elt Ideal) (GH V c) := by
  show (cfg0.win 7).cut (grid0.coords t) ((Cell.dat V c).after 7 t) = _
  rw [Cell.after_H]
  unfold Cell.outH
  rw [View.canon_unit_zero hz]
  simp only [View.ld_unit_zero (S := S128x1024) hz, View.ld_unit_zero (S := S1024x4096) hz, View.ld_unit_zero (S := S1024x2048) hz, View.ld_unit_zero (S := S1024x1024) hz]
  obtain ⟨-, -, -, -, -, -, e70, e71, e80, e81, e90, e91⟩ := idx_rows t
  funext j
  obtain ⟨r, q, rfl⟩ : ∃ (r : Fin 128) (q : Fin 1024), j = ix2 r q := ⟨j 0, j 1, eq_ix2 j⟩
  have hemb : ((cfg0.win 7).blk t).view.emb (ix2 r q) = (ix2 (gRow t r) q : S4096x1024.Idx) := by
    funext a; apply Fin.ext
    match a with
    | ⟨0, _⟩ => show win0_7.index t (0 : Fin 2) * 128 + 1 * r.val = 128 * t.val + r.val; omega
    | ⟨1, _⟩ => show win0_7.index t (1 : Fin 2) * 1024 + 1 * q.val = q.val; omega
  show Gen.k0_pay4 (F := Ideal) (Cell.blk V c 0 t) (Cell.blk V c 1 t) (Cell.blk V c 2 t) (Cell.blk V c 3 t) (Cell.blk V c 4 t) (Cell.blk V c 5 t) (Cell.blk V c 6 t) (ix2 r q)
      = GH V c (((cfg0.win 7).blk t).view.emb (ix2 r q))
  rw [hemb]
  refine (pay_ht (Cell.blk V c 0 t) (Cell.blk V c 1 t) (Cell.blk V c 2 t) (Cell.blk V c 3 t) (Cell.blk V c 4 t) (Cell.blk V c 5 t) (Cell.blk V c 6 t) r q).trans ?_
  rw [row_x V c t r, row_h V c t r, row_c V c t r, blk_wx V c t, blk_wh V c t, blk_wf V c t, blk_wo V c t]
  rfl

/-- An index of the array is in point `t`'s block iff each coordinate is in the block's range on its axis. -/
theorem mem_blk_H (t : Fin cfg0.N) (i : S4096x1024.Idx) :
    i ∈ ((cfg0.win 7).blk t).view.set ↔ ∀ a : Fin 2, win0_7.index t a * S128x1024.size a ≤ (i a).val ∧ (i a).val < win0_7.index t a * S128x1024.size a + S128x1024.size a := by
  show i ∈ ((View.whole main_v8_0).slice (win0_7.rect t)).set ↔ _
  rw [View.set_slice_whole, Rect.mem_set_unit]
  exact Iff.rfl

/-- Every index of the array lies in the block of the point its row falls in. -/
theorem cover_H (i : S4096x1024.Idx) :
    ∃ t : Fin cfg0.N, (cfg0.win 7).flush t = true ∧ i ∈ ((cfg0.win 7).blk t).view.set := by
  have hi0 : (i 0).val < 4096 := (i 0).isLt
  have hi1 : (i 1).val < 1024 := (i 1).isLt
  have hN : (i 0).val / 128 < cfg0.N := by show _ < grid0.N; rw [N_0]; omega
  refine ⟨⟨(i 0).val / 128, hN⟩, flush0_7 _, ?_⟩
  rw [mem_blk_H]
  obtain ⟨-, -, -, -, -, -, e70, e71, e80, e81, e90, e91⟩ := idx_rows ⟨(i 0).val / 128, hN⟩
  intro a
  match a with
  | ⟨0, _⟩ =>
    show win0_7.index ⟨(i 0).val / 128, hN⟩ (0 : Fin 2) * 128 ≤ (i 0).val ∧ (i 0).val < win0_7.index ⟨(i 0).val / 128, hN⟩ (0 : Fin 2) * 128 + 128
    rw [e70]; show (i 0).val / 128 * 128 ≤ (i 0).val ∧ (i 0).val < (i 0).val / 128 * 128 + 128; omega
  | ⟨1, _⟩ =>
    show win0_7.index ⟨(i 0).val / 128, hN⟩ (1 : Fin 2) * 1024 ≤ (i 1).val ∧ (i 1).val < win0_7.index ⟨(i 0).val / 128, hN⟩ (1 : Fin 2) * 1024 + 1024
    rw [e71]; omega

/-- The new hidden state's array after the region. -/
theorem final_H (c : Dev nD) : (Cell.dat V c).arrAt 7 cfg0.N = GH V c :=
  (Cell.dat V c).arrAt_eq_of_cover 7 (GH V c) (fun t _ => flushed_H V c t) (cover_H)

/-- What grid point `t` writes back to the new cell state's array is block `t` of the row-by-row cell over the entry arrays. -/
theorem flushed_C (c : Dev nD) (t : Fin cfg0.N) :
    (Cell.dat V c).flushed 8 t = ((cfg0.win 8).blk t).view.read (Elt Ideal) (GC V c) := by
  show (cfg0.win 8).cut (grid0.coords t) ((Cell.dat V c).after 8 t) = _
  rw [Cell.after_C]
  unfold Cell.outC
  rw [View.canon_unit_zero hz]
  simp only [View.ld_unit_zero (S := S128x1024) hz, View.ld_unit_zero (S := S1024x4096) hz, View.ld_unit_zero (S := S1024x2048) hz]
  obtain ⟨-, -, -, -, -, -, e70, e71, e80, e81, e90, e91⟩ := idx_rows t
  funext j
  obtain ⟨r, q, rfl⟩ : ∃ (r : Fin 128) (q : Fin 1024), j = ix2 r q := ⟨j 0, j 1, eq_ix2 j⟩
  have hemb : ((cfg0.win 8).blk t).view.emb (ix2 r q) = (ix2 (gRow t r) q : S4096x1024.Idx) := by
    funext a; apply Fin.ext
    match a with
    | ⟨0, _⟩ => show win0_8.index t (0 : Fin 2) * 128 + 1 * r.val = 128 * t.val + r.val; omega
    | ⟨1, _⟩ => show win0_8.index t (1 : Fin 2) * 1024 + 1 * q.val = q.val; omega
  show Gen.k0_pay3 (F := Ideal) (Cell.blk V c 0 t) (Cell.blk V c 1 t) (Cell.blk V c 2 t) (Cell.blk V c 3 t) (Cell.blk V c 4 t) (Cell.blk V c 5 t) (ix2 r q)
      = GC V c (((cfg0.win 8).blk t).view.emb (ix2 r q))
  rw [hemb]
  refine (pay_ct (Cell.blk V c 0 t) (Cell.blk V c 1 t) (Cell.blk V c 2 t) (Cell.blk V c 3 t) (Cell.blk V c 4 t) (Cell.blk V c 5 t) r q).trans ?_
  rw [row_x V c t r, row_h V c t r, row_c V c t r, blk_wx V c t, blk_wh V c t, blk_wf V c t]
  rfl

/-- An index of the array is in point `t`'s block iff each coordinate is in the block's range on its axis. -/
theorem mem_blk_C (t : Fin cfg0.N) (i : S4096x1024.Idx) :
    i ∈ ((cfg0.win 8).blk t).view.set ↔ ∀ a : Fin 2, win0_8.index t a * S128x1024.size a ≤ (i a).val ∧ (i a).val < win0_8.index t a * S128x1024.size a + S128x1024.size a := by
  show i ∈ ((View.whole main_v8_1).slice (win0_8.rect t)).set ↔ _
  rw [View.set_slice_whole, Rect.mem_set_unit]
  exact Iff.rfl

/-- Every index of the array lies in the block of the point its row falls in. -/
theorem cover_C (i : S4096x1024.Idx) :
    ∃ t : Fin cfg0.N, (cfg0.win 8).flush t = true ∧ i ∈ ((cfg0.win 8).blk t).view.set := by
  have hi0 : (i 0).val < 4096 := (i 0).isLt
  have hi1 : (i 1).val < 1024 := (i 1).isLt
  have hN : (i 0).val / 128 < cfg0.N := by show _ < grid0.N; rw [N_0]; omega
  refine ⟨⟨(i 0).val / 128, hN⟩, flush0_8 _, ?_⟩
  rw [mem_blk_C]
  obtain ⟨-, -, -, -, -, -, e70, e71, e80, e81, e90, e91⟩ := idx_rows ⟨(i 0).val / 128, hN⟩
  intro a
  match a with
  | ⟨0, _⟩ =>
    show win0_8.index ⟨(i 0).val / 128, hN⟩ (0 : Fin 2) * 128 ≤ (i 0).val ∧ (i 0).val < win0_8.index ⟨(i 0).val / 128, hN⟩ (0 : Fin 2) * 128 + 128
    rw [e80]; show (i 0).val / 128 * 128 ≤ (i 0).val ∧ (i 0).val < (i 0).val / 128 * 128 + 128; omega
  | ⟨1, _⟩ =>
    show win0_8.index ⟨(i 0).val / 128, hN⟩ (1 : Fin 2) * 1024 ≤ (i 1).val ∧ (i 1).val < win0_8.index ⟨(i 0).val / 128, hN⟩ (1 : Fin 2) * 1024 + 1024
    rw [e81]; omega

/-- The new cell state's array after the region. -/
theorem final_C (c : Dev nD) : (Cell.dat V c).arrAt 8 cfg0.N = GC V c :=
  (Cell.dat V c).arrAt_eq_of_cover 8 (GC V c) (fun t _ => flushed_C V c t) (cover_C)

/-- What grid point `t` writes back to the new hidden state, stored in the narrower format's array is block `t` of the row-by-row cell over the entry arrays. -/
theorem flushed_N (c : Dev nD) (t : Fin cfg0.N) :
    (Cell.dat V c).flushed 9 t = ((cfg0.win 9).blk t).view.read (Elt Ideal) (GH V c) := by
  show (cfg0.win 9).cut (grid0.coords t) ((Cell.dat V c).after 9 t) = _
  rw [Cell.after_N]
  unfold Cell.outN
  rw [View.canon_unit_zero hz]
  simp only [View.ld_unit_zero (S := S128x1024) hz, View.ld_unit_zero (S := S1024x4096) hz, View.ld_unit_zero (S := S1024x2048) hz, View.ld_unit_zero (S := S1024x1024) hz]
  obtain ⟨-, -, -, -, -, -, e70, e71, e80, e81, e90, e91⟩ := idx_rows t
  funext j
  obtain ⟨r, q, rfl⟩ : ∃ (r : Fin 128) (q : Fin 1024), j = ix2 r q := ⟨j 0, j 1, eq_ix2 j⟩
  have hemb : ((cfg0.win 9).blk t).view.emb (ix2 r q) = (ix2 (gRow t r) q : S4096x1024.Idx) := by
    funext a; apply Fin.ext
    match a with
    | ⟨0, _⟩ => show win0_9.index t (0 : Fin 2) * 128 + 1 * r.val = 128 * t.val + r.val; omega
    | ⟨1, _⟩ => show win0_9.index t (1 : Fin 2) * 1024 + 1 * q.val = q.val; omega
  show Gen.k0_pay4 (F := Ideal) (Cell.blk V c 0 t) (Cell.blk V c 1 t) (Cell.blk V c 2 t) (Cell.blk V c 3 t) (Cell.blk V c 4 t) (Cell.blk V c 5 t) (Cell.blk V c 6 t) (ix2 r q)
      = GH V c (((cfg0.win 9).blk t).view.emb (ix2 r q))
  rw [hemb]
  refine (pay_ht (Cell.blk V c 0 t) (Cell.blk V c 1 t) (Cell.blk V c 2 t) (Cell.blk V c 3 t) (Cell.blk V c 4 t) (Cell.blk V c 5 t) (Cell.blk V c 6 t) r q).trans ?_
  rw [row_x V c t r, row_h V c t r, row_c V c t r, blk_wx V c t, blk_wh V c t, blk_wf V c t, blk_wo V c t]
  rfl

/-- An index of the array is in point `t`'s block iff each coordinate is in the block's range on its axis. -/
theorem mem_blk_N (t : Fin cfg0.N) (i : S4096x1024.Idx) :
    i ∈ ((cfg0.win 9).blk t).view.set ↔ ∀ a : Fin 2, win0_9.index t a * S128x1024.size a ≤ (i a).val ∧ (i a).val < win0_9.index t a * S128x1024.size a + S128x1024.size a := by
  show i ∈ ((View.whole main_v8_2).slice (win0_9.rect t)).set ↔ _
  rw [View.set_slice_whole, Rect.mem_set_unit]
  exact Iff.rfl

/-- Every index of the array lies in the block of the point its row falls in. -/
theorem cover_N (i : S4096x1024.Idx) :
    ∃ t : Fin cfg0.N, (cfg0.win 9).flush t = true ∧ i ∈ ((cfg0.win 9).blk t).view.set := by
  have hi0 : (i 0).val < 4096 := (i 0).isLt
  have hi1 : (i 1).val < 1024 := (i 1).isLt
  have hN : (i 0).val / 128 < cfg0.N := by show _ < grid0.N; rw [N_0]; omega
  refine ⟨⟨(i 0).val / 128, hN⟩, flush0_9 _, ?_⟩
  rw [mem_blk_N]
  obtain ⟨-, -, -, -, -, -, e70, e71, e80, e81, e90, e91⟩ := idx_rows ⟨(i 0).val / 128, hN⟩
  intro a
  match a with
  | ⟨0, _⟩ =>
    show win0_9.index ⟨(i 0).val / 128, hN⟩ (0 : Fin 2) * 128 ≤ (i 0).val ∧ (i 0).val < win0_9.index ⟨(i 0).val / 128, hN⟩ (0 : Fin 2) * 128 + 128
    rw [e90]; show (i 0).val / 128 * 128 ≤ (i 0).val ∧ (i 0).val < (i 0).val / 128 * 128 + 128; omega
  | ⟨1, _⟩ =>
    show win0_9.index ⟨(i 0).val / 128, hN⟩ (1 : Fin 2) * 1024 ≤ (i 1).val ∧ (i 1).val < win0_9.index ⟨(i 0).val / 128, hN⟩ (1 : Fin 2) * 1024 + 1024
    rw [e91]; omega

/-- The new hidden state, stored in the narrower format's array after the region. -/
theorem final_N (c : Dev nD) : (Cell.dat V c).arrAt 9 cfg0.N = GH V c :=
  (Cell.dat V c).arrAt_eq_of_cover 9 (GH V c) (fun t _ => flushed_N V c t) (cover_N)

end Cert.KernelIdeal.CellValue

end
-- ==== Proof.KI.ProjValue.lean ====
/-
  What the projection region leaves in its output array, as a whole-array function of the arrays it is entered with.

  Grid point `t` of the 10 x 8 grid is column tile t / 8 and row tile t mod 8: its hidden-state window holds rows
  512 (t mod 8), ... of the hidden-state array, its weight window columns 3200 (t / 8), ... of the projection matrix,
  and the body leaves in the output window sigma of their matrix product (module CellBlock: entry (r, v) is sigma of
  row r of the hidden block against column v of the weight block); the point writes that block back at the same row
  and column tile of the output array, and the 80 blocks cover its 4096 x 32000 entries. So the output array ends
  holding, at (p, v), sigma of row p of the hidden-state array against column v of the projection matrix.
-/
import proofs.«170784_j51951924412948_2_alg».proof.Proof.KI.Proj
import proofs.«170784_j51951924412948_2_alg».proof.Proof.CellBlock
import Idealize.ShloMosaic.Lib.Pipeline.Value
import Idealize.ShloMosaic.Lib.ValueIdx

set_option maxRecDepth 16384

noncomputable section

namespace Cert.KernelIdeal.ProjValue

open Cert.KernelIdeal Cert.KernelIdeal.Gen Cert.Lstm Cert.Lstm.Block
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The row of the whole arrays that row `r` of grid point `t`'s block is, and the column that column `v` is. -/
def pRow (t : Fin cfg1.N) (r : Fin 512) : Fin 4096 :=
  ⟨512 * (t.val % 8) + r.val, by have hr := r.isLt; omega⟩
def pCol (t : Fin cfg1.N) (v : Fin 3200) : Fin 32000 :=
  ⟨3200 * (t.val / 8) + v.val, by have ht : t.val < 80 := lt_of_lt_of_eq t.isLt N_1; have hv := v.isLt; omega⟩

/-- The printed index maps over the grid: the hidden-state window moves with the row tile, the weight window with the
    column tile, the output window with both. -/
theorem idx_tiles : ∀ t : Fin cfg1.N,
    win1_0.index t (0 : Fin 2) = t.val % 8 ∧ win1_0.index t (1 : Fin 2) = 0
    ∧ win1_1.index t (0 : Fin 2) = 0 ∧ win1_1.index t (1 : Fin 2) = t.val / 8
    ∧ win1_2.index t (0 : Fin 2) = t.val % 8 ∧ win1_2.index t (1 : Fin 2) = t.val / 8 :=
  (by decide +kernel : ∀ t : Fin grid1.N, _)

/-! ## The input blocks, read back to the arrays -/

theorem row_hb (c : Dev nD) (t : Fin cfg1.N) (r : Fin 512) :
    rowOf (n := 512) (Proj.blk V c 0 t) r = rowOf (n := 4096) (V c main_v8_2) (pRow t r) := by
  obtain ⟨e00, e01, -⟩ := idx_tiles t
  funext k
  show V c main_v8_2 (((cfg1.win 0).blk t).view.emb (ix2 r k)) = V c main_v8_2 (ix2 (pRow t r) k)
  refine congrArg _ (funext fun a => Fin.ext ?_)
  match a with
  | ⟨0, _⟩ => show win1_0.index t (0 : Fin 2) * 512 + 1 * r.val = 512 * (t.val % 8) + r.val; omega
  | ⟨1, _⟩ => show win1_0.index t (1 : Fin 2) * 1024 + 1 * k.val = k.val; omega

theorem col_w (c : Dev nD) (t : Fin cfg1.N) (v : Fin 3200) :
    (fun k : Fin 1024 => (Proj.blk V c 1 t : Mat 1024 3200) (ix2 k v)) = colOf (n := 32000) (V c main_v7) (pCol t v) := by
  obtain ⟨-, -, e10, e11, -⟩ := idx_tiles t
  funext k
  show V c main_v7 (((cfg1.win 1).blk t).view.emb (ix2 k v)) = V c main_v7 (ix2 k (pCol t v))
  refine congrArg _ (funext fun a => Fin.ext ?_)
  match a with
  | ⟨0, _⟩ => show win1_1.index t (0 : Fin 2) * 1024 + 1 * k.val = k.val; omega
  | ⟨1, _⟩ => show win1_1.index t (1 : Fin 2) * 3200 + 1 * v.val = 3200 * (t.val / 8) + v.val; omega

/-! ## The output array -/

/-- The projected output over the whole batch, from the hidden-state array and the projection matrix the region is
    entered with. -/
def GY (c : Dev nD) : Mat 4096 32000 :=
  fun i => ytRow (rowOf (n := 4096) (V c main_v8_2) (i 0)) (V c main_v7) (i 1)

/-- What grid point `t` writes back is block `t` of that function. -/
theorem flushed_Y (c : Dev nD) (t : Fin cfg1.N) :
    (Proj.dat V c).flushed 2 t = ((cfg1.win 2).blk t).view.read (Elt Ideal) (GY V c) := by
  show (cfg1.win 2).cut (grid1.coords t) ((Proj.dat V c).after 2 t) = _
  rw [Proj.after_y]
  unfold Proj.outY
  rw [View.canon_unit_zero hz]
  simp only [View.ld_unit_zero (S := S512x1024) hz, View.ld_unit_zero (S := S1024x3200) hz]
  obtain ⟨-, -, -, -, e20, e21⟩ := idx_tiles t
  funext j
  obtain ⟨r, v, rfl⟩ : ∃ (r : Fin 512) (v : Fin 3200), j = ix2 r v := ⟨j 0, j 1, eq_ix2 j⟩
  have hemb : ((cfg1.win 2).blk t).view.emb (ix2 r v) = (ix2 (pRow t r) (pCol t v) : S4096x32000.Idx) := by
    funext a; apply Fin.ext
    match a with
    | ⟨0, _⟩ => show win1_2.index t (0 : Fin 2) * 512 + 1 * r.val = 512 * (t.val % 8) + r.val; omega
    | ⟨1, _⟩ => show win1_2.index t (1 : Fin 2) * 3200 + 1 * v.val = 3200 * (t.val / 8) + v.val; omega
  show Gen.k1_pay1 (F := Ideal) (Proj.blk V c 0 t) (Proj.blk V c 1 t) (ix2 r v)
      = GY V c (((cfg1.win 2).blk t).view.emb (ix2 r v))
  rw [hemb]
  refine (pay_yt (Proj.blk V c 0 t) (Proj.blk V c 1 t) r v).trans ?_
  rw [row_hb V c t r, col_w V c t v]
  rfl

/-- An index of the array is in point `t`'s block iff each coordinate is in the block's range on its axis. -/
theorem mem_blk_Y (t : Fin cfg1.N) (i : S4096x32000.Idx) :
    i ∈ ((cfg1.win 2).blk t).view.set ↔ ∀ a : Fin 2, win1_2.index t a * S512x3200.size a ≤ (i a).val ∧ (i a).val < win1_2.index t a * S512x3200.size a + S512x3200.size a := by
  show i ∈ ((View.whole main_v9).slice (win1_2.rect t)).set ↔ _
  rw [View.set_slice_whole, Rect.mem_set_unit]
  exact Iff.rfl

/-- Every index of the array lies in the block of the point its row tile and column tile name. -/
theorem cover_Y (i : S4096x32000.Idx) :
    ∃ t : Fin cfg1.N, (cfg1.win 2).flush t = true ∧ i ∈ ((cfg1.win 2).blk t).view.set := by
  have hi0 : (i 0).val < 4096 := (i 0).isLt
  have hi1 : (i 1).val < 32000 := (i 1).isLt
  have hN : (i 1).val / 3200 * 8 + (i 0).val / 512 < cfg1.N := by show _ < grid1.N; rw [N_1]; omega
  refine ⟨⟨(i 1).val / 3200 * 8 + (i 0).val / 512, hN⟩, flush1_2 _, ?_⟩
  rw [mem_blk_Y]
  obtain ⟨-, -, -, -, e20, e21⟩ := idx_tiles ⟨(i 1).val / 3200 * 8 + (i 0).val / 512, hN⟩
  intro a
  match a with
  | ⟨0, _⟩ =>
    show win1_2.index ⟨(i 1).val / 3200 * 8 + (i 0).val / 512, hN⟩ (0 : Fin 2) * 512 ≤ (i 0).val ∧ (i 0).val < win1_2.index ⟨(i 1).val / 3200 * 8 + (i 0).val / 512, hN⟩ (0 : Fin 2) * 512 + 512
    rw [e20]; show ((i 1).val / 3200 * 8 + (i 0).val / 512) % 8 * 512 ≤ (i 0).val ∧ (i 0).val < ((i 1).val / 3200 * 8 + (i 0).val / 512) % 8 * 512 + 512; omega
  | ⟨1, _⟩ =>
    show win1_2.index ⟨(i 1).val / 3200 * 8 + (i 0).val / 512, hN⟩ (1 : Fin 2) * 3200 ≤ (i 1).val ∧ (i 1).val < win1_2.index ⟨(i 1).val / 3200 * 8 + (i 0).val / 512, hN⟩ (1 : Fin 2) * 3200 + 3200
    rw [e21]; show ((i 1).val / 3200 * 8 + (i 0).val / 512) / 8 * 3200 ≤ (i 1).val ∧ (i 1).val < ((i 1).val / 3200 * 8 + (i 0).val / 512) / 8 * 3200 + 3200; omega

/-- The projected output's array after the region. -/
theorem final_Y (c : Dev nD) : (Proj.dat V c).arrAt 2 cfg1.N = GY V c :=
  (Proj.dat V c).arrAt_eq_of_cover 2 (GY V c) (fun t _ => flushed_Y V c t) (cover_Y)

end Cert.KernelIdeal.ProjValue

end
-- ==== Proof.KI.Values.lean ====
/-
  The values of the three results of the kernel program at the exact instance, as functions of its arguments.

  The host operations leave, in the buffers the cell region reads its weights from, the four input matrices and the four
  hidden matrices laid side by side (`wideX`, `wideH`), the forget and input peephole matrices laid side by side
  (`peep`), and the output peephole and projection matrices themselves — a change of number format being the identity
  on the extended reals. The two halves of `peep` are the two matrices it was made of. The cell region then leaves
  the row-by-row cell of every batch row in its output arrays, and the projection region sigma of the new hidden state
  against the projection matrix: the three results are `YtAll`, `HtAll`, `CtAll` of the arguments.
-/
import proofs.«170784_j51951924412948_2_alg».proof.Proof.KI.Kept
import proofs.«170784_j51951924412948_2_alg».proof.Proof.KI.CellValue
import proofs.«170784_j51951924412948_2_alg».proof.Proof.KI.ProjValue
import Idealize.ShloMosaic.Lib.StableHlo.Run
import Idealize.ShloMosaic.Lib.Pipeline.Value

set_option maxRecDepth 16384

noncomputable section

namespace Cert.KernelIdeal.Values

open Cert.KernelIdeal Cert.KernelIdeal.Gen Cert.KernelIdeal.Whole Cert.Lstm
open Idealize.ShloMosaic Idealize.ShloMosaic.TcCoe Idealize.ShloMosaic.ValueIdx Idealize.ShloMosaic.StableHlo
open Idealize.SL Idealize.SL.Sem

variable (m : (ℓ : Loc nD τ sig) → Buf (Elt Ideal) ℓ) (ρ : Dev nD → PrngReg)

/-! ## The weight matrices as the host operations lay them out -/

/-- The four input matrices side by side, in the order forget, input, candidate, output. -/
def wideX (c : Dev nD) : Mat 1024 4096 :=
  concatenate S1024x4096 1 [⟨S1024x1024, m ((c : Thread nD τ).loc main_arg11)⟩, ⟨S1024x1024, m ((c : Thread nD τ).loc main_arg12)⟩, ⟨S1024x1024, m ((c : Thread nD τ).loc main_arg14)⟩, ⟨S1024x1024, m ((c : Thread nD τ).loc main_arg13)⟩] concatenates_S1024x1024_S1024x1024_S1024x1024_S1024x1024_S1024x4096_d1
/-- The four hidden matrices side by side, in the same order. -/
def wideH (c : Dev nD) : Mat 1024 4096 :=
  concatenate S1024x4096 1 [⟨S1024x1024, m ((c : Thread nD τ).loc main_arg3)⟩, ⟨S1024x1024, m ((c : Thread nD τ).loc main_arg4)⟩, ⟨S1024x1024, m ((c : Thread nD τ).loc main_arg6)⟩, ⟨S1024x1024, m ((c : Thread nD τ).loc main_arg5)⟩] concatenates_S1024x1024_S1024x1024_S1024x1024_S1024x1024_S1024x4096_d1
/-- The forget and input peephole matrices side by side. -/
def peep (c : Dev nD) : Mat 1024 2048 :=
  concatenate S1024x2048 1 [⟨S1024x1024, m ((c : Thread nD τ).loc main_arg7)⟩, ⟨S1024x1024, m ((c : Thread nD τ).loc main_arg8)⟩] concatenates_S1024x1024_S1024x1024_S1024x2048_d1

/-- The left half of two matrices laid side by side is the first, the right half the second. -/
theorem leftHalf_pair (a b : Mat 1024 1024) :
    leftHalf (concatenate S1024x2048 1 [⟨S1024x1024, a⟩, ⟨S1024x1024, b⟩] concatenates_S1024x1024_S1024x1024_S1024x2048_d1) = a := by
  funext i
  unfold leftHalf
  refine concatenate_pair_apply_left (t := S1024x2048) (s₁ := S1024x1024) (s₂ := S1024x1024) (1 : Fin 2) a b _ _ rfl i fun d => ?_
  match d with
  | ⟨0, _⟩ => rfl
  | ⟨1, _⟩ => rfl
theorem rightHalf_pair (a b : Mat 1024 1024) :
    rightHalf (concatenate S1024x2048 1 [⟨S1024x1024, a⟩, ⟨S1024x1024, b⟩] concatenates_S1024x1024_S1024x1024_S1024x2048_d1) = b := by
  funext i
  unfold rightHalf
  refine concatenate_pair_apply_right (t := S1024x2048) (s₁ := S1024x1024) (s₂ := S1024x1024) (1 : Fin 2) a b _ _ rfl rfl i (fun d hd => ?_) ?_
  · match d with
    | ⟨0, _⟩ => rfl
    | ⟨1, _⟩ => exact absurd rfl hd
  · show (i 1).val + 1024 = 1024 + (i 1).val; omega

/-! ## What the cell region is entered with -/

theorem cell_x (c : Dev nD) : vCell m ρ c main_arg0 = m ((c : Thread nD τ).loc main_arg0) := atCell_of m ρ c main_arg0 (by decide)
theorem cell_h (c : Dev nD) : vCell m ρ c main_arg1 = m ((c : Thread nD τ).loc main_arg1) := atCell_of m ρ c main_arg1 (by decide)
theorem cell_c (c : Dev nD) : vCell m ρ c main_arg2 = m ((c : Thread nD τ).loc main_arg2) := atCell_of m ρ c main_arg2 (by decide)
theorem cell_wx (c : Dev nD) : (vCell m ρ c main_v1 : Mat 1024 4096) = wideX m c := by
  show StableHlo.after hostOps0 (atLaunch m ρ c) (Proc.devRef .tc main_v1) = _
  after_results; rfl
theorem cell_wh (c : Dev nD) : (vCell m ρ c main_v3 : Mat 1024 4096) = wideH m c := by
  show StableHlo.after hostOps0 (atLaunch m ρ c) (Proc.devRef .tc main_v3) = _
  after_results; rfl
theorem cell_wf (c : Dev nD) : (vCell m ρ c main_v5 : Mat 1024 2048) = peep m c := by
  show StableHlo.after hostOps0 (atLaunch m ρ c) (Proc.devRef .tc main_v5) = _
  after_results; rfl
theorem cell_wo (c : Dev nD) : (vCell m ρ c main_v6 : Mat 1024 1024) = m ((c : Thread nD τ).loc main_arg9) := by
  show StableHlo.after hostOps0 (atLaunch m ρ c) (Proc.devRef .tc main_v6) = _
  after_results; rfl
theorem cell_wp (c : Dev nD) : (vCell m ρ c main_v7 : Mat 1024 32000) = m ((c : Thread nD τ).loc main_arg10) := by
  show StableHlo.after hostOps0 (atLaunch m ρ c) (Proc.devRef .tc main_v7) = _
  after_results; rfl

/-! ## The three results -/

/-- The new cell state's array at the end. -/
theorem end_ct (c : Dev nD) : (atEnd m ρ c (Proc.devRef .tc main_v8_1) : Mat 4096 1024)
    = CtAll (m ((c : Thread nD τ).loc main_arg0)) (m ((c : Thread nD τ).loc main_arg1)) (m ((c : Thread nD τ).loc main_arg2)) (wideX m c) (wideH m c) (m ((c : Thread nD τ).loc main_arg7)) (m ((c : Thread nD τ).loc main_arg8)) := by
  rw [atEnd_of_ne m ρ c main_v8_1 (by decide)]
  refine ((atProj_arr m ρ c 8).trans (CellValue.final_C (vCell m ρ) c)).trans ?_
  unfold CellValue.GC
  rw [cell_x, cell_h, cell_c, cell_wx, cell_wh, cell_wf]
  unfold peep
  rw [leftHalf_pair, rightHalf_pair]

/-- The new hidden state's array at the end. -/
theorem end_ht (c : Dev nD) : (atEnd m ρ c (Proc.devRef .tc main_v8_0) : Mat 4096 1024)
    = HtAll (m ((c : Thread nD τ).loc main_arg0)) (m ((c : Thread nD τ).loc main_arg1)) (m ((c : Thread nD τ).loc main_arg2)) (wideX m c) (wideH m c) (m ((c : Thread nD τ).loc main_arg7)) (m ((c : Thread nD τ).loc main_arg8)) (m ((c : Thread nD τ).loc main_arg9)) := by
  rw [atEnd_of_ne m ρ c main_v8_0 (by decide)]
  refine ((atProj_arr m ρ c 7).trans (CellValue.final_H (vCell m ρ) c)).trans ?_
  unfold CellValue.GH
  rw [cell_x, cell_h, cell_c, cell_wx, cell_wh, cell_wf, cell_wo]
  unfold peep
  rw [leftHalf_pair, rightHalf_pair]

/-- The narrow copy of the new hidden state, which the projection region reads, holds the same numbers. -/
theorem proj_h (c : Dev nD) : (vProj m ρ c main_v8_2 : Mat 4096 1024)
    = HtAll (m ((c : Thread nD τ).loc main_arg0)) (m ((c : Thread nD τ).loc main_arg1)) (m ((c : Thread nD τ).loc main_arg2)) (wideX m c) (wideH m c) (m ((c : Thread nD τ).loc main_arg7)) (m ((c : Thread nD τ).loc main_arg8)) (m ((c : Thread nD τ).loc main_arg9)) := by
  refine ((atProj_arr m ρ c 9).trans (CellValue.final_N (vCell m ρ) c)).trans ?_
  unfold CellValue.GH
  rw [cell_x, cell_h, cell_c, cell_wx, cell_wh, cell_wf, cell_wo]
  unfold peep
  rw [leftHalf_pair, rightHalf_pair]

/-- The projection matrix the projection region reads is the argument's. -/
theorem proj_w (c : Dev nD) : (vProj m ρ c main_v7 : Mat 1024 32000) = m ((c : Thread nD τ).loc main_arg10) :=
  (atProj_of_ne m ρ c main_v7 (by decide)).trans (cell_wp m ρ c)

/-- The projected output's array at the end. -/
theorem end_yt (c : Dev nD) : (atEnd m ρ c (Proc.devRef .tc main_v9) : Mat 4096 32000)
    = YtAll (m ((c : Thread nD τ).loc main_arg0)) (m ((c : Thread nD τ).loc main_arg1)) (m ((c : Thread nD τ).loc main_arg2)) (wideX m c) (wideH m c) (m ((c : Thread nD τ).loc main_arg7)) (m ((c : Thread nD τ).loc main_arg8)) (m ((c : Thread nD τ).loc main_arg9)) (m ((c : Thread nD τ).loc main_arg10)) := by
  refine ((atEnd_arr m ρ c 2).trans (ProjValue.final_Y (vProj m ρ) c)).trans ?_
  unfold ProjValue.GY
  rw [proj_h, proj_w]
  rfl

/-- Every weakly fair execution of the kernel program at the exact instance terminates, nothing faulting, with its three
    results at the row-by-row cell of its arguments and its arguments as launched. -/
theorem run : θ_run defs (onTc (τ := τ) (main (F := Ideal))) ⟨m, fun _ => 0, ρ⟩ (fun r => ∀ c : Dev nD,
      r.2.mem ((c.tc : Thread nD τ).loc main_v9) = YtAll (m ((c : Thread nD τ).loc main_arg0)) (m ((c : Thread nD τ).loc main_arg1)) (m ((c : Thread nD τ).loc main_arg2)) (wideX m c) (wideH m c) (m ((c : Thread nD τ).loc main_arg7)) (m ((c : Thread nD τ).loc main_arg8)) (m ((c : Thread nD τ).loc main_arg9)) (m ((c : Thread nD τ).loc main_arg10))
      ∧ r.2.mem ((c.tc : Thread nD τ).loc main_v8_0) = HtAll (m ((c : Thread nD τ).loc main_arg0)) (m ((c : Thread nD τ).loc main_arg1)) (m ((c : Thread nD τ).loc main_arg2)) (wideX m c) (wideH m c) (m ((c : Thread nD τ).loc main_arg7)) (m ((c : Thread nD τ).loc main_arg8)) (m ((c : Thread nD τ).loc main_arg9))
      ∧ r.2.mem ((c.tc : Thread nD τ).loc main_v8_1) = CtAll (m ((c : Thread nD τ).loc main_arg0)) (m ((c : Thread nD τ).loc main_arg1)) (m ((c : Thread nD τ).loc main_arg2)) (wideX m c) (wideH m c) (m ((c : Thread nD τ).loc main_arg7)) (m ((c : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c => ⟨(h c _ (mem_uc main_v9 (by decide))).trans (end_yt m ρ c),
    (h c _ (mem_uc main_v8_0 (by decide))).trans (end_ht m ρ c),
    (h c _ (mem_uc main_v8_1 (by decide))).trans (end_ct m ρ c),
    (h c _ (mem_uc main_arg0 (by decide))).trans (end_arg0 m ρ c),
    (h c _ (mem_uc main_arg1 (by decide))).trans (end_arg1 m ρ c),
    (h c _ (mem_uc main_arg2 (by decide))).trans (end_arg2 m ρ c),
    (h c _ (mem_uc main_arg3 (by decide))).trans (end_arg3 m ρ c),
    (h c _ (mem_uc main_arg4 (by decide))).trans (end_arg4 m ρ c),
    (h c _ (mem_uc main_arg5 (by decide))).trans (end_arg5 m ρ c),
    (h c _ (mem_uc main_arg6 (by decide))).trans (end_arg6 m ρ c),
    (h c _ (mem_uc main_arg7 (by decide))).trans (end_arg7 m ρ c),
    (h c _ (mem_uc main_arg8 (by decide))).trans (end_arg8 m ρ c),
    (h c _ (mem_uc main_arg9 (by decide))).trans (end_arg9 m ρ c),
    (h c _ (mem_uc main_arg10 (by decide))).trans (end_arg10 m ρ c),
    (h c _ (mem_uc main_arg11 (by decide))).trans (end_arg11 m ρ c),
    (h c _ (mem_uc main_arg12 (by decide))).trans (end_arg12 m ρ c),
    (h c _ (mem_uc main_arg13 (by decide))).trans (end_arg13 m ρ c),
    (h c _ (mem_uc main_arg14 (by decide))).trans (end_arg14 m ρ c)⟩)
    (run_all m ρ)

end Cert.KernelIdeal.Values

end
-- ==== Proof.RefCell.lean ====
/-
  The reference program computes the peephole LSTM cell, index by index.

  Write X, H, C for the three batch arrays (4096 rows of 1024 entries), wx and wh for the two wide weight matrices
  (1024 x 4096) that the program forms by laying four square matrices side by side, wfc, wic, woc for the peephole
  matrices and wop for the projection matrix. For a batch row p and a unit j the program's values are

    its sum of the two wide products at (p, J)     =  X[p, :] . wx[:, J] + H[p, :] . wh[:, J]  =  z J,
    its forget gate at (p, j)                      =  sigma (z j + C[p, :] . wfc[:, j]),
    its input gate at (p, j)                       =  sigma (z (1024 + j) + C[p, :] . wic[:, j]),
    its new cell state at (p, j)                   =  forget * C[p, j] + input * tanh (z (2048 + j))  =  c' j,
    its output gate at (p, j)                      =  sigma (z (3072 + j) + c' . woc[:, j]),
    its new hidden state at (p, j)                 =  output * tanh (c' j)  =  h' j,
    its projected output at (p, v)                 =  sigma (h' . wop[:, v]),

  where the program spells sigma x as 1 / (1 + e^(-x)) with the constant word 0x3F800000, which is the number one.
  Each column band of the wide sum is read at the wide column 1024 * g + j, and every dot product is the sum over the
  same 1024 inner coordinates in the same order as in the row-by-row statement, so the two sides agree term by term
  and no entry needs to be finite. The two wide matrices are kept as whole arrays throughout.

  The three results are then equal, as whole arrays, to the row-by-row cell applied to every batch row.
-/
import proofs.«170784_j51951924412948_2_alg».proof.Proof.LstmCell
import proofs.«170784_j51951924412948_2_alg».proof.Proof.Gen.ReferenceIdeal.Read

noncomputable section

namespace Cert.Lstm.Ref

open Cert.ReferenceIdeal Cert.ReferenceIdeal.Read Idealize.ShloMosaic Idealize.ShloMosaic.ValueIdx
open scoped BigOperators

/-- The word 0x3F800000 is the real number one. -/
theorem one_word : Ideal.ofBits .f32 0x3F800000#32 = 1 := by
  simp [Ideal.ofBits, Ideal.ieee, -EReal.coe_mul]; norm_num

/-! ### Index equations: the composed index functions are the coordinate constructors -/

theorem lidx2 (p : Fin 4096) (J : Fin 4096) (k : Fin 1024) : lidx_main_v2 (ix2 p J) k = ix2 p k := funext fun a => Fin.ext (by match a with | ⟨0, _⟩ => rfl | ⟨1, _⟩ => rfl)
theorem ridx2 (p : Fin 4096) (J : Fin 4096) (k : Fin 1024) : ridx_main_v2 (ix2 p J) k = ix2 k J := funext fun a => Fin.ext (by match a with | ⟨0, _⟩ => rfl | ⟨1, _⟩ => rfl)
theorem lidx3 (p : Fin 4096) (J : Fin 4096) (k : Fin 1024) : lidx_main_v3 (ix2 p J) k = ix2 p k := funext fun a => Fin.ext (by match a with | ⟨0, _⟩ => rfl | ⟨1, _⟩ => rfl)
theorem ridx3 (p : Fin 4096) (J : Fin 4096) (k : Fin 1024) : ridx_main_v3 (ix2 p J) k = ix2 k J := funext fun a => Fin.ext (by match a with | ⟨0, _⟩ => rfl | ⟨1, _⟩ => rfl)
theorem idx5 (p : Fin 4096) (j : Fin 1024) : idx_main_v5 (ix2 p j) = ix2 p (band0 j) := funext fun a => Fin.ext (by match a with | ⟨0, _⟩ => rfl | ⟨1, _⟩ => rfl)
theorem idx6 (p : Fin 4096) (j : Fin 1024) : idx_main_v6 (ix2 p j) = ix2 p (band1 j) := funext fun a => Fin.ext (by match a with | ⟨0, _⟩ => rfl | ⟨1, _⟩ => rfl)
theorem idx7 (p : Fin 4096) (j : Fin 1024) : idx_main_v7 (ix2 p j) = ix2 p (band2 j) := funext fun a => Fin.ext (by match a with | ⟨0, _⟩ => rfl | ⟨1, _⟩ => rfl)
theorem idx8 (p : Fin 4096) (j : Fin 1024) : idx_main_v8 (ix2 p j) = ix2 p (band3 j) := funext fun a => Fin.ext (by match a with | ⟨0, _⟩ => rfl | ⟨1, _⟩ => rfl)
theorem lidx9 (p : Fin 4096) (j : Fin 1024) (k : Fin 1024) : lidx_main_v9 (ix2 p j) k = ix2 p k := funext fun a => Fin.ext (by match a with | ⟨0, _⟩ => rfl | ⟨1, _⟩ => rfl)
theorem ridx9 (p : Fin 4096) (j : Fin 1024) (k : Fin 1024) : ridx_main_v9 (ix2 p j) k = ix2 k j := funext fun a => Fin.ext (by match a with | ⟨0, _⟩ => rfl | ⟨1, _⟩ => rfl)
theorem lidx17 (p : Fin 4096) (j : Fin 1024) (k : Fin 1024) : lidx_main_v17 (ix2 p j) k = ix2 p k := funext fun a => Fin.ext (by match a with | ⟨0, _⟩ => rfl | ⟨1, _⟩ => rfl)
theorem ridx17 (p : Fin 4096) (j : Fin 1024) (k : Fin 1024) : ridx_main_v17 (ix2 p j) k = ix2 k j := funext fun a => Fin.ext (by match a with | ⟨0, _⟩ => rfl | ⟨1, _⟩ => rfl)
theorem lidx29 (p : Fin 4096) (j : Fin 1024) (k : Fin 1024) : lidx_main_v29 (ix2 p j) k = ix2 p k := funext fun a => Fin.ext (by match a with | ⟨0, _⟩ => rfl | ⟨1, _⟩ => rfl)
theorem ridx29 (p : Fin 4096) (j : Fin 1024) (k : Fin 1024) : ridx_main_v29 (ix2 p j) k = ix2 k j := funext fun a => Fin.ext (by match a with | ⟨0, _⟩ => rfl | ⟨1, _⟩ => rfl)
theorem lidx39 (p : Fin 4096) (v : Fin 32000) (k : Fin 1024) : lidx_main_v39 (ix2 p v) k = ix2 p k := funext fun a => Fin.ext (by match a with | ⟨0, _⟩ => rfl | ⟨1, _⟩ => rfl)
theorem ridx39 (p : Fin 4096) (v : Fin 32000) (k : Fin 1024) : ridx_main_v39 (ix2 p v) k = ix2 k v := funext fun a => Fin.ext (by match a with | ⟨0, _⟩ => rfl | ⟨1, _⟩ => rfl)

/-! ### The gates' shared pre-activation -/

theorem pre_eq (x0 x1 : (⟨S4096x1024, .f32⟩ : BufTy).Contents (Elt Ideal))
    (x3 x4 x5 x6 x11 x12 x13 x14 : (⟨S1024x1024, .f32⟩ : BufTy).Contents (Elt Ideal)) (p : Fin 4096) (J : Fin 4096) :
    val_main_v4 (F := Ideal) x0 x1 x3 x4 x5 x6 x11 x12 x13 x14 (ix2 p J)
      = zRow (rowOf x0 p) (rowOf x1 p) (val_main_v0 (F := Ideal) x11 x12 x13 x14) (val_main_v1 (F := Ideal) x3 x4 x5 x6) J := by
  rw [val_main_v4_apply, val_main_v2_apply, val_main_v3_apply]
  simp only [lidx2, ridx2, lidx3, ridx3]
  rfl

/-! ### The forget and input gates -/

theorem forget_eq (x0 x1 x2 : (⟨S4096x1024, .f32⟩ : BufTy).Contents (Elt Ideal))
    (x3 x4 x5 x6 x7 x11 x12 x13 x14 : (⟨S1024x1024, .f32⟩ : BufTy).Contents (Elt Ideal)) (p : Fin 4096) (j : Fin 1024) :
    val_main_v16 (F := Ideal) x0 x1 x2 x3 x4 x5 x6 x7 x11 x12 x13 x14 (ix2 p j)
      = Ideal.logistic (zRow (rowOf x0 p) (rowOf x1 p) (val_main_v0 (F := Ideal) x11 x12 x13 x14) (val_main_v1 (F := Ideal) x3 x4 x5 x6) (band0 j)
          + dot (rowOf x2 p) (colOf x7 j)) := by
  rw [val_main_v16_apply, val_main_v15_apply, val_main_cst_0_apply, val_main_v14_apply, val_main_v13_apply,
    val_main_cst_apply, val_main_v12_apply, val_main_v11_apply, val_main_v10_apply, val_main_v5_apply,
    val_main_v9_apply, idx5, pre_eq]
  simp only [lidx9, ridx9, Ideal.ofBits_def, one_word, Ideal.addf_def, Ideal.hostDivf_def, Ideal.hostUnary_exp_def,
    Ideal.hostNegf_def, Ideal.negf_def]
  rfl

theorem input_eq (x0 x1 x2 : (⟨S4096x1024, .f32⟩ : BufTy).Contents (Elt Ideal))
    (x3 x4 x5 x6 x8 x11 x12 x13 x14 : (⟨S1024x1024, .f32⟩ : BufTy).Contents (Elt Ideal)) (p : Fin 4096) (j : Fin 1024) :
    val_main_v24 (F := Ideal) x0 x1 x2 x3 x4 x5 x6 x8 x11 x12 x13 x14 (ix2 p j)
      = Ideal.logistic (zRow (rowOf x0 p) (rowOf x1 p) (val_main_v0 (F := Ideal) x11 x12 x13 x14) (val_main_v1 (F := Ideal) x3 x4 x5 x6) (band1 j)
          + dot (rowOf x2 p) (colOf x8 j)) := by
  rw [val_main_v24_apply, val_main_v23_apply, val_main_cst_2_apply, val_main_v22_apply, val_main_v21_apply,
    val_main_cst_1_apply, val_main_v20_apply, val_main_v19_apply, val_main_v18_apply, val_main_v6_apply,
    val_main_v17_apply, idx6, pre_eq]
  simp only [lidx17, ridx17, Ideal.ofBits_def, one_word, Ideal.addf_def, Ideal.hostDivf_def, Ideal.hostUnary_exp_def,
    Ideal.hostNegf_def, Ideal.negf_def]
  rfl

/-! ### The new cell state -/

theorem ct_at (x0 x1 x2 : (⟨S4096x1024, .f32⟩ : BufTy).Contents (Elt Ideal))
    (x3 x4 x5 x6 x7 x8 x11 x12 x13 x14 : (⟨S1024x1024, .f32⟩ : BufTy).Contents (Elt Ideal)) (p : Fin 4096) (j : Fin 1024) :
    val_main_v28 (F := Ideal) x0 x1 x2 x3 x4 x5 x6 x7 x8 x11 x12 x13 x14 (ix2 p j)
      = ctRow (rowOf x0 p) (rowOf x1 p) (rowOf x2 p) (val_main_v0 (F := Ideal) x11 x12 x13 x14) (val_main_v1 (F := Ideal) x3 x4 x5 x6) x7 x8 j := by
  rw [val_main_v28_apply, val_main_v26_apply, val_main_v27_apply, val_main_v25_apply, val_main_v7_apply,
    forget_eq, input_eq, idx7, pre_eq]
  simp only [Ideal.addf_def, Ideal.mulf_def, Ideal.hostUnary_tanh_def]
  rfl

theorem ref_ct (x0 x1 x2 : (⟨S4096x1024, .f32⟩ : BufTy).Contents (Elt Ideal))
    (x3 x4 x5 x6 x7 x8 x11 x12 x13 x14 : (⟨S1024x1024, .f32⟩ : BufTy).Contents (Elt Ideal)) :
    val_main_v28 (F := Ideal) x0 x1 x2 x3 x4 x5 x6 x7 x8 x11 x12 x13 x14
      = CtAll x0 x1 x2 (val_main_v0 (F := Ideal) x11 x12 x13 x14) (val_main_v1 (F := Ideal) x3 x4 x5 x6) x7 x8 := by
  funext i
  obtain ⟨p, j, rfl⟩ : ∃ (p : Fin 4096) (j : Fin 1024), i = ix2 p j := ⟨i 0, i 1, eq_ix2 i⟩
  exact ct_at x0 x1 x2 x3 x4 x5 x6 x7 x8 x11 x12 x13 x14 p j

/-! ### The output gate and the new hidden state -/

theorem output_eq (x0 x1 x2 : (⟨S4096x1024, .f32⟩ : BufTy).Contents (Elt Ideal))
    (x3 x4 x5 x6 x7 x8 x9 x11 x12 x13 x14 : (⟨S1024x1024, .f32⟩ : BufTy).Contents (Elt Ideal)) (p : Fin 4096) (j : Fin 1024) :
    val_main_v36 (F := Ideal) x0 x1 x2 x3 x4 x5 x6 x7 x8 x9 x11 x12 x13 x14 (ix2 p j)
      = Ideal.logistic (zRow (rowOf x0 p) (rowOf x1 p) (val_main_v0 (F := Ideal) x11 x12 x13 x14) (val_main_v1 (F := Ideal) x3 x4 x5 x6) (band3 j)
          + dot (ctRow (rowOf x0 p) (rowOf x1 p) (rowOf x2 p) (val_main_v0 (F := Ideal) x11 x12 x13 x14) (val_main_v1 (F := Ideal) x3 x4 x5 x6) x7 x8) (colOf x9 j)) := by
  rw [val_main_v36_apply, val_main_v35_apply, val_main_cst_4_apply, val_main_v34_apply, val_main_v33_apply,
    val_main_cst_3_apply, val_main_v32_apply, val_main_v31_apply, val_main_v30_apply, val_main_v8_apply,
    val_main_v29_apply, idx8, pre_eq]
  simp only [lidx29, ridx29, ct_at, Ideal.ofBits_def, one_word, Ideal.addf_def, Ideal.hostDivf_def,
    Ideal.hostUnary_exp_def, Ideal.hostNegf_def, Ideal.negf_def]
  rfl

theorem ht_at (x0 x1 x2 : (⟨S4096x1024, .f32⟩ : BufTy).Contents (Elt Ideal))
    (x3 x4 x5 x6 x7 x8 x9 x11 x12 x13 x14 : (⟨S1024x1024, .f32⟩ : BufTy).Contents (Elt Ideal)) (p : Fin 4096) (j : Fin 1024) :
    val_main_v38 (F := Ideal) x0 x1 x2 x3 x4 x5 x6 x7 x8 x9 x11 x12 x13 x14 (ix2 p j)
      = htRow (rowOf x0 p) (rowOf x1 p) (rowOf x2 p) (val_main_v0 (F := Ideal) x11 x12 x13 x14) (val_main_v1 (F := Ideal) x3 x4 x5 x6) x7 x8 x9 j := by
  rw [val_main_v38_apply, val_main_v37_apply, output_eq, ct_at]
  simp only [Ideal.mulf_def, Ideal.hostUnary_tanh_def]
  rfl

theorem ref_ht (x0 x1 x2 : (⟨S4096x1024, .f32⟩ : BufTy).Contents (Elt Ideal))
    (x3 x4 x5 x6 x7 x8 x9 x11 x12 x13 x14 : (⟨S1024x1024, .f32⟩ : BufTy).Contents (Elt Ideal)) :
    val_main_v38 (F := Ideal) x0 x1 x2 x3 x4 x5 x6 x7 x8 x9 x11 x12 x13 x14
      = HtAll x0 x1 x2 (val_main_v0 (F := Ideal) x11 x12 x13 x14) (val_main_v1 (F := Ideal) x3 x4 x5 x6) x7 x8 x9 := by
  funext i
  obtain ⟨p, j, rfl⟩ : ∃ (p : Fin 4096) (j : Fin 1024), i = ix2 p j := ⟨i 0, i 1, eq_ix2 i⟩
  exact ht_at x0 x1 x2 x3 x4 x5 x6 x7 x8 x9 x11 x12 x13 x14 p j

/-! ### The projected output -/

theorem yt_at (x0 x1 x2 : (⟨S4096x1024, .f32⟩ : BufTy).Contents (Elt Ideal))
    (x3 x4 x5 x6 x7 x8 x9 : (⟨S1024x1024, .f32⟩ : BufTy).Contents (Elt Ideal)) (x10 : (⟨S1024x32000, .f32⟩ : BufTy).Contents (Elt Ideal))
    (x11 x12 x13 x14 : (⟨S1024x1024, .f32⟩ : BufTy).Contents (Elt Ideal)) (p : Fin 4096) (v : Fin 32000) :
    val_main_v45 (F := Ideal) x0 x1 x2 x3 x4 x5 x6 x7 x8 x9 x10 x11 x12 x13 x14 (ix2 p v)
      = ytRow (htRow (rowOf x0 p) (rowOf x1 p) (rowOf x2 p) (val_main_v0 (F := Ideal) x11 x12 x13 x14) (val_main_v1 (F := Ideal) x3 x4 x5 x6) x7 x8 x9) x10 v := by
  rw [val_main_v45_apply, val_main_v44_apply, val_main_cst_6_apply, val_main_v43_apply, val_main_v42_apply,
    val_main_cst_5_apply, val_main_v41_apply, val_main_v40_apply, val_main_v39_apply]
  simp only [lidx39, ridx39, ht_at, Ideal.ofBits_def, one_word, Ideal.addf_def, Ideal.hostDivf_def,
    Ideal.hostUnary_exp_def, Ideal.hostNegf_def, Ideal.negf_def]
  rfl

theorem ref_yt (x0 x1 x2 : (⟨S4096x1024, .f32⟩ : BufTy).Contents (Elt Ideal))
    (x3 x4 x5 x6 x7 x8 x9 : (⟨S1024x1024, .f32⟩ : BufTy).Contents (Elt Ideal)) (x10 : (⟨S1024x32000, .f32⟩ : BufTy).Contents (Elt Ideal))
    (x11 x12 x13 x14 : (⟨S1024x1024, .f32⟩ : BufTy).Contents (Elt Ideal)) :
    val_main_v45 (F := Ideal) x0 x1 x2 x3 x4 x5 x6 x7 x8 x9 x10 x11 x12 x13 x14
      = YtAll x0 x1 x2 (val_main_v0 (F := Ideal) x11 x12 x13 x14) (val_main_v1 (F := Ideal) x3 x4 x5 x6) x7 x8 x9 x10 := by
  funext i
  obtain ⟨p, v, rfl⟩ : ∃ (p : Fin 4096) (v : Fin 32000), i = ix2 p v := ⟨i 0, i 1, eq_ix2 i⟩
  exact yt_at x0 x1 x2 x3 x4 x5 x6 x7 x8 x9 x10 x11 x12 x13 x14 p v

end Cert.Lstm.Ref

end
-- ==== Proof.lean ====
/-
  A peephole LSTM cell step followed by an output projection, computed by two pipelined kernels, against the same
  computation written as plain array operations.

  Both programs first lay the four input matrices and the four hidden matrices side by side. The reference then forms
  z = x . Wx + h . Wh, cuts it into its four gate bands, adds the peephole products c . Wfc, c . Wic and c' . Woc, and
  applies sigma and tanh entry by entry; its last step is sigma (h' . Wop). The kernel program does the same block by
  block: its first kernel handles 128 batch rows per grid point — with the forget and input peephole products fused
  into one product against the two matrices laid side by side, whose two halves are the two products — and its second
  kernel handles a 512 x 3200 tile of the projection per grid point. On the extended reals a change of number format
  is the identity and the kernels' sigma is the reference's 1 / (1 + e^(-x)); every dot product on either side is the
  sum over the same 1024 inner coordinates in the same order, so the two programs' results agree entry by entry with
  no appeal to the inputs being finite.

  The three frame claims: each kernel program's run is followed stretch by stretch (the host operations, the cell
  region, the projection region), every argument's buffer holding its launch contents throughout; the reference's
  frame is its run with the results dropped. The idealization rewrote no operation, so it is preserved trivially.
-/
import proofs.«170784_j51951924412948_2_alg».proof.Defs
import proofs.«170784_j51951924412948_2_alg».proof.Proof.Gen.Kernel
import proofs.«170784_j51951924412948_2_alg».proof.Proof.Gen.KernelIdeal
import proofs.«170784_j51951924412948_2_alg».proof.Proof.Gen.ReferenceIdeal
import proofs.«170784_j51951924412948_2_alg».proof.Proof.Gen.ReferenceIdeal.Run
import proofs.«170784_j51951924412948_2_alg».proof.Proof.Gen.ReferenceIdeal.Read
import proofs.«170784_j51951924412948_2_alg».proof.Proof.Gen.Pre_finite_inputs
import proofs.«170784_j51951924412948_2_alg».proof.Proof.KB.Kept
import proofs.«170784_j51951924412948_2_alg».proof.Proof.KI.Values
import proofs.«170784_j51951924412948_2_alg».proof.Proof.RefCell
import Idealize.ShloMosaic.Adequacy
import Idealize.ShloMosaic.Init

noncomputable section

namespace Cert.Proof

open Idealize.ShloMosaic Idealize.SL.Sem

/-- The word-level kernel program runs to the end, faults nowhere, and leaves its arguments unchanged. -/
theorem frame_kernel : Cert.frame_Kernel := fun m ρ _ => Cert.Kernel.Whole.frame m ρ

/-- So does the kernel program read at the exact instance. -/
theorem frame_kernel_ideal : Cert.frame_KernelIdeal := fun m ρ _ => Cert.KernelIdeal.Whole.frame m ρ

/-- The reference's frame is its run with the three results dropped. -/
theorem frame_reference : Cert.frame_ReferenceIdeal := fun m ρ _ =>
  (θ_run Cert.ReferenceIdeal.defs _ _).mono (fun _ h c => (h c).2.2.2) (Cert.ReferenceIdeal.Value.run (F := Ideal) m ρ)

/-- The idealization rewrote no operation. -/
theorem preserves : Cert.preserves_Kernel_KernelIdeal := trivial

/-- From memories that agree on the arguments both programs run, and their three results — the projected output, the
    new hidden state, the new cell state — are equal: each is the row-by-row cell of the arguments. -/
theorem algebraic : Cert.algebraic_KernelIdeal_ReferenceIdeal := by
  intro m ρ m' ρ' _ hagree
  refine ⟨_, _, _, Cert.KernelIdeal.Values.run m ρ, ?_⟩
  refine (θ_run Cert.ReferenceIdeal.defs _ _).mono (fun r h c => ?_) (Cert.ReferenceIdeal.Value.run (F := Ideal) m' ρ')
  obtain ⟨h45, h38, h28, hargs⟩ := h c
  obtain ⟨a0, a1, a2, a3, a4, a5, a6, a7, a8, a9, a10, a11, a12, a13, a14⟩ := hagree c
  refine ⟨?_, ?_, ?_, hargs⟩
  · rw [h45, Cert.ReferenceIdeal.Read.val_main_v45_eq, Cert.Lstm.Ref.ref_yt, a0, a1, a2, a3, a4, a5, a6, a7, a8, a9, a10, a11, a12, a13, a14]
    rfl
  · rw [h38, Cert.ReferenceIdeal.Read.val_main_v38_eq, Cert.Lstm.Ref.ref_ht, a0, a1, a2, a3, a4, a5, a6, a7, a8, a9, a11, a12, a13, a14]
    rfl
  · rw [h28, Cert.ReferenceIdeal.Read.val_main_v28_eq, Cert.Lstm.Ref.ref_ct, a0, a1, a2, a3, a4, a5, a6, a7, a8, a11, a12, a13, a14]
    rfl

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
